-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S2x1x128 : Shape := ⟨3, ![2, 1, 128]⟩
abbrev S5000x128 : Shape := ⟨2, ![5000, 128]⟩
abbrev S1x1x128 : Shape := ⟨3, ![1, 1, 128]⟩

abbrev nBuf : Space → Nat
  | .hbm => 86
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S2x1x128, .f32⟩
  | .hbm, ⟨30, _⟩ => ⟨S2x1x128, .f32⟩
  | .hbm, ⟨31, _⟩ => ⟨S_, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S2x1x128, .f32⟩
  | .hbm, ⟨66, _⟩ => ⟨S2x1x128, .f32⟩
  | .hbm, ⟨67, _⟩ => ⟨S_, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S_, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S_, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x1x128, .f32⟩
  | .local _ .vmem, ⟨29, _⟩ => ⟨S1x1x128, .f32⟩
  | .local _ .vmem, ⟨30, _⟩ => ⟨S1x1x128, .f32⟩
  | .local _ .vmem, ⟨31, _⟩ => ⟨S1x1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41_0 : Ref sig .tc := ⟨.hbm, 64, rfl⟩
abbrev main_v41_1 : Ref sig .tc := ⟨.hbm, 65, rfl⟩
abbrev main_v41_2 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 5], ![false, false]⟩

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x1x128_S1x1x128 : S1x1x128.ShapeCasts S1x1x128
  shapeCasts_S1x128_S1x1x128 : S1x128.ShapeCasts S1x1x128
  reducesTo_S2x1x128_S1x128_d0 : S2x1x128.ReducesTo [0] S1x128
  h_S_ : 0 < S_.numel
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S2x1x128.size a
  hwx0_6 : ∀ i : grid0.Coords, EltTy.bits .f32 = 32 ∨ (Rect.block (s := S2x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S2x1x128.size a
  hwx2_5 : ∀ i : grid2.Coords, EltTy.bits .f32 = 32 ∨ (Rect.block (s := S2x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S2x1x128.size a
  hwx2_6 : ∀ i : grid2.Coords, EltTy.bits .f32 = 32 ∨ (Rect.block (s := S2x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v41_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v41_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunMain.lean ====
/-
  The kernel program's run with its RESULT named. The program is eight segments in a row: a stretch of host
  operations, then a tiled region, four times over. Its frame run ends with every unscoped buffer at the contents
  the last segment leaves (the fold `W8` of the launch memory through the segments); the frame claim reads the ten
  argument buffers off that state, and here the result buffer is read off it as well: after the run the result holds
  `W8 m ρ c` at the result's reference, and the arguments are as launched. What that fold IS, as a function of the
  arguments, is the business of the modules that follow.
-/
import proofs.«156369_j37709812859563_2_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the result buffer holding what the last
    segment's fold leaves at it and the ten arguments as launched. -/
theorem run_main : θ_run defs (onTc (τ := τ) (main (F := F))) ⟨m, fun _ => 0, ρ⟩ (fun r => ∀ c : Dev nD,
      r.2.mem ((c.tc : Thread nD τ).loc main_v55) = W8 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v55 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KValue

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«156369_j37709812859563_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.LibColumnSums.lean ====
/-
  Sums down the columns, read entry by entry at the extended reals.

  * a tiled unit's `multi_reduction <add>` over axis 0 of an `[a, b]` block, at column `q`, is `∑ k < a, x (k, q)`;
  * the host's `reduce add` over axis 0 of an `[a, b]` array, at column `q`, is the initial value plus that sum;
  * the host's `reduce add` over the leading axis of an `[a, b, c]` array, at `(p, q)`, is the initial value plus
    `∑ k < a, x (k, p, q)`.
  All for arbitrary extents, so a block and a whole array are read by the same lemma.
-/
import Idealize.ShloMosaic.PureOps.Ideal.Laws
import Idealize.ShloMosaic.Lib.ValueIdx

noncomputable section

open scoped BigOperators

namespace Cert.ColumnSums

open Idealize.ShloMosaic Idealize.ShloMosaic.ValueIdx

/-- Column `q` with row `k` put back: the index a reduction over axis 0 of `[a, b]` reads. -/
theorem lift_col {a b : ℕ} (h : (⟨2, ![a, b]⟩ : Shape).Reduces [0] ⟨1, ![b]⟩) (q : Fin b) (k : Fin a) :
    h.lift (ix1 q) k = ix2 k q :=
  funext fun c => Fin.ext (by
    match c with
    | ⟨0, _⟩ => rfl
    | ⟨1, _⟩ => rfl)

/-- The tiled unit's sum down the columns, at column `q`. -/
theorem colSum_apply {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.add.neutral .f32 hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The host's sum down the columns, at column `q`: the initial value plus the column's sum. -/
theorem hostColSum_apply {a b : ℕ} {u : Shape} (x : FVec Ideal ⟨2, ![a, b]⟩ .f32) (init : FVec Ideal u .f32)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduceAdd (F := Ideal) x init h' hu (ix1 q) = init (Shape.Idx.first hu) + ∑ k : Fin a, x (ix2 k q) :=
  (Ideal.hostReduceAdd_single h' h x (init (Shape.Idx.first hu)) (ix1 q)).trans
    (congrArg (init (Shape.Idx.first hu) + ·) (Finset.sum_congr rfl fun k _ => congrArg x (lift_col h q k)))

/-- Entry `(p, q)` with the leading coordinate `k` put back: the index a reduction over axis 0 of `[a, b, c]` reads. -/
theorem lift_lead {a b c : ℕ} (h : (⟨3, ![a, b, c]⟩ : Shape).Reduces [0] ⟨2, ![b, c]⟩) (p : Fin b) (q : Fin c) (k : Fin a) :
    h.lift (ix2 p q) k = ix3 k p q :=
  funext fun d => Fin.ext (by
    match d with
    | ⟨0, _⟩ => rfl
    | ⟨1, _⟩ => rfl
    | ⟨2, _⟩ => rfl)

/-- The host's sum over the leading axis of a three-axis array, at `(p, q)`. -/
theorem hostLeadSum_apply {a b c : ℕ} {u : Shape} (x : FVec Ideal ⟨3, ![a, b, c]⟩ .f32) (init : FVec Ideal u .f32)
    (h' : (⟨3, ![a, b, c]⟩ : Shape).ReducesTo [0] ⟨2, ![b, c]⟩) (h : (⟨3, ![a, b, c]⟩ : Shape).Reduces [0] ⟨2, ![b, c]⟩)
    (hu : 0 < u.numel) (p : Fin b) (q : Fin c) :
    Host.reduceAdd (F := Ideal) x init h' hu (ix2 p q) = init (Shape.Idx.first hu) + ∑ k : Fin a, x (ix3 k p q) :=
  (Ideal.hostReduceAdd_single h' h x (init (Shape.Idx.first hu)) (ix2 p q)).trans
    (congrArg (init (Shape.Idx.first hu) + ·) (Finset.sum_congr rfl fun k _ => congrArg x (lift_lead h p q k)))

end Cert.ColumnSums

end
-- ==== Proof.StatsTile0.lean ====
/-
  The layer-and-statistics tile, read entry by entry at the extended reals. A tile is 5000 rows of features `x` and of
  their neighbourhood sums `a`, the `128 × 128` weights `W` and the one-row bias `b`. Its body forms

      h (p, q) = max (∑ k, (x (p, k) + a (p, k)) · W (k, q) + b (0, q)) 0,

  stores `h`, and adds the tile's column sums of `h` and of `h · h` onto two running `1 × 1 × 128` accumulators. A product
  into a zero accumulator is the plain sum of products, a sum down the columns is the plain sum, and the re-layings
  between `[128]`, `[1, 128]` and `[1, 1, 128]` keep the column.
-/
import proofs.«156369_j37709812859563_2_alg».proof.Proof.Gen.KernelIdeal.Skeleton
import proofs.«156369_j37709812859563_2_alg».proof.Proof.LibPlainDot
import proofs.«156369_j37709812859563_2_alg».proof.Proof.LibTileRows
import proofs.«156369_j37709812859563_2_alg».proof.Proof.LibColumnSums
import Idealize.ShloMosaic.Lib.ValueLayout

noncomputable section

open scoped BigOperators

namespace Cert.KernelIdeal.KValue.Tile0

open Cert.KernelIdeal Cert.KernelIdeal.Gen
open Idealize.ShloMosaic Idealize.ShloMosaic.ValueIdx

/-- The tile's product is a plain one: rows of the left operand against columns of the right. -/
theorem plainDot : Cert.PlainDot.IsPlain dot_S5000x128_S128x128_S5000x128_1_0_0_1_n_n := ⟨rfl, rfl, rfl, rfl, rfl, rfl⟩

/-- The hidden activations of the tile at row `p`, column `q`. -/
theorem hid_apply (x a : FVec Ideal S5000x128 .f32) (W : FVec Ideal S128x128 .f32) (b : FVec Ideal S1x128 .f32) (p : Fin 5000) (q : Fin 128) :
    k0_pay3 (F := Ideal) x a W b (ix2 p q)
      = max (∑ k : Fin 128, (x (ix2 p k) + a (ix2 p k)) * W (ix2 k q) + b (ix2 (0 : Fin 1) q)) 0 := by
  have hA : ∀ (p : Fin 5000) (k : Fin 128), (addf (F := Ideal) (φ := .f32) x (shapeCast S5000x128 a shapeCasts_S5000x128_S5000x128) : FVec Ideal S5000x128 .f32) (ix2 p k)
      = x (ix2 p k) + a (ix2 p k) := fun p k => by
    rw [addf_apply, shapeCast_self]
  have hM : ∀ (p : Fin 5000) (q : Fin 128), matmul dot_S5000x128_S128x128_S5000x128_1_0_0_1_n_n none
      (addf (F := Ideal) (φ := .f32) x (shapeCast S5000x128 a shapeCasts_S5000x128_S5000x128) : FVec Ideal S5000x128 .f32) W
      (constant S5000x128 .f32 0x00000000#32) (ix2 p q) = ∑ k : Fin 128, (x (ix2 p k) + a (ix2 p k)) * W (ix2 k q) := fun p q =>
    (Cert.PlainDot.matmul_zero_apply _ plainDot none _ W p q).trans (Finset.sum_congr rfl fun k _ => by rw [hA p k])
  exact Cert.TileRows.relu_rows _ _ (Cert.TileRows.bias_rows _ b shapeCasts_S1x128_S1x128 broadcasts_S1x128_S5000x128 _ hM) p q

/-- A freshly reset accumulator is zero at every column. -/
theorem reset_apply (q : Fin 128) : k0_pay1 (F := Ideal) (ix3 (0 : Fin 1) (0 : Fin 1) q) = 0 := by
  unfold k0_pay1
  show Ideal.ofBits .f32 0x00000000#32 = _
  rw [Ideal.ofBits_zero_f32]
theorem reset_apply' (q : Fin 128) : k0_pay2 (F := Ideal) (ix3 (0 : Fin 1) (0 : Fin 1) q) = 0 := by
  unfold k0_pay2
  show Ideal.ofBits .f32 0x00000000#32 = _
  rw [Ideal.ofBits_zero_f32]

/-- A same-shape re-laying of an accumulator reads the accumulator. -/
theorem acc_cast (v : FVec Ideal S1x1x128 .f32) (q : Fin 128) :
    shapeCast S1x1x128 v shapeCasts_S1x1x128_S1x1x128 (ix3 (0 : Fin 1) (0 : Fin 1) q) = v (ix3 (0 : Fin 1) (0 : Fin 1) q) := by
  rw [shapeCast_self]

/-- A tile's column sums, re-laid from `[128]` through `[1, 128]` to `[1, 1, 128]`, read at column `q`. -/
theorem colsum_cast (src : FVec Ideal S5000x128 .f32) (hφ : FKind.Formats .f32) (hacc : (0x00000000#32 : BitVec 32) = FKind.add.neutral .f32 hφ) (q : Fin 128) :
    shapeCast S1x1x128 (shapeCast S1x128 (multiReduction .add [0] S128 src 0x00000000#32 reduces_S5000x128_S128 hφ hacc) shapeCasts_S128_S1x128)
        shapeCasts_S1x128_S1x1x128 (ix3 (0 : Fin 1) (0 : Fin 1) q) = ∑ r : Fin 5000, src (ix2 r q) :=
  (shapeCast_ab_1ab_apply _ _ 0 0 q).trans ((shapeCast_a_1a_apply _ _ 0 q).trans (Cert.ColumnSums.colSum_apply src _ _ hφ hacc q))

/-- The first accumulator after the tile: what it held plus the tile's column sum of the activations. -/
theorem sum_apply (x a : FVec Ideal S5000x128 .f32) (W : FVec Ideal S128x128 .f32) (b : FVec Ideal S1x128 .f32) (acc : FVec Ideal S1x1x128 .f32) (q : Fin 128) :
    k0_pay4 (F := Ideal) x a W b acc (ix3 (0 : Fin 1) (0 : Fin 1) q)
      = acc (ix3 (0 : Fin 1) (0 : Fin 1) q) + ∑ r : Fin 5000, k0_pay3 (F := Ideal) x a W b (ix2 r q) := by
  unfold k0_pay4
  exact congrArg₂ (· + ·) (acc_cast acc q) (colsum_cast _ _ _ q)

/-- The second accumulator after the tile: what it held plus the tile's column sum of the squared activations. -/
theorem sq_apply (x a : FVec Ideal S5000x128 .f32) (W : FVec Ideal S128x128 .f32) (b : FVec Ideal S1x128 .f32) (acc : FVec Ideal S1x1x128 .f32) (q : Fin 128) :
    k0_pay5 (F := Ideal) x a W b acc (ix3 (0 : Fin 1) (0 : Fin 1) q)
      = acc (ix3 (0 : Fin 1) (0 : Fin 1) q) + ∑ r : Fin 5000, k0_pay3 (F := Ideal) x a W b (ix2 r q) * k0_pay3 (F := Ideal) x a W b (ix2 r q) := by
  unfold k0_pay5
  exact congrArg₂ (· + ·) (acc_cast acc q) (colsum_cast _ _ _ q)

end Cert.KernelIdeal.KValue.Tile0

end
-- ==== Proof.GinSpec.lean ====
/-
  A graph-isomorphism layer followed by batch normalisation, entry by entry on the extended reals.

  One layer takes node features `x : N × K`, their neighbourhood sums `a : N × K` (computed elsewhere), a weight matrix
  `W : K × J` and a bias `b : J`, and forms the hidden activations

      h n j = max (∑ k, (x n k + a n k) · W k j + b j) 0 .

  Batch normalisation then centres and scales every column `j` of `h` by that column's mean and variance over the
  `N` nodes:   out n j = (h n j − μ j) · (v j + ε)^(−1/2) · γ j + β j,   μ j = (0 + ∑ n, h n j) / N.

  The variance can be taken in two ways: as the mean of the squared deviations (`varTwoPass`), or as the mean of the
  squares minus the square of the mean (`varOnePass`). Over the reals they agree; over the extended reals they need
  not, which is why the comparison of the two is made on real entries (the module of the laws).
  Every sum is written with the leading `0 +` a summation started from zero carries.
-/
import Idealize.ShloMosaic.PureOps.Ideal
import Idealize.ShloMosaic.Lib.ValueIdx

noncomputable section

open scoped BigOperators

namespace Cert.Gin

open Idealize.ShloMosaic Idealize.ShloMosaic.ValueIdx

variable {N K J : ℕ}

/-- A family indexed by row and column as a two-axis array. -/
def arrOf (f : Fin N → Fin J → EReal) : (⟨2, ![N, J]⟩ : Shape).Idx → EReal := fun i => f (i 0) (i 1)

theorem arrOf_apply (f : Fin N → Fin J → EReal) (n : Fin N) (j : Fin J) : arrOf f (ix2 n j) = f n j := rfl

/-- Row `n`, column `k` of a two-axis array. -/
def rows (X : (⟨2, ![N, K]⟩ : Shape).Idx → EReal) : Fin N → Fin K → EReal := fun n k => X (ix2 n k)

/-- Entry `j` of a one-axis array. -/
def vec (b : (⟨1, ![J]⟩ : Shape).Idx → EReal) : Fin J → EReal := fun j => b (ix1 j)

theorem rows_arrOf (f : Fin N → Fin J → EReal) : rows (arrOf f) = f := rfl

/-- The hidden activations of one layer: features plus neighbourhood sums, times the weights, plus the bias, rectified. -/
def hidden (x a : Fin N → Fin K → EReal) (W : Fin K → Fin J → EReal) (b : Fin J → EReal) : Fin N → Fin J → EReal :=
  fun n j => max (∑ k, (x n k + a n k) * W k j + b j) 0

/-- The mean of column `j` over the nodes (`cN` stands for the number of nodes). -/
def mean (cN : EReal) (h : Fin N → Fin J → EReal) (j : Fin J) : EReal := Ideal.div (0 + ∑ n, h n j) cN

/-- The variance of column `j` as the mean of the squared deviations from the mean. -/
def varTwoPass (cN : EReal) (h : Fin N → Fin J → EReal) (j : Fin J) : EReal :=
  Ideal.div (0 + ∑ n, (h n j - mean cN h j) * (h n j - mean cN h j)) cN

/-- The variance of column `j` as the mean of the squares minus the square of the mean. -/
def varOnePass (cN : EReal) (h : Fin N → Fin J → EReal) (j : Fin J) : EReal :=
  Ideal.div (0 + ∑ n, h n j * h n j) cN - mean cN h j * mean cN h j

/-- Centre at `μ`, scale by `r`, then by `γ`, and shift by `β`, column by column. -/
def scaleShift (h : Fin N → Fin J → EReal) (μ r γ β : Fin J → EReal) : Fin N → Fin J → EReal :=
  fun n j => (h n j - μ j) * r j * γ j + β j

/-- Batch normalisation with the two-pass variance. -/
def bnTwoPass (cN eps : EReal) (h : Fin N → Fin J → EReal) (γ β : Fin J → EReal) : Fin N → Fin J → EReal :=
  scaleShift h (mean cN h) (fun j => Ideal.rsqrt (varTwoPass cN h j + eps)) γ β

/-- Batch normalisation with the one-pass variance. -/
def bnOnePass (cN eps : EReal) (h : Fin N → Fin J → EReal) (γ β : Fin J → EReal) : Fin N → Fin J → EReal :=
  scaleShift h (mean cN h) (fun j => Ideal.rsqrt (varOnePass cN h j + eps)) γ β

/-- One whole layer as an array, the variance taken in two passes: `X` the features, `A` their neighbourhood sums. -/
def layerTwoPass (cN eps : EReal) (X A : (⟨2, ![N, K]⟩ : Shape).Idx → EReal) (W : (⟨2, ![K, J]⟩ : Shape).Idx → EReal)
    (b γ β : (⟨1, ![J]⟩ : Shape).Idx → EReal) : (⟨2, ![N, J]⟩ : Shape).Idx → EReal :=
  arrOf (bnTwoPass cN eps (hidden (rows X) (rows A) (rows W) (vec b)) (vec γ) (vec β))

/-- One whole layer as an array, the variance taken in one pass. -/
def layerOnePass (cN eps : EReal) (X A : (⟨2, ![N, K]⟩ : Shape).Idx → EReal) (W : (⟨2, ![K, J]⟩ : Shape).Idx → EReal)
    (b γ β : (⟨1, ![J]⟩ : Shape).Idx → EReal) : (⟨2, ![N, J]⟩ : Shape).Idx → EReal :=
  arrOf (bnOnePass cN eps (hidden (rows X) (rows A) (rows W) (vec b)) (vec γ) (vec β))

/-- The f32 word of 50000.0 and of the normalisation's epsilon (about 1e-5), as they are printed. -/
abbrev cN50000 : EReal := Ideal.ofBits .f32 0x47435000#32
abbrev epsBN : EReal := Ideal.ofBits .f32 0x3727C5AC#32

end Cert.Gin

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.LayerAssemble.lean ====
/-
  A tiled arrangement of one batch-normalised layer IS the layer.

  The arrangement stores the hidden activations whole (`Hd`), and gathers, for each column `j`, the column's sum and the
  column's sum of squares in pieces: the 50000 rows are cut into ten consecutive tiles of 5000 rows, tiles 0–4 are
  added up on one core and tiles 5–9 on the other (`S1`, `S2`: one partial sum per core and column). The mean
  (`μ`) and the reciprocal deviation (`r`) of a column are then formed from the two cores' partial sums, and the
  normalisation (`normArr`) reads these, and the scale and shift, as one-row operands at the entry's column.

  Adding the ten tiles of a column core by core gives the column's whole sum (`sum_two_cores`), so `μ` is the layer's
  mean and `r` the reciprocal square root of its one-pass variance plus `ε`, and the arrangement is
  `layerOnePass` entry by entry (`normArr_eq_layerOnePass`).

  Nothing here needs the entries to be finite: regrouping a sum uses only that `+` is commutative and associative, and
  the extended reals are a commutative additive monoid. No product is distributed over a sum anywhere.
-/
import proofs.«156369_j37709812859563_2_alg».proof.Proof.GinSpec
import proofs.«156369_j37709812859563_2_alg».proof.Proof.LibBlockAcc

noncomputable section

open scoped BigOperators

namespace Cert.Gin

open Idealize.ShloMosaic Idealize.ShloMosaic.ValueIdx

/-! ## The normalisation with one-row operands -/

/-- Centre, scale twice and shift, entry by entry, each one-row operand read at the entry's column. -/
def normArr {N J : ℕ} (h : (⟨2, ![N, J]⟩ : Shape).Idx → EReal) (μ r γ β : (⟨2, ![1, J]⟩ : Shape).Idx → EReal) : (⟨2, ![N, J]⟩ : Shape).Idx → EReal :=
  fun i => (h i - μ (ix2 (0 : Fin 1) (i 1))) * r (ix2 (0 : Fin 1) (i 1)) * γ (ix2 (0 : Fin 1) (i 1)) + β (ix2 (0 : Fin 1) (i 1))

/-- At row `n`, column `j`, every one-row operand is read at column `j`. -/
theorem normArr_apply {N J : ℕ} (h : (⟨2, ![N, J]⟩ : Shape).Idx → EReal) (μ r γ β : (⟨2, ![1, J]⟩ : Shape).Idx → EReal)
    (n : Fin N) (j : Fin J) :
    normArr h μ r γ β (ix2 n j)
      = (h (ix2 n j) - μ (ix2 (0 : Fin 1) j)) * r (ix2 (0 : Fin 1) j) * γ (ix2 (0 : Fin 1) j) + β (ix2 (0 : Fin 1) j) := rfl

/-! ## A column added up tile by tile on two cores -/

/-- A family over the 50000 rows continued by zero past the last row. -/
def extend0 (f : Fin 50000 → EReal) (d : ℕ) : EReal := if h : d < 50000 then f ⟨d, h⟩ else 0

/-- On a row the continuation is the family itself. -/
theorem extend0_val (f : Fin 50000 → EReal) (n : Fin 50000) : extend0 f n.val = f n := by
  unfold extend0
  rw [dif_pos n.isLt]

/-- The first `k` tiles of `n` consecutive terms each add up to the first `n * k` terms: by induction on `k`, one more
    tile adds the next `n` terms. -/
theorem sum_tiles {M : Type*} [AddCommMonoid M] (n : ℕ) (g : ℕ → M) (k : ℕ) :
    ∑ s ∈ Finset.range k, ∑ r : Fin n, g (n * s + r.val) = BlockAcc.partialSum n g k := by
  induction k with
  | zero => rw [Finset.sum_range_zero, BlockAcc.partialSum_zero]
  | succ k ih => rw [Finset.sum_range_succ, ih, BlockAcc.partialSum_succ]

/-- Ten consecutive tiles of 5000 rows, five per core on two cores, add up to the whole column. -/
theorem sum_two_cores (g : ℕ → EReal) :
    ∑ cc : Fin 2, ∑ s ∈ Finset.Ico (5 * cc.val) (5 * cc.val + 5), ∑ r : Fin 5000, g (5000 * s + r.val) = ∑ n : Fin 50000, g n.val := by
  -- the two cores: tiles 0–4 and tiles 5–9
  rw [Fin.sum_univ_two]
  show (∑ s ∈ Finset.Ico 0 5, ∑ r : Fin 5000, g (5000 * s + r.val))
      + (∑ s ∈ Finset.Ico 5 10, ∑ r : Fin 5000, g (5000 * s + r.val)) = _
  -- together: tiles 0–9, which are the first 5000 · 10 = 50000 terms
  rw [Finset.sum_Ico_consecutive _ (Nat.zero_le 5) (by norm_num : 5 ≤ 10), Nat.Ico_zero_eq_range, sum_tiles]
  exact BlockAcc.partialSum_all 5000 10 50000 (by norm_num) g

/-- The two cores' partial sums of a column `f`, added, are the column's sum. -/
theorem sum_cores_eq (f : Fin 50000 → EReal) (S : Fin 2 → EReal)
    (hS : ∀ cc : Fin 2, S cc
        = ∑ s ∈ Finset.Ico (5 * cc.val) (5 * cc.val + 5), ∑ r : Fin 5000, extend0 f (5000 * s + r.val)) :
    ∑ cc : Fin 2, S cc = ∑ m : Fin 50000, f m := by
  rw [Finset.sum_congr rfl fun cc _ => hS cc, sum_two_cores (extend0 f)]
  exact Finset.sum_congr rfl fun m _ => extend0_val f m

/-! ## The arrangement is the layer -/

/-- The arrangement for any activations `H`: with the stored array holding `H`, the per-core sums holding the tiled
    column sums of `H` and of its squares, `μ` and `r` formed from them and the scale and shift copied into one-row
    operands, the normalisation is the one-pass batch normalisation of `H`. -/
theorem normArr_eq_bnOnePass (cN eps : EReal) (H : Fin 50000 → Fin 128 → EReal) (γ β : Fin 128 → EReal)
    (Hd : (⟨2, ![50000, 128]⟩ : Shape).Idx → EReal) (S1 S2 : (⟨3, ![2, 1, 128]⟩ : Shape).Idx → EReal)
    (μ r γ2 β2 : (⟨2, ![1, 128]⟩ : Shape).Idx → EReal)
    (hH : ∀ (n : Fin 50000) (j : Fin 128), Hd (ix2 n j) = H n j)
    (hS1 : ∀ (cc : Fin 2) (j : Fin 128), S1 (ix3 cc (0 : Fin 1) j)
        = ∑ s ∈ Finset.Ico (5 * cc.val) (5 * cc.val + 5), ∑ r : Fin 5000, extend0 (fun n => Hd (ix2 n j)) (5000 * s + r.val))
    (hS2 : ∀ (cc : Fin 2) (j : Fin 128), S2 (ix3 cc (0 : Fin 1) j)
        = ∑ s ∈ Finset.Ico (5 * cc.val) (5 * cc.val + 5), ∑ r : Fin 5000, extend0 (fun n => Hd (ix2 n j) * Hd (ix2 n j)) (5000 * s + r.val))
    (hμ : ∀ j : Fin 128, μ (ix2 (0 : Fin 1) j) = Ideal.div (0 + ∑ cc : Fin 2, S1 (ix3 cc (0 : Fin 1) j)) cN)
    (hr : ∀ j : Fin 128, r (ix2 (0 : Fin 1) j)
        = Ideal.rsqrt (Ideal.div (0 + ∑ cc : Fin 2, S2 (ix3 cc (0 : Fin 1) j)) cN - μ (ix2 (0 : Fin 1) j) * μ (ix2 (0 : Fin 1) j) + eps))
    (hγ : ∀ j : Fin 128, γ2 (ix2 (0 : Fin 1) j) = γ j) (hβ : ∀ j : Fin 128, β2 (ix2 (0 : Fin 1) j) = β j) :
    normArr Hd μ r γ2 β2 = arrOf (bnOnePass cN eps H γ β) := by
  funext i
  obtain ⟨n, j, rfl⟩ : ∃ n j, i = ix2 n j := ⟨i 0, i 1, eq_ix2 i⟩
  -- column `j` of the stored array is column `j` of `H`, and so are the squares
  have hcol : (fun m => Hd (ix2 m j)) = fun m => H m j := funext fun m => hH m j
  have hcol2 : (fun m => Hd (ix2 m j) * Hd (ix2 m j)) = fun m => H m j * H m j := funext fun m => by rw [hH m j]
  -- the two cores' partial sums add up to the column's sum, and to the column's sum of squares
  have hsum1 : ∑ cc : Fin 2, S1 (ix3 cc (0 : Fin 1) j) = ∑ m : Fin 50000, H m j :=
    sum_cores_eq (fun m => H m j) (fun cc => S1 (ix3 cc (0 : Fin 1) j)) fun cc => by rw [hS1 cc j, hcol]
  have hsum2 : ∑ cc : Fin 2, S2 (ix3 cc (0 : Fin 1) j) = ∑ m : Fin 50000, H m j * H m j :=
    sum_cores_eq (fun m => H m j * H m j) (fun cc => S2 (ix3 cc (0 : Fin 1) j)) fun cc => by rw [hS2 cc j, hcol2]
  -- so `μ` is the mean and `r` the reciprocal square root of the one-pass variance plus `ε`
  have hmean : μ (ix2 (0 : Fin 1) j) = mean cN H j := by
    rw [hμ j, hsum1]; rfl
  have hrs : r (ix2 (0 : Fin 1) j) = Ideal.rsqrt (varOnePass cN H j + eps) := by
    rw [hr j, hsum2, hmean]; rfl
  rw [normArr_apply, hH n j, hmean, hrs, hγ j, hβ j]
  rfl

theorem normArr_eq_layerOnePass (cN eps : EReal)
    (X A : (⟨2, ![50000, 128]⟩ : Shape).Idx → EReal) (W : (⟨2, ![128, 128]⟩ : Shape).Idx → EReal) (b γ β : (⟨1, ![128]⟩ : Shape).Idx → EReal)
    (Hd : (⟨2, ![50000, 128]⟩ : Shape).Idx → EReal) (S1 S2 : (⟨3, ![2, 1, 128]⟩ : Shape).Idx → EReal)
    (μ r γ2 β2 : (⟨2, ![1, 128]⟩ : Shape).Idx → EReal)
    (hH : ∀ (n : Fin 50000) (j : Fin 128), Hd (ix2 n j) = hidden (rows X) (rows A) (rows W) (vec b) n j)
    (hS1 : ∀ (cc : Fin 2) (j : Fin 128), S1 (ix3 cc (0 : Fin 1) j)
        = ∑ s ∈ Finset.Ico (5 * cc.val) (5 * cc.val + 5), ∑ r : Fin 5000, extend0 (fun n => Hd (ix2 n j)) (5000 * s + r.val))
    (hS2 : ∀ (cc : Fin 2) (j : Fin 128), S2 (ix3 cc (0 : Fin 1) j)
        = ∑ s ∈ Finset.Ico (5 * cc.val) (5 * cc.val + 5), ∑ r : Fin 5000, extend0 (fun n => Hd (ix2 n j) * Hd (ix2 n j)) (5000 * s + r.val))
    (hμ : ∀ j : Fin 128, μ (ix2 (0 : Fin 1) j) = Ideal.div (0 + ∑ cc : Fin 2, S1 (ix3 cc (0 : Fin 1) j)) cN)
    (hr : ∀ j : Fin 128, r (ix2 (0 : Fin 1) j)
        = Ideal.rsqrt (Ideal.div (0 + ∑ cc : Fin 2, S2 (ix3 cc (0 : Fin 1) j)) cN - μ (ix2 (0 : Fin 1) j) * μ (ix2 (0 : Fin 1) j) + eps))
    (hγ : ∀ j : Fin 128, γ2 (ix2 (0 : Fin 1) j) = γ (ix1 j)) (hβ : ∀ j : Fin 128, β2 (ix2 (0 : Fin 1) j) = β (ix1 j)) :
    normArr Hd μ r γ2 β2 = layerOnePass (N := 50000) (K := 128) (J := 128) cN eps X A W b γ β :=
  -- the layer is, by definition, the one-pass normalisation of its hidden activations, laid out as an array
  normArr_eq_bnOnePass cN eps (hidden (rows X) (rows A) (rows W) (vec b)) (vec γ) (vec β) Hd S1 S2 μ r γ2 β2
    hH hS1 hS2 hμ hr hγ hβ

end Cert.Gin

end
-- ==== Proof.StatsRegion0.lean ====
/-
  The layer-and-statistics region, read as values, for any contents `V` the region finds at its entry. The grid is
  two cores by five tiles; point `t` takes rows `5000 t … 5000 t + 4999` of the features and of their neighbourhood
  sums, the whole weight matrix and the one-row bias, stores the tile's hidden activations (block `t` of the first
  result), and keeps two running `1 × 1 × 128` accumulators per core: reset at the core's first tile, each tile adding
  its column sums of the activations and of their squares, written back after the core's fifth tile (block `t / 5` of
  the second and third results). So the first result is the hidden activations of the whole array, and the other two
  hold, for core `cc`, the sums over the core's five tiles of the tiles' column sums.
-/
import proofs.«156369_j37709812859563_2_alg».proof.Proof.Gen.KernelIdeal.Frame
import proofs.«156369_j37709812859563_2_alg».proof.Proof.StatsTile0
import proofs.«156369_j37709812859563_2_alg».proof.Proof.GinSpec
import proofs.«156369_j37709812859563_2_alg».proof.Proof.LayerAssemble
import Idealize.ShloMosaic.Lib.Pipeline.Value
import Idealize.ShloMosaic.Lib.Tactic

set_option maxRecDepth 16384

noncomputable section

open scoped BigOperators

namespace Cert.KernelIdeal.KValue.Stats0

open Cert.KernelIdeal Cert.KernelIdeal.Gen Cert.KernelIdeal.KValue.Tile0
open Idealize.ShloMosaic Idealize.ShloMosaic.TcCoe Idealize.ShloMosaic.Tactic Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one run of the body leaves in each result's buffer -/

section Pieces
variable {F : FTy → Type} [FloatOps F]

/-- Whichever case, the first result's buffer is left holding the tile's hidden activations. -/
theorem outA4 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond0_0 i) (x0 x1 : Vec F S5000x128 .f32) (x2 : Vec F S128x128 .f32) (x3 : Vec F S1x128 .f32) :
    out0_A_4 c i a2 h2 a3 h3 a4 h4 a5 h5 a6 h6 a7 h7 a8 h8 hc x0 x1 x2 x3 = k0_pay3 x0 x1 x2 x3 := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  rw [View.canon_unit_zero hz2]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
theorem outB4 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond0_0 i) (x0 x1 : Vec F S5000x128 .f32) (x2 : Vec F S128x128 .f32) (x3 : Vec F S1x128 .f32) (xo5 xo6 : Vec F S1x1x128 .f32) :
    out0_B_4 c i a2 h2 a3 h3 a4 h4 a5 h5 a6 h6 a7 h7 a8 h8 hc x0 x1 x2 x3 xo5 xo6 = k0_pay3 x0 x1 x2 x3 := by
  unfold out0_B_4
  rw [View.read_writes_eq_canon _ _ _ (cover0_B_4 c i a2 h2 a3 h3 a4 h4 a5 h5 a6 h6 a7 h7 a8 h8 hc x0 x1 x2 x3 xo5 xo6)]
  unfold kernelRun0_B
  dsimp only
  rw [View.canon_unit_zero hz2]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

/-- At a core's first tile the first accumulator is reset and then gains the tile's column sums. -/
theorem outA5 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond0_0 i) (x0 x1 : Vec F S5000x128 .f32) (x2 : Vec F S128x128 .f32) (x3 : Vec F S1x128 .f32) :
    out0_A_5 c i a2 h2 a3 h3 a4 h4 a5 h5 a6 h6 a7 h7 a8 h8 hc x0 x1 x2 x3 = k0_pay4 x0 x1 x2 x3 (k0_pay1 (F := F)) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
/-- At every other tile it gains the tile's column sums onto what the tile before left. -/
theorem outB5 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond0_0 i) (x0 x1 : Vec F S5000x128 .f32) (x2 : Vec F S128x128 .f32) (x3 : Vec F S1x128 .f32) (xo5 xo6 : Vec F S1x1x128 .f32) :
    out0_B_5 c i a2 h2 a3 h3 a4 h4 a5 h5 a6 h6 a7 h7 a8 h8 hc x0 x1 x2 x3 xo5 xo6 = k0_pay4 x0 x1 x2 x3 xo5 := by
  unfold out0_B_5
  rw [View.read_writes_eq_canon _ _ _ (cover0_B_5 c i a2 h2 a3 h3 a4 h4 a5 h5 a6 h6 a7 h7 a8 h8 hc x0 x1 x2 x3 xo5 xo6)]
  unfold kernelRun0_B
  dsimp only
  rw [View.canon_unit_zero hz3]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

/-- The same for the accumulator of the squares. -/
theorem outA6 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond0_0 i) (x0 x1 : Vec F S5000x128 .f32) (x2 : Vec F S128x128 .f32) (x3 : Vec F S1x128 .f32) :
    out0_A_6 c i a2 h2 a3 h3 a4 h4 a5 h5 a6 h6 a7 h7 a8 h8 hc x0 x1 x2 x3 = k0_pay5 x0 x1 x2 x3 (k0_pay2 (F := F)) := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
theorem outB6 (c : Dev nD) (i : grid0.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond0_0 i) (x0 x1 : Vec F S5000x128 .f32) (x2 : Vec F S128x128 .f32) (x3 : Vec F S1x128 .f32) (xo5 xo6 : Vec F S1x1x128 .f32) :
    out0_B_6 c i a2 h2 a3 h3 a4 h4 a5 h5 a6 h6 a7 h7 a8 h8 hc x0 x1 x2 x3 xo5 xo6 = k0_pay5 x0 x1 x2 x3 xo6 := by
  unfold out0_B_6
  rw [View.read_writes_eq_canon _ _ _ (cover0_B_6 c i a2 h2 a3 h3 a4 h4 a5 h5 a6 h6 a7 h7 a8 h8 hc x0 x1 x2 x3 xo5 xo6)]
  unfold kernelRun0_B
  dsimp only
  sl_unfold_words
  rw [View.canon_unit_zero hz3]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

end Pieces

/-! ## The running contents, point by point -/

variable (V : (c : Dev nD) → (b : Ref sig .tc) → Buf (Elt Ideal) ((c : Thread nD τ).loc b))

/-- The hidden activations of point `t`'s tile. -/
def hidT (c : Dev nD) (t : Fin cfg0.N) : FVec Ideal S5000x128 .f32 :=
  k0_pay3 (F := Ideal) (iblk0 V c 0 t) (iblk0 V c 1 t) (iblk0 V c 2 t) (iblk0 V c 3 t)

/-- Tile `s`'s column sum of the activations (zero past the grid). -/
def tileSum (c : Dev nD) (s : ℕ) (q : Fin 128) : EReal :=
  if h : s < cfg0.N then ∑ r : Fin 5000, hidT V c ⟨s, h⟩ (ix2 r q) else 0

/-- Tile `s`'s column sum of the squared activations (zero past the grid). -/
def tileSq (c : Dev nD) (s : ℕ) (q : Fin 128) : EReal :=
  if h : s < cfg0.N then ∑ r : Fin 5000, hidT V c ⟨s, h⟩ (ix2 r q) * hidT V c ⟨s, h⟩ (ix2 r q) else 0

theorem tileSum_of_lt (c : Dev nD) (s : ℕ) (h : s < cfg0.N) (q : Fin 128) :
    tileSum V c s q = ∑ r : Fin 5000, hidT V c ⟨s, h⟩ (ix2 r q) := dif_pos h
theorem tileSq_of_lt (c : Dev nD) (s : ℕ) (h : s < cfg0.N) (q : Fin 128) :
    tileSq V c s q = ∑ r : Fin 5000, hidT V c ⟨s, h⟩ (ix2 r q) * hidT V c ⟨s, h⟩ (ix2 r q) := dif_pos h

/-- What case A (a core's first tile) leaves, entry by entry, at point `t`. -/
theorem caseA_vals (c : Dev nD) (t : Fin cfg0.N) (hc : cond0_0 (grid0.coords t)) :
    out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) = hidT V c t
    ∧ (∀ q : Fin 128, out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) (ix3 (0 : Fin 1) (0 : Fin 1) q)
        = ∑ r : Fin 5000, hidT V c t (ix2 r q))
    ∧ (∀ q : Fin 128, out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) (ix3 (0 : Fin 1) (0 : Fin 1) q)
        = ∑ r : Fin 5000, hidT V c t (ix2 r q) * hidT V c t (ix2 r q)) := by
  refine ⟨outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t), fun q => ?_, fun q => ?_⟩
  · rw [outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t)]
    refine (sum_apply (iblk0 V c 0 t) (iblk0 V c 1 t) (iblk0 V c 2 t) (iblk0 V c 3 t) _ q).trans ?_
    rw [reset_apply, zero_add]
    rfl
  · rw [outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t)]
    refine (sq_apply (iblk0 V c 0 t) (iblk0 V c 1 t) (iblk0 V c 2 t) (iblk0 V c 3 t) _ q).trans ?_
    rw [reset_apply', zero_add]
    rfl

/-- What case B (any other tile) leaves at point `t`, from accumulators holding `xo5`, `xo6`. -/
theorem caseB_vals (c : Dev nD) (t : Fin cfg0.N) (hc : ¬cond0_0 (grid0.coords t)) (xo5 xo6 : Vec Ideal S1x1x128 .f32) :
    out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6 = hidT V c t
    ∧ (∀ q : Fin 128, out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6 (ix3 (0 : Fin 1) (0 : Fin 1) q)
        = xo5 (ix3 (0 : Fin 1) (0 : Fin 1) q) + ∑ r : Fin 5000, hidT V c t (ix2 r q))
    ∧ (∀ q : Fin 128, out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6 (ix3 (0 : Fin 1) (0 : Fin 1) q)
        = xo6 (ix3 (0 : Fin 1) (0 : Fin 1) q) + ∑ r : Fin 5000, hidT V c t (ix2 r q) * hidT V c t (ix2 r q)) := by
  refine ⟨outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6, fun q => ?_, fun q => ?_⟩
  · rw [outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6]
    exact sum_apply (iblk0 V c 0 t) (iblk0 V c 1 t) (iblk0 V c 2 t) (iblk0 V c 3 t) xo5 q
  · rw [outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc (iblk0 V c 0 t) (iblk0 V c 1 t) (iblk0 V c 2 t) (iblk0 V c 3 t) xo5 xo6]
    exact sq_apply (iblk0 V c 0 t) (iblk0 V c 1 t) (iblk0 V c 2 t) (iblk0 V c 3 t) xo6 q

/-- After point `n` the first result's buffer holds the tile's activations, and the two accumulators hold the sums of
    the tiles' column sums over the tiles of the core met so far (`5 (n / 5) … n`): by induction on the point — a
    core's first tile starts from the reset, every other tile adds onto what the tile before left. -/
theorem outs_eq (c : Dev nD) : ∀ (n : ℕ) (h : n < cfg0.N),
    (outsAt0 V c n h).1 = hidT V c ⟨n, h⟩
    ∧ (∀ q : Fin 128, (outsAt0 V c n h).2.1 (ix3 (0 : Fin 1) (0 : Fin 1) q) = ∑ s ∈ Finset.Ico (5 * (n / 5)) (n + 1), tileSum V c s q)
    ∧ (∀ q : Fin 128, (outsAt0 V c n h).2.2 (ix3 (0 : Fin 1) (0 : Fin 1) q) = ∑ s ∈ Finset.Ico (5 * (n / 5)) (n + 1), tileSq V c s q) := by
  have hone : ∀ (n : ℕ) (f : ℕ → EReal), ∑ s ∈ Finset.Ico n (n + 1), f s = f n := fun n f => by
    rw [Finset.sum_Ico_succ_top (Nat.le_refl n), Finset.Ico_self, Finset.sum_empty, zero_add]
  have first : ∀ (n : ℕ) (h : n < cfg0.N), n % 5 = 0 →
      (outsAt0 V c n h).1 = hidT V c ⟨n, h⟩
      ∧ (∀ q : Fin 128, (outsAt0 V c n h).2.1 (ix3 (0 : Fin 1) (0 : Fin 1) q) = ∑ s ∈ Finset.Ico (5 * (n / 5)) (n + 1), tileSum V c s q)
      ∧ (∀ q : Fin 128, (outsAt0 V c n h).2.2 (ix3 (0 : Fin 1) (0 : Fin 1) q) = ∑ s ∈ Finset.Ico (5 * (n / 5)) (n + 1), tileSq V c s q) := by
    intro n h h0
    have e5 : 5 * (n / 5) = n := by omega
    obtain ⟨a4, a5, a6⟩ := caseA_vals V c ⟨n, h⟩ ((hcond0_0 ⟨n, h⟩).mpr h0)
    have hA := outsAt0_A V c ⟨n, h⟩ h0
    have h1 := congrArg Prod.fst hA
    have h2 := congrArg (fun p => p.2.1) hA
    have h3 := congrArg (fun p => p.2.2) hA
    dsimp only at h1 h2 h3
    refine ⟨h1.trans a4, fun q => ?_, fun q => ?_⟩
    · rw [e5, hone, tileSum_of_lt V c n h q]
      exact (congrFun h2 _).trans (a5 q)
    · rw [e5, hone, tileSq_of_lt V c n h q]
      exact (congrFun h3 _).trans (a6 q)
  intro n
  induction n with
  | zero => exact fun h => first 0 h rfl
  | succ n ih =>
    intro h
    by_cases h0 : (n + 1) % 5 = 0
    · exact first (n + 1) h h0
    · have e5 : 5 * ((n + 1) / 5) = 5 * (n / 5) := by omega
      have hle : 5 * (n / 5) ≤ n + 1 := by omega
      obtain ⟨-, ih5, ih6⟩ := ih (Nat.lt_of_succ_lt h)
      obtain ⟨b4, b5, b6⟩ := caseB_vals V c ⟨n + 1, h⟩ (fun hh => h0 ((hcond0_0 ⟨n + 1, h⟩).mp hh))
        (outsAt0 V c n (Nat.lt_of_succ_lt h)).2.1 (outsAt0 V c n (Nat.lt_of_succ_lt h)).2.2
      have hB := outsAt0_B V c ⟨n + 1, h⟩ h0
      have h1 := congrArg Prod.fst hB
      have h2 := congrArg (fun p => p.2.1) hB
      have h3 := congrArg (fun p => p.2.2) hB
      dsimp only at h1 h2 h3
      refine ⟨h1.trans b4, fun q => ?_, fun q => ?_⟩
      · rw [e5, Finset.sum_Ico_succ_top hle, tileSum_of_lt V c (n + 1) h q, ← ih5 q]
        exact (congrFun h2 _).trans (b5 q)
      · rw [e5, Finset.sum_Ico_succ_top hle, tileSq_of_lt V c (n + 1) h q, ← ih6 q]
        exact (congrFun h3 _).trans (b6 q)

/-! ## The blocks read as parts of the arrays -/

/-- The printed index maps over the grid. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val / 5 ∧ win0_5.index t (1 : Fin 3) = 0 ∧ win0_5.index t (2 : Fin 3) = 0
    ∧ win0_6.index t (0 : Fin 3) = t.val / 5 ∧ win0_6.index t (1 : Fin 3) = 0 ∧ win0_6.index t (2 : Fin 3) = 0 :=
  (by decide +kernel : ∀ t : Fin grid0.N, _)

/-- Row `p` of point `t`'s block is row `5000 t + p` of the array. -/
def rowAt (t : Fin cfg0.N) (p : Fin 5000) : Fin 50000 :=
  ⟨5000 * t.val + p.val, by have := t.isLt; have hN : cfg0.N = 10 := N_0; have := p.isLt; omega⟩

/-- The core of point `t`. -/
def coreAt (t : Fin cfg0.N) : Fin 2 := ⟨t.val / 5, by have := t.isLt; have hN : cfg0.N = 10 := N_0; omega⟩

theorem rd0 (c : Dev nD) (t : Fin cfg0.N) (p : Fin 5000) (k : Fin 128) :
    iblk0 V c 0 t (ix2 p k) = (V c main_arg0 : S50000x128.Idx → EReal) (ix2 (rowAt t p) k) := by
  obtain ⟨e00, e01, -⟩ := idx_facts t
  have hk := k.isLt
  show (V c main_arg0 : S50000x128.Idx → EReal) (((cfg0.win 0).blk t).view.emb (ix2 p k)) = _
  refine congrArg (V c main_arg0 : S50000x128.Idx → EReal) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega
theorem rd1 (c : Dev nD) (t : Fin cfg0.N) (p : Fin 5000) (k : Fin 128) :
    iblk0 V c 1 t (ix2 p k) = (V c main_v13 : S50000x128.Idx → EReal) (ix2 (rowAt t p) k) := by
  obtain ⟨-, -, e10, e11, -⟩ := idx_facts t
  have hk := k.isLt
  show (V c main_v13 : S50000x128.Idx → EReal) (((cfg0.win 1).blk t).view.emb (ix2 p k)) = _
  refine congrArg (V c main_v13 : S50000x128.Idx → EReal) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega
theorem rd2 (c : Dev nD) (t : Fin cfg0.N) (k q : Fin 128) :
    iblk0 V c 2 t (ix2 k q) = (V c main_arg2 : S128x128.Idx → EReal) (ix2 k q) := by
  obtain ⟨-, -, -, -, e20, e21, -⟩ := idx_facts t
  have hk := k.isLt; have hq := q.isLt
  show (V c main_arg2 : S128x128.Idx → EReal) (((cfg0.win 2).blk t).view.emb (ix2 k q)) = _
  refine congrArg (V c main_arg2 : S128x128.Idx → EReal) (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega
theorem rd3 (c : Dev nD) (t : Fin cfg0.N) (q : Fin 128) :
    iblk0 V c 3 t (ix2 (0 : Fin 1) q) = (V c main_v14 : S1x128.Idx → EReal) (ix2 (0 : Fin 1) q) := by
  obtain ⟨-, -, -, -, -, -, e30, e31, -⟩ := idx_facts t
  have hq := q.isLt
  show (V c main_v14 : S1x128.Idx → EReal) (((cfg0.win 3).blk t).view.emb (ix2 (0 : Fin 1) q)) = _
  refine congrArg (V c main_v14 : S1x128.Idx → EReal) (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega
theorem rd_out4 (t : Fin cfg0.N) (G : S50000x128.Idx → EReal) (p : Fin 5000) (q : Fin 128) :
    ((cfg0.win 4).blk t).view.read (Elt Ideal) G (ix2 p q) = G (ix2 (rowAt t p) q) := by
  obtain ⟨-, -, -, -, -, -, -, -, e40, e41, -⟩ := idx_facts t
  have hq := q.isLt
  show G (((cfg0.win 4).blk t).view.emb (ix2 p q)) = _
  refine congrArg G (funext fun a => Fin.ext ?_)
  match a with
  | ⟨0, _⟩ => show win0_4.index t (0 : Fin 2) * 5000 + 1 * p.val = 5000 * t.val + p.val; omega
  | ⟨1, _⟩ => show win0_4.index t (1 : Fin 2) * 128 + 1 * q.val = q.val; omega
theorem rd_out5 (t : Fin cfg0.N) (G : S2x1x128.Idx → EReal) (q : Fin 128) :
    ((cfg0.win 5).blk t).view.read (Elt Ideal) G (ix3 (0 : Fin 1) (0 : Fin 1) q) = G (ix3 (coreAt t) (0 : Fin 1) q) := by
  obtain ⟨-, -, -, -, -, -, -, -, -, -, e50, e51, e52, -⟩ := idx_facts t
  have hq := q.isLt
  show G (((cfg0.win 5).blk t).view.emb (ix3 (0 : Fin 1) (0 : Fin 1) q)) = _
  refine congrArg G (funext fun a => Fin.ext ?_)
  match a with
  | ⟨0, _⟩ => show win0_5.index t (0 : Fin 3) * 1 + 1 * 0 = t.val / 5; omega
  | ⟨1, _⟩ => show win0_5.index t (1 : Fin 3) * 1 + 1 * 0 = 0; omega
  | ⟨2, _⟩ => show win0_5.index t (2 : Fin 3) * 128 + 1 * q.val = q.val; omega
theorem rd_out6 (t : Fin cfg0.N) (G : S2x1x128.Idx → EReal) (q : Fin 128) :
    ((cfg0.win 6).blk t).view.read (Elt Ideal) G (ix3 (0 : Fin 1) (0 : Fin 1) q) = G (ix3 (coreAt t) (0 : Fin 1) q) := by
  obtain ⟨-, -, -, -, -, -, -, -, -, -, -, -, -, e60, e61, e62⟩ := idx_facts t
  have hq := q.isLt
  show G (((cfg0.win 6).blk t).view.emb (ix3 (0 : Fin 1) (0 : Fin 1) q)) = _
  refine congrArg G (funext fun a => Fin.ext ?_)
  match a with
  | ⟨0, _⟩ => show win0_6.index t (0 : Fin 3) * 1 + 1 * 0 = t.val / 5; omega
  | ⟨1, _⟩ => show win0_6.index t (1 : Fin 3) * 1 + 1 * 0 = 0; omega
  | ⟨2, _⟩ => show win0_6.index t (2 : Fin 3) * 128 + 1 * q.val = q.val; omega

/-! ## The three results -/

/-- The hidden activations of the whole array, from the arrays the region finds. -/
def hiddenOf (c : Dev nD) : Fin 50000 → Fin 128 → EReal :=
  Cert.Gin.hidden (Cert.Gin.rows (V c main_arg0 : S50000x128.Idx → EReal)) (Cert.Gin.rows (V c main_v13 : S50000x128.Idx → EReal))
    (Cert.Gin.rows (V c main_arg2 : S128x128.Idx → EReal)) (fun j => (V c main_v14 : S1x128.Idx → EReal) (ix2 (0 : Fin 1) j))

/-- A tile's activations are the whole array's at the tile's rows. -/
theorem hidT_apply (c : Dev nD) (t : Fin cfg0.N) (p : Fin 5000) (q : Fin 128) :
    hidT V c t (ix2 p q) = hiddenOf V c (rowAt t p) q := by
  unfold hidT
  refine (hid_apply _ _ _ _ p q).trans ?_
  simp only [rd0 V c t, rd1 V c t, rd2 V c t, rd3 V c t]
  rfl

theorem flushed4_eq (c : Dev nD) (t : Fin cfg0.N) :
    (dat0 V c).flushed 4 t = ((cfg0.win 4).blk t).view.read (Elt Ideal) (Cert.Gin.arrOf (hiddenOf V c)) := by
  show (cfg0.win 4).cut (grid0.coords t) ((dat0 V c).after 4 t) = _
  rw [after0_4, (outs_eq V c t.val t.isLt).1]
  funext j
  obtain ⟨p, q, rfl⟩ : ∃ (p : Fin 5000) (q : Fin 128), j = ix2 p q := ⟨j 0, j 1, eq_ix2 j⟩
  refine (hidT_apply V c t p q).trans ?_
  rw [rd_out4 t _ p q]
  rfl

theorem mem_blk4 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15_0).slice (win0_4.rect t)).set ↔ _
  rw [View.set_slice_whole, Rect.mem_set_unit]
  exact Iff.rfl

/-- THE FIRST RESULT after the region: the hidden activations of the whole array. -/
theorem final4 (c : Dev nD) : (dat0 V c).arrAt 4 cfg0.N = Cert.Gin.arrOf (hiddenOf V c) :=
  (dat0 V c).arrAt_eq_of_cover 4 _ (fun t _ => flushed4_eq V c t) fun i => by
    have hi0 : (i 0).val < 50000 := (i 0).isLt
    have hi1 : (i 1).val < 128 := (i 1).isLt
    have hN : cfg0.N = 10 := N_0
    obtain ⟨-, -, -, -, -, -, -, -, e40, e41, -⟩ := idx_facts (⟨(i 0).val / 5000, by rw [hN]; omega⟩ : Fin cfg0.N)
    have e40' : win0_4.index (⟨(i 0).val / 5000, by rw [hN]; omega⟩ : Fin cfg0.N) (0 : Fin 2) = (i 0).val / 5000 := e40
    refine ⟨⟨(i 0).val / 5000, by rw [hN]; omega⟩, flush0_4 _, ?_⟩
    rw [mem_blk4]
    intro a
    match a with
    | ⟨0, _⟩ => show win0_4.index _ (0 : Fin 2) * 5000 ≤ (i 0).val ∧ (i 0).val < win0_4.index _ (0 : Fin 2) * 5000 + 5000; omega
    | ⟨1, _⟩ => show win0_4.index _ (1 : Fin 2) * 128 ≤ (i 1).val ∧ (i 1).val < win0_4.index _ (1 : Fin 2) * 128 + 128; omega

/-- Core `cc`'s sums of its five tiles' column sums, as a `[2, 1, 128]` array. -/
def sumsArr (c : Dev nD) : S2x1x128.Idx → EReal :=
  fun i => ∑ s ∈ Finset.Ico (5 * (i 0).val) (5 * (i 0).val + 5), tileSum V c s (i 2)
def sqsArr (c : Dev nD) : S2x1x128.Idx → EReal :=
  fun i => ∑ s ∈ Finset.Ico (5 * (i 0).val) (5 * (i 0).val + 5), tileSq V c s (i 2)

/-- An index of a `[1, 1, 128]` block is `(0, 0, q)`. -/
theorem eq_ix3_00 (j : S1x1x128.Idx) : j = ix3 (0 : Fin 1) (0 : Fin 1) (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

theorem flushed5_eq (c : Dev nD) (t : Fin cfg0.N) (hf : (cfg0.win 5).flush t = true) :
    (dat0 V c).flushed 5 t = ((cfg0.win 5).blk t).view.read (Elt Ideal) (sumsArr V c) := by
  have h4 : t.val % 5 = 4 := (flush0_5 t).mp hf
  show (cfg0.win 5).cut (grid0.coords t) ((dat0 V c).after 5 t) = _
  rw [after0_5]
  funext j
  obtain ⟨q, rfl⟩ : ∃ q : Fin 128, j = ix3 (0 : Fin 1) (0 : Fin 1) q := ⟨j 2, eq_ix3_00 j⟩
  refine ((outs_eq V c t.val t.isLt).2.1 q).trans ?_
  rw [rd_out5 t _ q]
  show _ = ∑ s ∈ Finset.Ico (5 * (t.val / 5)) (5 * (t.val / 5) + 5), tileSum V c s q
  rw [show t.val + 1 = 5 * (t.val / 5) + 5 by omega]
theorem flushed6_eq (c : Dev nD) (t : Fin cfg0.N) (hf : (cfg0.win 6).flush t = true) :
    (dat0 V c).flushed 6 t = ((cfg0.win 6).blk t).view.read (Elt Ideal) (sqsArr V c) := by
  have h4 : t.val % 5 = 4 := (flush0_6 t).mp hf
  show (cfg0.win 6).cut (grid0.coords t) ((dat0 V c).after 6 t) = _
  rw [after0_6]
  funext j
  obtain ⟨q, rfl⟩ : ∃ q : Fin 128, j = ix3 (0 : Fin 1) (0 : Fin 1) q := ⟨j 2, eq_ix3_00 j⟩
  refine ((outs_eq V c t.val t.isLt).2.2 q).trans ?_
  rw [rd_out6 t _ q]
  show _ = ∑ s ∈ Finset.Ico (5 * (t.val / 5)) (5 * (t.val / 5) + 5), tileSq V c s q
  rw [show t.val + 1 = 5 * (t.val / 5) + 5 by omega]

theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v15_1).slice (win0_5.rect t)).set ↔ _
  rw [View.set_slice_whole, Rect.mem_set_unit]
  exact Iff.rfl
theorem mem_blk6 (t : Fin cfg0.N) (i : S2x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v15_2).slice (win0_6.rect t)).set ↔ _
  rw [View.set_slice_whole, Rect.mem_set_unit]
  exact Iff.rfl

/-- THE SECOND RESULT after the region: block `cc` is written back once, after core `cc`'s fifth tile. -/
theorem final5 (c : Dev nD) : (dat0 V c).arrAt 5 cfg0.N = sumsArr V c :=
  (dat0 V c).arrAt_eq_of_cover 5 _ (flushed5_eq V c) fun i => by
    have hi0 : (i 0).val < 2 := (i 0).isLt
    have hi1 : (i 1).val < 1 := (i 1).isLt
    have hi2 : (i 2).val < 128 := (i 2).isLt
    have hN : cfg0.N = 10 := N_0
    obtain ⟨-, -, -, -, -, -, -, -, -, -, e50, e51, e52, -⟩ := idx_facts (⟨5 * (i 0).val + 4, by rw [hN]; omega⟩ : Fin cfg0.N)
    have e50' : win0_5.index (⟨5 * (i 0).val + 4, by rw [hN]; omega⟩ : Fin cfg0.N) (0 : Fin 3) = (5 * (i 0).val + 4) / 5 := e50
    refine ⟨⟨5 * (i 0).val + 4, by rw [hN]; omega⟩, (flush0_5 _).mpr (by show (5 * (i 0).val + 4) % 5 = 4; omega), ?_⟩
    rw [mem_blk5]
    intro a
    match a with
    | ⟨0, _⟩ => show win0_5.index _ (0 : Fin 3) * 1 ≤ (i 0).val ∧ (i 0).val < win0_5.index _ (0 : Fin 3) * 1 + 1; omega
    | ⟨1, _⟩ => show win0_5.index _ (1 : Fin 3) * 1 ≤ (i 1).val ∧ (i 1).val < win0_5.index _ (1 : Fin 3) * 1 + 1; omega
    | ⟨2, _⟩ => show win0_5.index _ (2 : Fin 3) * 128 ≤ (i 2).val ∧ (i 2).val < win0_5.index _ (2 : Fin 3) * 128 + 128; omega
/-- THE THIRD RESULT after the region. -/
theorem final6 (c : Dev nD) : (dat0 V c).arrAt 6 cfg0.N = sqsArr V c :=
  (dat0 V c).arrAt_eq_of_cover 6 _ (flushed6_eq V c) fun i => by
    have hi0 : (i 0).val < 2 := (i 0).isLt
    have hi1 : (i 1).val < 1 := (i 1).isLt
    have hi2 : (i 2).val < 128 := (i 2).isLt
    have hN : cfg0.N = 10 := N_0
    obtain ⟨-, -, -, -, -, -, -, -, -, -, -, -, -, e60, e61, e62⟩ := idx_facts (⟨5 * (i 0).val + 4, by rw [hN]; omega⟩ : Fin cfg0.N)
    have e60' : win0_6.index (⟨5 * (i 0).val + 4, by rw [hN]; omega⟩ : Fin cfg0.N) (0 : Fin 3) = (5 * (i 0).val + 4) / 5 := e60
    refine ⟨⟨5 * (i 0).val + 4, by rw [hN]; omega⟩, (flush0_6 _).mpr (by show (5 * (i 0).val + 4) % 5 = 4; omega), ?_⟩
    rw [mem_blk6]
    intro a
    match a with
    | ⟨0, _⟩ => show win0_6.index _ (0 : Fin 3) * 1 ≤ (i 0).val ∧ (i 0).val < win0_6.index _ (0 : Fin 3) * 1 + 1; omega
    | ⟨1, _⟩ => show win0_6.index _ (1 : Fin 3) * 1 ≤ (i 1).val ∧ (i 1).val < win0_6.index _ (1 : Fin 3) * 1 + 1; omega
    | ⟨2, _⟩ => show win0_6.index _ (2 : Fin 3) * 128 ≤ (i 2).val ∧ (i 2).val < win0_6.index _ (2 : Fin 3) * 128 + 128; omega

/-! ## The partial sums in terms of the whole array's activations -/

/-- Tile `s`'s column sum is the sum of the activations over rows `5000 s … 5000 s + 4999`. -/
theorem tileSum_eq (c : Dev nD) (s : ℕ) (hs : s < 10) (q : Fin 128) :
    tileSum V c s q = ∑ r : Fin 5000, Cert.Gin.extend0 (fun n => hiddenOf V c n q) (5000 * s + r.val) := by
  have h : s < cfg0.N := by rw [show cfg0.N = 10 from N_0]; exact hs
  rw [tileSum_of_lt V c s h q]
  refine Finset.sum_congr rfl fun r _ => ?_
  have hr := r.isLt
  rw [hidT_apply V c ⟨s, h⟩ r q]
  unfold Cert.Gin.extend0
  rw [dif_pos (by omega : 5000 * s + r.val < 50000)]
  rfl
theorem tileSq_eq (c : Dev nD) (s : ℕ) (hs : s < 10) (q : Fin 128) :
    tileSq V c s q = ∑ r : Fin 5000, Cert.Gin.extend0 (fun n => hiddenOf V c n q * hiddenOf V c n q) (5000 * s + r.val) := by
  have h : s < cfg0.N := by rw [show cfg0.N = 10 from N_0]; exact hs
  rw [tileSq_of_lt V c s h q]
  refine Finset.sum_congr rfl fun r _ => ?_
  have hr := r.isLt
  rw [hidT_apply V c ⟨s, h⟩ r q]
  unfold Cert.Gin.extend0
  rw [dif_pos (by omega : 5000 * s + r.val < 50000)]
  rfl

/-- Core `cc`'s partial sums, over the whole array's activations. -/
theorem sumsArr_apply (c : Dev nD) (cc : Fin 2) (q : Fin 128) :
    sumsArr V c (ix3 cc (0 : Fin 1) q)
      = ∑ s ∈ Finset.Ico (5 * cc.val) (5 * cc.val + 5), ∑ r : Fin 5000, Cert.Gin.extend0 (fun n => hiddenOf V c n q) (5000 * s + r.val) := by
  have hcc := cc.isLt
  show ∑ s ∈ Finset.Ico (5 * cc.val) (5 * cc.val + 5), tileSum V c s q = _
  exact Finset.sum_congr rfl fun s hs => tileSum_eq V c s (by have := (Finset.mem_Ico.mp hs).2; omega) q
theorem sqsArr_apply (c : Dev nD) (cc : Fin 2) (q : Fin 128) :
    sqsArr V c (ix3 cc (0 : Fin 1) q)
      = ∑ s ∈ Finset.Ico (5 * cc.val) (5 * cc.val + 5), ∑ r : Fin 5000, Cert.Gin.extend0 (fun n => hiddenOf V c n q * hiddenOf V c n q) (5000 * s + r.val) := by
  have hcc := cc.isLt
  show ∑ s ∈ Finset.Ico (5 * cc.val) (5 * cc.val + 5), tileSq V c s q = _
  exact Finset.sum_congr rfl fun s hs => tileSq_eq V c s (by have := (Finset.mem_Ico.mp hs).2; omega) q

end Cert.KernelIdeal.KValue.Stats0

end
-- ==== Proof.StatsTile2.lean ====
/-
  The layer-and-statistics tile, read entry by entry at the extended reals. A tile is 5000 rows of features `x` and of
  their neighbourhood sums `a`, the `128 × 128` weights `W` and the one-row bias `b`. Its body forms

      h (p, q) = max (∑ k, (x (p, k) + a (p, k)) · W (k, q) + b (0, q)) 0,

  stores `h`, and adds the tile's column sums of `h` and of `h · h` onto two running `1 × 1 × 128` accumulators. A product
  into a zero accumulator is the plain sum of products, a sum down the columns is the plain sum, and the re-layings
  between `[128]`, `[1, 128]` and `[1, 1, 128]` keep the column.
-/
import proofs.«156369_j37709812859563_2_alg».proof.Proof.Gen.KernelIdeal.Skeleton
import proofs.«156369_j37709812859563_2_alg».proof.Proof.LibPlainDot
import proofs.«156369_j37709812859563_2_alg».proof.Proof.LibTileRows
import proofs.«156369_j37709812859563_2_alg».proof.Proof.LibColumnSums
import Idealize.ShloMosaic.Lib.ValueLayout

noncomputable section

open scoped BigOperators

namespace Cert.KernelIdeal.KValue.Tile2

open Cert.KernelIdeal Cert.KernelIdeal.Gen
open Idealize.ShloMosaic Idealize.ShloMosaic.ValueIdx

/-- The tile's product is a plain one: rows of the left operand against columns of the right. -/
theorem plainDot : Cert.PlainDot.IsPlain dot_S5000x128_S128x128_S5000x128_1_0_0_1_n_n := ⟨rfl, rfl, rfl, rfl, rfl, rfl⟩

/-- The hidden activations of the tile at row `p`, column `q`. -/
theorem hid_apply (x a : FVec Ideal S5000x128 .f32) (W : FVec Ideal S128x128 .f32) (b : FVec Ideal S1x128 .f32) (p : Fin 5000) (q : Fin 128) :
    k2_pay4 (F := Ideal) x a W b (ix2 p q)
      = max (∑ k : Fin 128, (x (ix2 p k) + a (ix2 p k)) * W (ix2 k q) + b (ix2 (0 : Fin 1) q)) 0 := by
  have hA : ∀ (p : Fin 5000) (k : Fin 128), (addf (F := Ideal) (φ := .f32) (shapeCast S5000x128 x shapeCasts_S5000x128_S5000x128) (shapeCast S5000x128 a shapeCasts_S5000x128_S5000x128) : FVec Ideal S5000x128 .f32) (ix2 p k)
      = x (ix2 p k) + a (ix2 p k) := fun p k => by
    rw [addf_apply, shapeCast_self, shapeCast_self]
  have hM : ∀ (p : Fin 5000) (q : Fin 128), matmul dot_S5000x128_S128x128_S5000x128_1_0_0_1_n_n none
      (addf (F := Ideal) (φ := .f32) (shapeCast S5000x128 x shapeCasts_S5000x128_S5000x128) (shapeCast S5000x128 a shapeCasts_S5000x128_S5000x128) : FVec Ideal S5000x128 .f32) W
      (constant S5000x128 .f32 0x00000000#32) (ix2 p q) = ∑ k : Fin 128, (x (ix2 p k) + a (ix2 p k)) * W (ix2 k q) := fun p q =>
    (Cert.PlainDot.matmul_zero_apply _ plainDot none _ W p q).trans (Finset.sum_congr rfl fun k _ => by rw [hA p k])
  exact Cert.TileRows.relu_rows _ _ (Cert.TileRows.bias_rows _ b shapeCasts_S1x128_S1x128 broadcasts_S1x128_S5000x128 _ hM) p q

/-- A freshly reset accumulator is zero at every column. -/
theorem reset_apply (q : Fin 128) : k2_pay2 (F := Ideal) (ix3 (0 : Fin 1) (0 : Fin 1) q) = 0 := by
  unfold k2_pay2
  show Ideal.ofBits .f32 0x00000000#32 = _
  rw [Ideal.ofBits_zero_f32]
theorem reset_apply' (q : Fin 128) : k2_pay3 (F := Ideal) (ix3 (0 : Fin 1) (0 : Fin 1) q) = 0 := by
  unfold k2_pay3
  show Ideal.ofBits .f32 0x00000000#32 = _
  rw [Ideal.ofBits_zero_f32]

/-- A same-shape re-laying of an accumulator reads the accumulator. -/
theorem acc_cast (v : FVec Ideal S1x1x128 .f32) (q : Fin 128) :
    shapeCast S1x1x128 v shapeCasts_S1x1x128_S1x1x128 (ix3 (0 : Fin 1) (0 : Fin 1) q) = v (ix3 (0 : Fin 1) (0 : Fin 1) q) := by
  rw [shapeCast_self]

/-- A tile's column sums, re-laid from `[128]` through `[1, 128]` to `[1, 1, 128]`, read at column `q`. -/
theorem colsum_cast (src : FVec Ideal S5000x128 .f32) (hφ : FKind.Formats .f32) (hacc : (0x00000000#32 : BitVec 32) = FKind.add.neutral .f32 hφ) (q : Fin 128) :
    shapeCast S1x1x128 (shapeCast S1x128 (multiReduction .add [0] S128 src 0x00000000#32 reduces_S5000x128_S128 hφ hacc) shapeCasts_S128_S1x128)
        shapeCasts_S1x128_S1x1x128 (ix3 (0 : Fin 1) (0 : Fin 1) q) = ∑ r : Fin 5000, src (ix2 r q) :=
  (shapeCast_ab_1ab_apply _ _ 0 0 q).trans ((shapeCast_a_1a_apply _ _ 0 q).trans (Cert.ColumnSums.colSum_apply src _ _ hφ hacc q))

/-- The first accumulator after the tile: what it held plus the tile's column sum of the activations. -/
theorem sum_apply (x a : FVec Ideal S5000x128 .f32) (W : FVec Ideal S128x128 .f32) (b : FVec Ideal S1x128 .f32) (acc : FVec Ideal S1x1x128 .f32) (q : Fin 128) :
    k2_pay5 (F := Ideal) x a W b acc (ix3 (0 : Fin 1) (0 : Fin 1) q)
      = acc (ix3 (0 : Fin 1) (0 : Fin 1) q) + ∑ r : Fin 5000, k2_pay4 (F := Ideal) x a W b (ix2 r q) := by
  unfold k2_pay5
  exact congrArg₂ (· + ·) (acc_cast acc q) (colsum_cast _ _ _ q)

/-- The second accumulator after the tile: what it held plus the tile's column sum of the squared activations. -/
theorem sq_apply (x a : FVec Ideal S5000x128 .f32) (W : FVec Ideal S128x128 .f32) (b : FVec Ideal S1x128 .f32) (acc : FVec Ideal S1x1x128 .f32) (q : Fin 128) :
    k2_pay1 (F := Ideal) (k2_pay6 (F := Ideal) acc) (k2_pay7 (F := Ideal) x a W b) (ix3 (0 : Fin 1) (0 : Fin 1) q)
      = acc (ix3 (0 : Fin 1) (0 : Fin 1) q) + ∑ r : Fin 5000, k2_pay4 (F := Ideal) x a W b (ix2 r q) * k2_pay4 (F := Ideal) x a W b (ix2 r q) := by
  unfold k2_pay1 k2_pay6 k2_pay7
  exact congrArg₂ (· + ·) (acc_cast acc q) (colsum_cast _ _ _ q)

end Cert.KernelIdeal.KValue.Tile2

end
-- ==== Proof.StatsRegion2.lean ====
/-
  The layer-and-statistics region, read as values, for any contents `V` the region finds at its entry. The grid is
  two cores by five tiles; point `t` takes rows `5000 t … 5000 t + 4999` of the features and of their neighbourhood
  sums, the whole weight matrix and the one-row bias, stores the tile's hidden activations (block `t` of the first
  result), and keeps two running `1 × 1 × 128` accumulators per core: reset at the core's first tile, each tile adding
  its column sums of the activations and of their squares, written back after the core's fifth tile (block `t / 5` of
  the second and third results). So the first result is the hidden activations of the whole array, and the other two
  hold, for core `cc`, the sums over the core's five tiles of the tiles' column sums.
-/
import proofs.«156369_j37709812859563_2_alg».proof.Proof.Gen.KernelIdeal.Frame
import proofs.«156369_j37709812859563_2_alg».proof.Proof.StatsTile2
import proofs.«156369_j37709812859563_2_alg».proof.Proof.GinSpec
import proofs.«156369_j37709812859563_2_alg».proof.Proof.LayerAssemble
import Idealize.ShloMosaic.Lib.Pipeline.Value
import Idealize.ShloMosaic.Lib.Tactic

set_option maxRecDepth 16384

noncomputable section

open scoped BigOperators

namespace Cert.KernelIdeal.KValue.Stats2

open Cert.KernelIdeal Cert.KernelIdeal.Gen Cert.KernelIdeal.KValue.Tile2
open Idealize.ShloMosaic Idealize.ShloMosaic.TcCoe Idealize.ShloMosaic.Tactic Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one run of the body leaves in each result's buffer -/

section Pieces
variable {F : FTy → Type} [FloatOps F]

/-- Whichever case, the first result's buffer is left holding the tile's hidden activations. -/
theorem outA4 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond2_0 i) (x0 x1 : Vec F S5000x128 .f32) (x2 : Vec F S128x128 .f32) (x3 : Vec F S1x128 .f32) :
    out2_A_4 c i a2 h2 a3 h3 a4 h4 a5 h5 a6 h6 a7 h7 a8 h8 hc x0 x1 x2 x3 = k2_pay4 x0 x1 x2 x3 := by
  unfold out2_A_4
  rw [View.read_writes_eq_canon _ _ _ (cover2_A_4 c i a2 h2 a3 h3 a4 h4 a5 h5 a6 h6 a7 h7 a8 h8 hc x0 x1 x2 x3)]
  unfold kernelRun2_A
  dsimp only
  rw [View.canon_unit_zero hz2]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
theorem outB4 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond2_0 i) (x0 x1 : Vec F S5000x128 .f32) (x2 : Vec F S128x128 .f32) (x3 : Vec F S1x128 .f32) (xo5 xo6 : Vec F S1x1x128 .f32) :
    out2_B_4 c i a2 h2 a3 h3 a4 h4 a5 h5 a6 h6 a7 h7 a8 h8 hc x0 x1 x2 x3 xo5 xo6 = k2_pay4 x0 x1 x2 x3 := by
  unfold out2_B_4
  rw [View.read_writes_eq_canon _ _ _ (cover2_B_4 c i a2 h2 a3 h3 a4 h4 a5 h5 a6 h6 a7 h7 a8 h8 hc x0 x1 x2 x3 xo5 xo6)]
  unfold kernelRun2_B
  dsimp only
  rw [View.canon_unit_zero hz2]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

/-- At a core's first tile the first accumulator is reset and then gains the tile's column sums. -/
theorem outA5 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond2_0 i) (x0 x1 : Vec F S5000x128 .f32) (x2 : Vec F S128x128 .f32) (x3 : Vec F S1x128 .f32) :
    out2_A_5 c i a2 h2 a3 h3 a4 h4 a5 h5 a6 h6 a7 h7 a8 h8 hc x0 x1 x2 x3 = k2_pay5 x0 x1 x2 x3 (k2_pay2 (F := F)) := by
  unfold out2_A_5
  rw [View.read_writes_eq_canon _ _ _ (cover2_A_5 c i a2 h2 a3 h3 a4 h4 a5 h5 a6 h6 a7 h7 a8 h8 hc x0 x1 x2 x3)]
  unfold kernelRun2_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
/-- At every other tile it gains the tile's column sums onto what the tile before left. -/
theorem outB5 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond2_0 i) (x0 x1 : Vec F S5000x128 .f32) (x2 : Vec F S128x128 .f32) (x3 : Vec F S1x128 .f32) (xo5 xo6 : Vec F S1x1x128 .f32) :
    out2_B_5 c i a2 h2 a3 h3 a4 h4 a5 h5 a6 h6 a7 h7 a8 h8 hc x0 x1 x2 x3 xo5 xo6 = k2_pay5 x0 x1 x2 x3 xo5 := by
  unfold out2_B_5
  rw [View.read_writes_eq_canon _ _ _ (cover2_B_5 c i a2 h2 a3 h3 a4 h4 a5 h5 a6 h6 a7 h7 a8 h8 hc x0 x1 x2 x3 xo5 xo6)]
  unfold kernelRun2_B
  dsimp only
  rw [View.canon_unit_zero hz3]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

/-- The same for the accumulator of the squares. -/
theorem outA6 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : cond2_0 i) (x0 x1 : Vec F S5000x128 .f32) (x2 : Vec F S128x128 .f32) (x3 : Vec F S1x128 .f32) :
    out2_A_6 c i a2 h2 a3 h3 a4 h4 a5 h5 a6 h6 a7 h7 a8 h8 hc x0 x1 x2 x3 = k2_pay1 (k2_pay6 (k2_pay3 (F := F))) (k2_pay7 x0 x1 x2 x3) := by
  unfold out2_A_6
  rw [View.read_writes_eq_canon _ _ _ (cover2_A_6 c i a2 h2 a3 h3 a4 h4 a5 h5 a6 h6 a7 h7 a8 h8 hc x0 x1 x2 x3)]
  unfold kernelRun2_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, View.ld_unit_zero (S := S5000x128) hz2, View.ld_unit_zero (S := S128x128) hz2, View.ld_unit_zero (S := S1x128) hz2, View.ld_unit_zero (S := S1x1x128) hz3]
theorem outB6 (c : Dev nD) (i : grid2.Coords) (a2 : Memref sig .tc .vmem S5000x128 .f32) (h2 : a2.IsWhole) (a3 : Memref sig .tc .vmem S5000x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x1x128 .f32) (h7 : a7.IsWhole) (a8 : Memref sig .tc .vmem S1x1x128 .f32) (h8 : a8.IsWhole) (hc : ¬cond2_0 i) (x0 x1 : Vec F S5000x128 .f32) (x2 : Vec F S128x128 .f32) (x3 : Vec F S1x128 .f32) (xo5 xo6 : Vec F S1x1x128 .f32) :
    out2_B_6 c i a2 h2 a3 h3 a4 h4 a5 h5 a6 h6 a7 h7 a8 h8 hc x0 x1 x2 x3 xo5 xo6 = k2_pay1 (k2_pay6 xo6) (k2_pay7 x0 x1 x2 x3) := by
  unfold out2_B_6
  rw [View.read_writes_eq_canon _ _ _ (cover2_B_6 c i a2 h2 a3 h3 a4 h4 a5 h5 a6 h6 a7 h7 a8 h8 hc x0 x1 x2 x3 xo5 xo6)]
  unfold kernelRun2_B
  dsimp only
  sl_unfold_words
  rw [View.canon_unit_zero hz3]
  simp only [View.readAt_eq_ld, h2.read_unread, h3.read_unread, h4.read_unread, h5.read_unread, h7.read_unread, h8.read_unread, View.ld_unit_zero (S := S5000x128) hz2, View.ld_unit_zero (S := S128x128) hz2, View.ld_unit_zero (S := S1x128) hz2, View.ld_unit_zero (S := S1x1x128) hz3]

end Pieces

/-! ## The running contents, point by point -/

variable (V : (c : Dev nD) → (b : Ref sig .tc) → Buf (Elt Ideal) ((c : Thread nD τ).loc b))

/-- The hidden activations of point `t`'s tile. -/
def hidT (c : Dev nD) (t : Fin cfg2.N) : FVec Ideal S5000x128 .f32 :=
  k2_pay4 (F := Ideal) (iblk2 V c 0 t) (iblk2 V c 1 t) (iblk2 V c 2 t) (iblk2 V c 3 t)

/-- Tile `s`'s column sum of the activations (zero past the grid). -/
def tileSum (c : Dev nD) (s : ℕ) (q : Fin 128) : EReal :=
  if h : s < cfg2.N then ∑ r : Fin 5000, hidT V c ⟨s, h⟩ (ix2 r q) else 0

/-- Tile `s`'s column sum of the squared activations (zero past the grid). -/
def tileSq (c : Dev nD) (s : ℕ) (q : Fin 128) : EReal :=
  if h : s < cfg2.N then ∑ r : Fin 5000, hidT V c ⟨s, h⟩ (ix2 r q) * hidT V c ⟨s, h⟩ (ix2 r q) else 0

theorem tileSum_of_lt (c : Dev nD) (s : ℕ) (h : s < cfg2.N) (q : Fin 128) :
    tileSum V c s q = ∑ r : Fin 5000, hidT V c ⟨s, h⟩ (ix2 r q) := dif_pos h
theorem tileSq_of_lt (c : Dev nD) (s : ℕ) (h : s < cfg2.N) (q : Fin 128) :
    tileSq V c s q = ∑ r : Fin 5000, hidT V c ⟨s, h⟩ (ix2 r q) * hidT V c ⟨s, h⟩ (ix2 r q) := dif_pos h

/-- What case A (a core's first tile) leaves, entry by entry, at point `t`. -/
theorem caseA_vals (c : Dev nD) (t : Fin cfg2.N) (hc : cond2_0 (grid2.coords t)) :
    out2_A_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) = hidT V c t
    ∧ (∀ q : Fin 128, out2_A_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) (ix3 (0 : Fin 1) (0 : Fin 1) q)
        = ∑ r : Fin 5000, hidT V c t (ix2 r q))
    ∧ (∀ q : Fin 128, out2_A_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) (ix3 (0 : Fin 1) (0 : Fin 1) q)
        = ∑ r : Fin 5000, hidT V c t (ix2 r q) * hidT V c t (ix2 r q)) := by
  refine ⟨outA4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t), fun q => ?_, fun q => ?_⟩
  · rw [outA5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t)]
    refine (sum_apply (iblk2 V c 0 t) (iblk2 V c 1 t) (iblk2 V c 2 t) (iblk2 V c 3 t) _ q).trans ?_
    rw [reset_apply, zero_add]
    rfl
  · rw [outA6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t)]
    refine (sq_apply (iblk2 V c 0 t) (iblk2 V c 1 t) (iblk2 V c 2 t) (iblk2 V c 3 t) _ q).trans ?_
    rw [reset_apply', zero_add]
    rfl

/-- What case B (any other tile) leaves at point `t`, from accumulators holding `xo5`, `xo6`. -/
theorem caseB_vals (c : Dev nD) (t : Fin cfg2.N) (hc : ¬cond2_0 (grid2.coords t)) (xo5 xo6 : Vec Ideal S1x1x128 .f32) :
    out2_B_4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6 = hidT V c t
    ∧ (∀ q : Fin 128, out2_B_5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6 (ix3 (0 : Fin 1) (0 : Fin 1) q)
        = xo5 (ix3 (0 : Fin 1) (0 : Fin 1) q) + ∑ r : Fin 5000, hidT V c t (ix2 r q))
    ∧ (∀ q : Fin 128, out2_B_6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6 (ix3 (0 : Fin 1) (0 : Fin 1) q)
        = xo6 (ix3 (0 : Fin 1) (0 : Fin 1) q) + ∑ r : Fin 5000, hidT V c t (ix2 r q) * hidT V c t (ix2 r q)) := by
  refine ⟨outB4 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6, fun q => ?_, fun q => ?_⟩
  · rw [outB5 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6]
    exact sum_apply (iblk2 V c 0 t) (iblk2 V c 1 t) (iblk2 V c 2 t) (iblk2 V c 3 t) xo5 q
  · rw [outB6 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) hc (iblk2 V c 0 t) (iblk2 V c 1 t) (iblk2 V c 2 t) (iblk2 V c 3 t) xo5 xo6]
    exact sq_apply (iblk2 V c 0 t) (iblk2 V c 1 t) (iblk2 V c 2 t) (iblk2 V c 3 t) xo6 q

/-- After point `n` the first result's buffer holds the tile's activations, and the two accumulators hold the sums of
    the tiles' column sums over the tiles of the core met so far (`5 (n / 5) … n`): by induction on the point — a
    core's first tile starts from the reset, every other tile adds onto what the tile before left. -/
theorem outs_eq (c : Dev nD) : ∀ (n : ℕ) (h : n < cfg2.N),
    (outsAt2 V c n h).1 = hidT V c ⟨n, h⟩
    ∧ (∀ q : Fin 128, (outsAt2 V c n h).2.1 (ix3 (0 : Fin 1) (0 : Fin 1) q) = ∑ s ∈ Finset.Ico (5 * (n / 5)) (n + 1), tileSum V c s q)
    ∧ (∀ q : Fin 128, (outsAt2 V c n h).2.2 (ix3 (0 : Fin 1) (0 : Fin 1) q) = ∑ s ∈ Finset.Ico (5 * (n / 5)) (n + 1), tileSq V c s q) := by
  have hone : ∀ (n : ℕ) (f : ℕ → EReal), ∑ s ∈ Finset.Ico n (n + 1), f s = f n := fun n f => by
    rw [Finset.sum_Ico_succ_top (Nat.le_refl n), Finset.Ico_self, Finset.sum_empty, zero_add]
  have first : ∀ (n : ℕ) (h : n < cfg2.N), n % 5 = 0 →
      (outsAt2 V c n h).1 = hidT V c ⟨n, h⟩
      ∧ (∀ q : Fin 128, (outsAt2 V c n h).2.1 (ix3 (0 : Fin 1) (0 : Fin 1) q) = ∑ s ∈ Finset.Ico (5 * (n / 5)) (n + 1), tileSum V c s q)
      ∧ (∀ q : Fin 128, (outsAt2 V c n h).2.2 (ix3 (0 : Fin 1) (0 : Fin 1) q) = ∑ s ∈ Finset.Ico (5 * (n / 5)) (n + 1), tileSq V c s q) := by
    intro n h h0
    have e5 : 5 * (n / 5) = n := by omega
    obtain ⟨a4, a5, a6⟩ := caseA_vals V c ⟨n, h⟩ ((hcond2_0 ⟨n, h⟩).mpr h0)
    have hA := outsAt2_A V c ⟨n, h⟩ h0
    have h1 := congrArg Prod.fst hA
    have h2 := congrArg (fun p => p.2.1) hA
    have h3 := congrArg (fun p => p.2.2) hA
    dsimp only at h1 h2 h3
    refine ⟨h1.trans a4, fun q => ?_, fun q => ?_⟩
    · rw [e5, hone, tileSum_of_lt V c n h q]
      exact (congrFun h2 _).trans (a5 q)
    · rw [e5, hone, tileSq_of_lt V c n h q]
      exact (congrFun h3 _).trans (a6 q)
  intro n
  induction n with
  | zero => exact fun h => first 0 h rfl
  | succ n ih =>
    intro h
    by_cases h0 : (n + 1) % 5 = 0
    · exact first (n + 1) h h0
    · have e5 : 5 * ((n + 1) / 5) = 5 * (n / 5) := by omega
      have hle : 5 * (n / 5) ≤ n + 1 := by omega
      obtain ⟨-, ih5, ih6⟩ := ih (Nat.lt_of_succ_lt h)
      obtain ⟨b4, b5, b6⟩ := caseB_vals V c ⟨n + 1, h⟩ (fun hh => h0 ((hcond2_0 ⟨n + 1, h⟩).mp hh))
        (outsAt2 V c n (Nat.lt_of_succ_lt h)).2.1 (outsAt2 V c n (Nat.lt_of_succ_lt h)).2.2
      have hB := outsAt2_B V c ⟨n + 1, h⟩ h0
      have h1 := congrArg Prod.fst hB
      have h2 := congrArg (fun p => p.2.1) hB
      have h3 := congrArg (fun p => p.2.2) hB
      dsimp only at h1 h2 h3
      refine ⟨h1.trans b4, fun q => ?_, fun q => ?_⟩
      · rw [e5, Finset.sum_Ico_succ_top hle, tileSum_of_lt V c (n + 1) h q, ← ih5 q]
        exact (congrFun h2 _).trans (b5 q)
      · rw [e5, Finset.sum_Ico_succ_top hle, tileSq_of_lt V c (n + 1) h q, ← ih6 q]
        exact (congrFun h3 _).trans (b6 q)

/-! ## The blocks read as parts of the arrays -/

/-- The printed index maps over the grid. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val / 5 ∧ win2_5.index t (1 : Fin 3) = 0 ∧ win2_5.index t (2 : Fin 3) = 0
    ∧ win2_6.index t (0 : Fin 3) = t.val / 5 ∧ win2_6.index t (1 : Fin 3) = 0 ∧ win2_6.index t (2 : Fin 3) = 0 :=
  (by decide +kernel : ∀ t : Fin grid2.N, _)

/-- Row `p` of point `t`'s block is row `5000 t + p` of the array. -/
def rowAt (t : Fin cfg2.N) (p : Fin 5000) : Fin 50000 :=
  ⟨5000 * t.val + p.val, by have := t.isLt; have hN : cfg2.N = 10 := N_2; have := p.isLt; omega⟩

/-- The core of point `t`. -/
def coreAt (t : Fin cfg2.N) : Fin 2 := ⟨t.val / 5, by have := t.isLt; have hN : cfg2.N = 10 := N_2; omega⟩

theorem rd0 (c : Dev nD) (t : Fin cfg2.N) (p : Fin 5000) (k : Fin 128) :
    iblk2 V c 0 t (ix2 p k) = (V c main_v29 : S50000x128.Idx → EReal) (ix2 (rowAt t p) k) := by
  obtain ⟨e00, e01, -⟩ := idx_facts t
  have hk := k.isLt
  show (V c main_v29 : S50000x128.Idx → EReal) (((cfg2.win 0).blk t).view.emb (ix2 p k)) = _
  refine congrArg (V c main_v29 : S50000x128.Idx → EReal) (funext fun a => Fin.ext ?_)
  match a with
  | ⟨0, _⟩ => show win2_0.index t (0 : Fin 2) * 5000 + 1 * p.val = 5000 * t.val + p.val; omega
  | ⟨1, _⟩ => show win2_0.index t (1 : Fin 2) * 128 + 1 * k.val = k.val; omega
theorem rd1 (c : Dev nD) (t : Fin cfg2.N) (p : Fin 5000) (k : Fin 128) :
    iblk2 V c 1 t (ix2 p k) = (V c main_v39 : S50000x128.Idx → EReal) (ix2 (rowAt t p) k) := by
  obtain ⟨-, -, e10, e11, -⟩ := idx_facts t
  have hk := k.isLt
  show (V c main_v39 : S50000x128.Idx → EReal) (((cfg2.win 1).blk t).view.emb (ix2 p k)) = _
  refine congrArg (V c main_v39 : S50000x128.Idx → EReal) (funext fun a => Fin.ext ?_)
  match a with
  | ⟨0, _⟩ => show win2_1.index t (0 : Fin 2) * 5000 + 1 * p.val = 5000 * t.val + p.val; omega
  | ⟨1, _⟩ => show win2_1.index t (1 : Fin 2) * 128 + 1 * k.val = k.val; omega
theorem rd2 (c : Dev nD) (t : Fin cfg2.N) (k q : Fin 128) :
    iblk2 V c 2 t (ix2 k q) = (V c main_arg4 : S128x128.Idx → EReal) (ix2 k q) := by
  obtain ⟨-, -, -, -, e20, e21, -⟩ := idx_facts t
  have hk := k.isLt; have hq := q.isLt
  show (V c main_arg4 : S128x128.Idx → EReal) (((cfg2.win 2).blk t).view.emb (ix2 k q)) = _
  refine congrArg (V c main_arg4 : S128x128.Idx → EReal) (funext fun a => Fin.ext ?_)
  match a with
  | ⟨0, _⟩ => show win2_2.index t (0 : Fin 2) * 128 + 1 * k.val = k.val; omega
  | ⟨1, _⟩ => show win2_2.index t (1 : Fin 2) * 128 + 1 * q.val = q.val; omega
theorem rd3 (c : Dev nD) (t : Fin cfg2.N) (q : Fin 128) :
    iblk2 V c 3 t (ix2 (0 : Fin 1) q) = (V c main_v40 : S1x128.Idx → EReal) (ix2 (0 : Fin 1) q) := by
  obtain ⟨-, -, -, -, -, -, e30, e31, -⟩ := idx_facts t
  have hq := q.isLt
  show (V c main_v40 : S1x128.Idx → EReal) (((cfg2.win 3).blk t).view.emb (ix2 (0 : Fin 1) q)) = _
  refine congrArg (V c main_v40 : S1x128.Idx → EReal) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega
theorem rd_out4 (t : Fin cfg2.N) (G : S50000x128.Idx → EReal) (p : Fin 5000) (q : Fin 128) :
    ((cfg2.win 4).blk t).view.read (Elt Ideal) G (ix2 p q) = G (ix2 (rowAt t p) q) := by
  obtain ⟨-, -, -, -, -, -, -, -, e40, e41, -⟩ := idx_facts t
  have hq := q.isLt
  show G (((cfg2.win 4).blk t).view.emb (ix2 p q)) = _
  refine congrArg G (funext fun a => Fin.ext ?_)
  match a with
  | ⟨0, _⟩ => show win2_4.index t (0 : Fin 2) * 5000 + 1 * p.val = 5000 * t.val + p.val; omega
  | ⟨1, _⟩ => show win2_4.index t (1 : Fin 2) * 128 + 1 * q.val = q.val; omega
theorem rd_out5 (t : Fin cfg2.N) (G : S2x1x128.Idx → EReal) (q : Fin 128) :
    ((cfg2.win 5).blk t).view.read (Elt Ideal) G (ix3 (0 : Fin 1) (0 : Fin 1) q) = G (ix3 (coreAt t) (0 : Fin 1) q) := by
  obtain ⟨-, -, -, -, -, -, -, -, -, -, e50, e51, e52, -⟩ := idx_facts t
  have hq := q.isLt
  show G (((cfg2.win 5).blk t).view.emb (ix3 (0 : Fin 1) (0 : Fin 1) q)) = _
  refine congrArg G (funext fun a => Fin.ext ?_)
  match a with
  | ⟨0, _⟩ => show win2_5.index t (0 : Fin 3) * 1 + 1 * 0 = t.val / 5; omega
  | ⟨1, _⟩ => show win2_5.index t (1 : Fin 3) * 1 + 1 * 0 = 0; omega
  | ⟨2, _⟩ => show win2_5.index t (2 : Fin 3) * 128 + 1 * q.val = q.val; omega
theorem rd_out6 (t : Fin cfg2.N) (G : S2x1x128.Idx → EReal) (q : Fin 128) :
    ((cfg2.win 6).blk t).view.read (Elt Ideal) G (ix3 (0 : Fin 1) (0 : Fin 1) q) = G (ix3 (coreAt t) (0 : Fin 1) q) := by
  obtain ⟨-, -, -, -, -, -, -, -, -, -, -, -, -, e60, e61, e62⟩ := idx_facts t
  have hq := q.isLt
  show G (((cfg2.win 6).blk t).view.emb (ix3 (0 : Fin 1) (0 : Fin 1) q)) = _
  refine congrArg G (funext fun a => Fin.ext ?_)
  match a with
  | ⟨0, _⟩ => show win2_6.index t (0 : Fin 3) * 1 + 1 * 0 = t.val / 5; omega
  | ⟨1, _⟩ => show win2_6.index t (1 : Fin 3) * 1 + 1 * 0 = 0; omega
  | ⟨2, _⟩ => show win2_6.index t (2 : Fin 3) * 128 + 1 * q.val = q.val; omega

/-! ## The three results -/

/-- The hidden activations of the whole array, from the arrays the region finds. -/
def hiddenOf (c : Dev nD) : Fin 50000 → Fin 128 → EReal :=
  Cert.Gin.hidden (Cert.Gin.rows (V c main_v29 : S50000x128.Idx → EReal)) (Cert.Gin.rows (V c main_v39 : S50000x128.Idx → EReal))
    (Cert.Gin.rows (V c main_arg4 : S128x128.Idx → EReal)) (fun j => (V c main_v40 : S1x128.Idx → EReal) (ix2 (0 : Fin 1) j))

/-- A tile's activations are the whole array's at the tile's rows. -/
theorem hidT_apply (c : Dev nD) (t : Fin cfg2.N) (p : Fin 5000) (q : Fin 128) :
    hidT V c t (ix2 p q) = hiddenOf V c (rowAt t p) q := by
  unfold hidT
  refine (hid_apply _ _ _ _ p q).trans ?_
  simp only [rd0 V c t, rd1 V c t, rd2 V c t, rd3 V c t]
  rfl

theorem flushed4_eq (c : Dev nD) (t : Fin cfg2.N) :
    (dat2 V c).flushed 4 t = ((cfg2.win 4).blk t).view.read (Elt Ideal) (Cert.Gin.arrOf (hiddenOf V c)) := by
  show (cfg2.win 4).cut (grid2.coords t) ((dat2 V c).after 4 t) = _
  rw [after2_4, (outs_eq V c t.val t.isLt).1]
  funext j
  obtain ⟨p, q, rfl⟩ : ∃ (p : Fin 5000) (q : Fin 128), j = ix2 p q := ⟨j 0, j 1, eq_ix2 j⟩
  refine (hidT_apply V c t p q).trans ?_
  rw [rd_out4 t _ p q]
  rfl

theorem mem_blk4 (t : Fin cfg2.N) (i : S50000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v41_0).slice (win2_4.rect t)).set ↔ _
  rw [View.set_slice_whole, Rect.mem_set_unit]
  exact Iff.rfl

/-- THE FIRST RESULT after the region: the hidden activations of the whole array. -/
theorem final4 (c : Dev nD) : (dat2 V c).arrAt 4 cfg2.N = Cert.Gin.arrOf (hiddenOf V c) :=
  (dat2 V c).arrAt_eq_of_cover 4 _ (fun t _ => flushed4_eq V c t) fun i => by
    have hi0 : (i 0).val < 50000 := (i 0).isLt
    have hi1 : (i 1).val < 128 := (i 1).isLt
    have hN : cfg2.N = 10 := N_2
    obtain ⟨-, -, -, -, -, -, -, -, e40, e41, -⟩ := idx_facts (⟨(i 0).val / 5000, by rw [hN]; omega⟩ : Fin cfg2.N)
    have e40' : win2_4.index (⟨(i 0).val / 5000, by rw [hN]; omega⟩ : Fin cfg2.N) (0 : Fin 2) = (i 0).val / 5000 := e40
    refine ⟨⟨(i 0).val / 5000, by rw [hN]; omega⟩, flush2_4 _, ?_⟩
    rw [mem_blk4]
    intro a
    match a with
    | ⟨0, _⟩ => show win2_4.index _ (0 : Fin 2) * 5000 ≤ (i 0).val ∧ (i 0).val < win2_4.index _ (0 : Fin 2) * 5000 + 5000; omega
    | ⟨1, _⟩ => show win2_4.index _ (1 : Fin 2) * 128 ≤ (i 1).val ∧ (i 1).val < win2_4.index _ (1 : Fin 2) * 128 + 128; omega

/-- Core `cc`'s sums of its five tiles' column sums, as a `[2, 1, 128]` array. -/
def sumsArr (c : Dev nD) : S2x1x128.Idx → EReal :=
  fun i => ∑ s ∈ Finset.Ico (5 * (i 0).val) (5 * (i 0).val + 5), tileSum V c s (i 2)
def sqsArr (c : Dev nD) : S2x1x128.Idx → EReal :=
  fun i => ∑ s ∈ Finset.Ico (5 * (i 0).val) (5 * (i 0).val + 5), tileSq V c s (i 2)

/-- An index of a `[1, 1, 128]` block is `(0, 0, q)`. -/
theorem eq_ix3_00 (j : S1x1x128.Idx) : j = ix3 (0 : Fin 1) (0 : Fin 1) (j 2) := by
  funext a
  match a with
  | ⟨0, _⟩ => exact Fin.ext (by have h : (j 0).val < 1 := (j 0).isLt; show (j 0).val = 0; omega)
  | ⟨1, _⟩ => exact Fin.ext (by have h : (j 1).val < 1 := (j 1).isLt; show (j 1).val = 0; omega)
  | ⟨2, _⟩ => rfl

theorem flushed5_eq (c : Dev nD) (t : Fin cfg2.N) (hf : (cfg2.win 5).flush t = true) :
    (dat2 V c).flushed 5 t = ((cfg2.win 5).blk t).view.read (Elt Ideal) (sumsArr V c) := by
  have h4 : t.val % 5 = 4 := (flush2_5 t).mp hf
  show (cfg2.win 5).cut (grid2.coords t) ((dat2 V c).after 5 t) = _
  rw [after2_5]
  funext j
  obtain ⟨q, rfl⟩ : ∃ q : Fin 128, j = ix3 (0 : Fin 1) (0 : Fin 1) q := ⟨j 2, eq_ix3_00 j⟩
  refine ((outs_eq V c t.val t.isLt).2.1 q).trans ?_
  rw [rd_out5 t _ q]
  show _ = ∑ s ∈ Finset.Ico (5 * (t.val / 5)) (5 * (t.val / 5) + 5), tileSum V c s q
  rw [show t.val + 1 = 5 * (t.val / 5) + 5 by omega]
theorem flushed6_eq (c : Dev nD) (t : Fin cfg2.N) (hf : (cfg2.win 6).flush t = true) :
    (dat2 V c).flushed 6 t = ((cfg2.win 6).blk t).view.read (Elt Ideal) (sqsArr V c) := by
  have h4 : t.val % 5 = 4 := (flush2_6 t).mp hf
  show (cfg2.win 6).cut (grid2.coords t) ((dat2 V c).after 6 t) = _
  rw [after2_6]
  funext j
  obtain ⟨q, rfl⟩ : ∃ q : Fin 128, j = ix3 (0 : Fin 1) (0 : Fin 1) q := ⟨j 2, eq_ix3_00 j⟩
  refine ((outs_eq V c t.val t.isLt).2.2 q).trans ?_
  rw [rd_out6 t _ q]
  show _ = ∑ s ∈ Finset.Ico (5 * (t.val / 5)) (5 * (t.val / 5) + 5), tileSq V c s q
  rw [show t.val + 1 = 5 * (t.val / 5) + 5 by omega]

theorem mem_blk5 (t : Fin cfg2.N) (i : S2x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v41_1).slice (win2_5.rect t)).set ↔ _
  rw [View.set_slice_whole, Rect.mem_set_unit]
  exact Iff.rfl
theorem mem_blk6 (t : Fin cfg2.N) (i : S2x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v41_2).slice (win2_6.rect t)).set ↔ _
  rw [View.set_slice_whole, Rect.mem_set_unit]
  exact Iff.rfl

/-- THE SECOND RESULT after the region: block `cc` is written back once, after core `cc`'s fifth tile. -/
theorem final5 (c : Dev nD) : (dat2 V c).arrAt 5 cfg2.N = sumsArr V c :=
  (dat2 V c).arrAt_eq_of_cover 5 _ (flushed5_eq V c) fun i => by
    have hi0 : (i 0).val < 2 := (i 0).isLt
    have hi1 : (i 1).val < 1 := (i 1).isLt
    have hi2 : (i 2).val < 128 := (i 2).isLt
    have hN : cfg2.N = 10 := N_2
    obtain ⟨-, -, -, -, -, -, -, -, -, -, e50, e51, e52, -⟩ := idx_facts (⟨5 * (i 0).val + 4, by rw [hN]; omega⟩ : Fin cfg2.N)
    have e50' : win2_5.index (⟨5 * (i 0).val + 4, by rw [hN]; omega⟩ : Fin cfg2.N) (0 : Fin 3) = (5 * (i 0).val + 4) / 5 := e50
    refine ⟨⟨5 * (i 0).val + 4, by rw [hN]; omega⟩, (flush2_5 _).mpr (by show (5 * (i 0).val + 4) % 5 = 4; omega), ?_⟩
    rw [mem_blk5]
    intro a
    match a with
    | ⟨0, _⟩ => show win2_5.index _ (0 : Fin 3) * 1 ≤ (i 0).val ∧ (i 0).val < win2_5.index _ (0 : Fin 3) * 1 + 1; omega
    | ⟨1, _⟩ => show win2_5.index _ (1 : Fin 3) * 1 ≤ (i 1).val ∧ (i 1).val < win2_5.index _ (1 : Fin 3) * 1 + 1; omega
    | ⟨2, _⟩ => show win2_5.index _ (2 : Fin 3) * 128 ≤ (i 2).val ∧ (i 2).val < win2_5.index _ (2 : Fin 3) * 128 + 128; omega
/-- THE THIRD RESULT after the region. -/
theorem final6 (c : Dev nD) : (dat2 V c).arrAt 6 cfg2.N = sqsArr V c :=
  (dat2 V c).arrAt_eq_of_cover 6 _ (flushed6_eq V c) fun i => by
    have hi0 : (i 0).val < 2 := (i 0).isLt
    have hi1 : (i 1).val < 1 := (i 1).isLt
    have hi2 : (i 2).val < 128 := (i 2).isLt
    have hN : cfg2.N = 10 := N_2
    obtain ⟨-, -, -, -, -, -, -, -, -, -, -, -, -, e60, e61, e62⟩ := idx_facts (⟨5 * (i 0).val + 4, by rw [hN]; omega⟩ : Fin cfg2.N)
    have e60' : win2_6.index (⟨5 * (i 0).val + 4, by rw [hN]; omega⟩ : Fin cfg2.N) (0 : Fin 3) = (5 * (i 0).val + 4) / 5 := e60
    refine ⟨⟨5 * (i 0).val + 4, by rw [hN]; omega⟩, (flush2_6 _).mpr (by show (5 * (i 0).val + 4) % 5 = 4; omega), ?_⟩
    rw [mem_blk6]
    intro a
    match a with
    | ⟨0, _⟩ => show win2_6.index _ (0 : Fin 3) * 1 ≤ (i 0).val ∧ (i 0).val < win2_6.index _ (0 : Fin 3) * 1 + 1; omega
    | ⟨1, _⟩ => show win2_6.index _ (1 : Fin 3) * 1 ≤ (i 1).val ∧ (i 1).val < win2_6.index _ (1 : Fin 3) * 1 + 1; omega
    | ⟨2, _⟩ => show win2_6.index _ (2 : Fin 3) * 128 ≤ (i 2).val ∧ (i 2).val < win2_6.index _ (2 : Fin 3) * 128 + 128; omega

/-! ## The partial sums in terms of the whole array's activations -/

/-- Tile `s`'s column sum is the sum of the activations over rows `5000 s … 5000 s + 4999`. -/
theorem tileSum_eq (c : Dev nD) (s : ℕ) (hs : s < 10) (q : Fin 128) :
    tileSum V c s q = ∑ r : Fin 5000, Cert.Gin.extend0 (fun n => hiddenOf V c n q) (5000 * s + r.val) := by
  have h : s < cfg2.N := by rw [show cfg2.N = 10 from N_2]; exact hs
  rw [tileSum_of_lt V c s h q]
  refine Finset.sum_congr rfl fun r _ => ?_
  have hr := r.isLt
  rw [hidT_apply V c ⟨s, h⟩ r q]
  unfold Cert.Gin.extend0
  rw [dif_pos (by omega : 5000 * s + r.val < 50000)]
  rfl
theorem tileSq_eq (c : Dev nD) (s : ℕ) (hs : s < 10) (q : Fin 128) :
    tileSq V c s q = ∑ r : Fin 5000, Cert.Gin.extend0 (fun n => hiddenOf V c n q * hiddenOf V c n q) (5000 * s + r.val) := by
  have h : s < cfg2.N := by rw [show cfg2.N = 10 from N_2]; exact hs
  rw [tileSq_of_lt V c s h q]
  refine Finset.sum_congr rfl fun r _ => ?_
  have hr := r.isLt
  rw [hidT_apply V c ⟨s, h⟩ r q]
  unfold Cert.Gin.extend0
  rw [dif_pos (by omega : 5000 * s + r.val < 50000)]
  rfl

/-- Core `cc`'s partial sums, over the whole array's activations. -/
theorem sumsArr_apply (c : Dev nD) (cc : Fin 2) (q : Fin 128) :
    sumsArr V c (ix3 cc (0 : Fin 1) q)
      = ∑ s ∈ Finset.Ico (5 * cc.val) (5 * cc.val + 5), ∑ r : Fin 5000, Cert.Gin.extend0 (fun n => hiddenOf V c n q) (5000 * s + r.val) := by
  have hcc := cc.isLt
  show ∑ s ∈ Finset.Ico (5 * cc.val) (5 * cc.val + 5), tileSum V c s q = _
  exact Finset.sum_congr rfl fun s hs => tileSum_eq V c s (by have := (Finset.mem_Ico.mp hs).2; omega) q
theorem sqsArr_apply (c : Dev nD) (cc : Fin 2) (q : Fin 128) :
    sqsArr V c (ix3 cc (0 : Fin 1) q)
      = ∑ s ∈ Finset.Ico (5 * cc.val) (5 * cc.val + 5), ∑ r : Fin 5000, Cert.Gin.extend0 (fun n => hiddenOf V c n q * hiddenOf V c n q) (5000 * s + r.val) := by
  have hcc := cc.isLt
  show ∑ s ∈ Finset.Ico (5 * cc.val) (5 * cc.val + 5), tileSq V c s q = _
  exact Finset.sum_congr rfl fun s hs => tileSq_eq V c s (by have := (Finset.mem_Ico.mp hs).2; omega) q

end Cert.KernelIdeal.KValue.Stats2

end
-- ==== Proof.NormRegion1.lean ====
/-
  The normalisation region, read as values: a grid of ten points, point `t` taking rows `5000 t … 5000 t + 4999` of the
  activations together with four one-row arrays (mean, reciprocal deviation, scale, shift), and writing back

      out (n, j) = (h (n, j) − μ (0, j)) · r (0, j) · γ (0, j) + β (0, j) .

  The body is one pointwise expression of its loaded blocks, each one-row operand repeated along the rows, so block `t`
  of the result is block `t` of that whole-array function; the ten blocks tile the array, hence the array after the
  region IS that function of the arrays the region finds at its entry — for any entry contents `V`.
-/
import proofs.«156369_j37709812859563_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.KValue.Norm1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Centre, scale twice and shift, entry by entry, each one-row operand read at the entry's column. -/
def normArr (h : S50000x128.Idx → EReal) (μ r γ β : S1x128.Idx → EReal) : S50000x128.Idx → EReal :=
  fun i => (h i - μ (ix2 (0 : Fin 1) (i 1))) * r (ix2 (0 : Fin 1) (i 1)) * γ (ix2 (0 : Fin 1) (i 1)) + β (ix2 (0 : Fin 1) (i 1))

/-- The tile's stored value at row `p`, column `q`: a same-shape re-laying changes nothing, a one-row block repeated
    along the rows reads its column `q`. -/
theorem tile_apply (x0 : FVec Ideal S5000x128 .f32) (x1 x2 x3 x4 : FVec Ideal S1x128 .f32) (p : Fin 5000) (q : Fin 128) :
    k1_pay1 (F := Ideal) x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k1_pay1
  simp only [addf_apply, mulf_apply, subf_apply, shapeCast_self, broadcastTo_1b_ab_apply]

/-- The printed index maps over the grid: the row-block windows sit at block `(t, 0)`, the one-row windows at `(0, 0)`. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row `p` of point `t`'s block is row `5000 t + p` of the array. -/
def rowAt (t : Fin cfg1.N) (p : Fin 5000) : Fin 50000 :=
  ⟨5000 * t.val + p.val, by have := t.isLt; have hN : cfg1.N = 10 := N_1; have := p.isLt; omega⟩

/-- The activations' block at point `t`, read at `(p, q)`. -/
theorem rd_in (c : Dev nD) (t : Fin cfg1.N) (p : Fin 5000) (q : Fin 128) :
    iblk1 V c 0 t (ix2 p q) = (V c main_v15_0 : S50000x128.Idx → EReal) (ix2 (rowAt t p) q) := by
  obtain ⟨e00, e01, -⟩ := idx_facts t
  have hq := q.isLt
  show (V c main_v15_0 : S50000x128.Idx → EReal) (((cfg1.win 0).blk t).view.emb (ix2 p q)) = _
  refine congrArg (V c main_v15_0 : S50000x128.Idx → EReal) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

/-- The result's block at point `t` of any whole-array contents, read at `(p, q)`. -/
theorem rd_out (t : Fin cfg1.N) (G : S50000x128.Idx → EReal) (p : Fin 5000) (q : Fin 128) :
    ((cfg1.win 5).blk t).view.read (Elt Ideal) G (ix2 p q) = G (ix2 (rowAt t p) q) := by
  obtain ⟨-, -, e50, e51, -⟩ := idx_facts t
  have hq := q.isLt
  show G (((cfg1.win 5).blk t).view.emb (ix2 p q)) = _
  refine congrArg G (funext fun a => Fin.ext ?_)
  match a with
  | ⟨0, _⟩ => show win1_5.index t (0 : Fin 2) * 5000 + 1 * p.val = 5000 * t.val + p.val; omega
  | ⟨1, _⟩ => show win1_5.index t (1 : Fin 2) * 128 + 1 * q.val = q.val; omega

/-- One-row window 1's block is the whole one-row array. -/
theorem rd_row1 (c : Dev nD) (t : Fin cfg1.N) (q : Fin 128) :
    iblk1 V c 1 t (ix2 (0 : Fin 1) q) = (V c main_v19 : S1x128.Idx → EReal) (ix2 (0 : Fin 1) q) := by
  obtain ⟨-, -, -, -, e10, e11, e20, e21, e30, e31, e40, e41⟩ := idx_facts t
  have hq := q.isLt
  show (V c main_v19 : S1x128.Idx → EReal) (((cfg1.win 1).blk t).view.emb (ix2 (0 : Fin 1) q)) = _
  refine congrArg (V c main_v19 : S1x128.Idx → EReal) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- One-row window 2's block is the whole one-row array. -/
theorem rd_row2 (c : Dev nD) (t : Fin cfg1.N) (q : Fin 128) :
    iblk1 V c 2 t (ix2 (0 : Fin 1) q) = (V c main_v26 : S1x128.Idx → EReal) (ix2 (0 : Fin 1) q) := by
  obtain ⟨-, -, -, -, e10, e11, e20, e21, e30, e31, e40, e41⟩ := idx_facts t
  have hq := q.isLt
  show (V c main_v26 : S1x128.Idx → EReal) (((cfg1.win 2).blk t).view.emb (ix2 (0 : Fin 1) q)) = _
  refine congrArg (V c main_v26 : S1x128.Idx → EReal) (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

/-- One-row window 3's block is the whole one-row array. -/
theorem rd_row3 (c : Dev nD) (t : Fin cfg1.N) (q : Fin 128) :
    iblk1 V c 3 t (ix2 (0 : Fin 1) q) = (V c main_v27 : S1x128.Idx → EReal) (ix2 (0 : Fin 1) q) := by
  obtain ⟨-, -, -, -, e10, e11, e20, e21, e30, e31, e40, e41⟩ := idx_facts t
  have hq := q.isLt
  show (V c main_v27 : S1x128.Idx → EReal) (((cfg1.win 3).blk t).view.emb (ix2 (0 : Fin 1) q)) = _
  refine congrArg (V c main_v27 : S1x128.Idx → EReal) (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

/-- One-row window 4's block is the whole one-row array. -/
theorem rd_row4 (c : Dev nD) (t : Fin cfg1.N) (q : Fin 128) :
    iblk1 V c 4 t (ix2 (0 : Fin 1) q) = (V c main_v28 : S1x128.Idx → EReal) (ix2 (0 : Fin 1) q) := by
  obtain ⟨-, -, -, -, e10, e11, e20, e21, e30, e31, e40, e41⟩ := idx_facts t
  have hq := q.isLt
  show (V c main_v28 : S1x128.Idx → EReal) (((cfg1.win 4).blk t).view.emb (ix2 (0 : Fin 1) q)) = _
  refine congrArg (V c main_v28 : S1x128.Idx → EReal) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- What point `t` writes back is block `t` of the whole-array function of the entry arrays. -/
theorem flushed_eq (c : Dev nD) (t : Fin cfg1.N) :
    (dat1 V c).flushed 5 t = ((cfg1.win 5).blk t).view.read (Elt Ideal)
      (normArr (V c main_v15_0) (V c main_v19) (V c main_v26) (V c main_v27) (V c main_v28)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (tile_apply _ _ _ _ _ p q).trans ?_
  rw [rd_in V c t p q, rd_row1 V c t q, rd_row2 V c t q, rd_row3 V c t q, rd_row4 V c t q, rd_out t _ p q]
  rfl

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- THE ARRAY after the region: the whole-array function of the entry arrays (row `n` lies in the block of point `n / 5000`). -/
theorem final (c : Dev nD) : (dat1 V c).arrAt 5 cfg1.N
    = normArr (V c main_v15_0) (V c main_v19) (V c main_v26) (V c main_v27) (V c main_v28) :=
  (dat1 V c).arrAt_eq_of_cover 5 _ (fun t _ => flushed_eq V c t) fun i => by
    have hi0 : (i 0).val < 50000 := (i 0).isLt
    have hi1 : (i 1).val < 128 := (i 1).isLt
    have hN : cfg1.N = 10 := N_1
    obtain ⟨-, -, e50, e51, -⟩ := idx_facts (⟨(i 0).val / 5000, by rw [hN]; omega⟩ : Fin cfg1.N)
    have e50' : win1_5.index (⟨(i 0).val / 5000, by rw [hN]; omega⟩ : Fin cfg1.N) (0 : Fin 2) = (i 0).val / 5000 := e50
    refine ⟨⟨(i 0).val / 5000, by rw [hN]; omega⟩, flush1_5 _, ?_⟩
    rw [mem_blk]
    intro a
    match a with
    | ⟨0, _⟩ => show win1_5.index _ (0 : Fin 2) * 5000 ≤ (i 0).val ∧ (i 0).val < win1_5.index _ (0 : Fin 2) * 5000 + 5000; omega
    | ⟨1, _⟩ => show win1_5.index _ (1 : Fin 2) * 128 ≤ (i 1).val ∧ (i 1).val < win1_5.index _ (1 : Fin 2) * 128 + 128; omega

end Cert.KernelIdeal.KValue.Norm1

end
-- ==== Proof.NormRegion3.lean ====
/-
  The normalisation region, read as values: a grid of ten points, point `t` taking rows `5000 t … 5000 t + 4999` of the
  activations together with four one-row arrays (mean, reciprocal deviation, scale, shift), and writing back

      out (n, j) = (h (n, j) − μ (0, j)) · r (0, j) · γ (0, j) + β (0, j) .

  The body is one pointwise expression of its loaded blocks, each one-row operand repeated along the rows, so block `t`
  of the result is block `t` of that whole-array function; the ten blocks tile the array, hence the array after the
  region IS that function of the arrays the region finds at its entry — for any entry contents `V`.
-/
import proofs.«156369_j37709812859563_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.KValue.Norm3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Centre, scale twice and shift, entry by entry, each one-row operand read at the entry's column. -/
def normArr (h : S50000x128.Idx → EReal) (μ r γ β : S1x128.Idx → EReal) : S50000x128.Idx → EReal :=
  fun i => (h i - μ (ix2 (0 : Fin 1) (i 1))) * r (ix2 (0 : Fin 1) (i 1)) * γ (ix2 (0 : Fin 1) (i 1)) + β (ix2 (0 : Fin 1) (i 1))

/-- The tile's stored value at row `p`, column `q`: a same-shape re-laying changes nothing, a one-row block repeated
    along the rows reads its column `q`. -/
theorem tile_apply (x0 : FVec Ideal S5000x128 .f32) (x1 x2 x3 x4 : FVec Ideal S1x128 .f32) (p : Fin 5000) (q : Fin 128) :
    k3_pay1 (F := Ideal) x0 x1 x2 x3 x4 (ix2 p q)
      = (x0 (ix2 p q) - x1 (ix2 (0 : Fin 1) q)) * x2 (ix2 (0 : Fin 1) q) * x3 (ix2 (0 : Fin 1) q) + x4 (ix2 (0 : Fin 1) q) := by
  unfold k3_pay1
  simp only [addf_apply, mulf_apply, subf_apply, shapeCast_self, broadcastTo_1b_ab_apply]

/-- The printed index maps over the grid: the row-block windows sit at block `(t, 0)`, the one-row windows at `(0, 0)`. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Row `p` of point `t`'s block is row `5000 t + p` of the array. -/
def rowAt (t : Fin cfg3.N) (p : Fin 5000) : Fin 50000 :=
  ⟨5000 * t.val + p.val, by have := t.isLt; have hN : cfg3.N = 10 := N_3; have := p.isLt; omega⟩

/-- The activations' block at point `t`, read at `(p, q)`. -/
theorem rd_in (c : Dev nD) (t : Fin cfg3.N) (p : Fin 5000) (q : Fin 128) :
    iblk3 V c 0 t (ix2 p q) = (V c main_v41_0 : S50000x128.Idx → EReal) (ix2 (rowAt t p) q) := by
  obtain ⟨e00, e01, -⟩ := idx_facts t
  have hq := q.isLt
  show (V c main_v41_0 : S50000x128.Idx → EReal) (((cfg3.win 0).blk t).view.emb (ix2 p q)) = _
  refine congrArg (V c main_v41_0 : S50000x128.Idx → EReal) (funext fun a => Fin.ext ?_)
  match a with
  | ⟨0, _⟩ => show win3_0.index t (0 : Fin 2) * 5000 + 1 * p.val = 5000 * t.val + p.val; omega
  | ⟨1, _⟩ => show win3_0.index t (1 : Fin 2) * 128 + 1 * q.val = q.val; omega

/-- The result's block at point `t` of any whole-array contents, read at `(p, q)`. -/
theorem rd_out (t : Fin cfg3.N) (G : S50000x128.Idx → EReal) (p : Fin 5000) (q : Fin 128) :
    ((cfg3.win 5).blk t).view.read (Elt Ideal) G (ix2 p q) = G (ix2 (rowAt t p) q) := by
  obtain ⟨-, -, e50, e51, -⟩ := idx_facts t
  have hq := q.isLt
  show G (((cfg3.win 5).blk t).view.emb (ix2 p q)) = _
  refine congrArg G (funext fun a => Fin.ext ?_)
  match a with
  | ⟨0, _⟩ => show win3_5.index t (0 : Fin 2) * 5000 + 1 * p.val = 5000 * t.val + p.val; omega
  | ⟨1, _⟩ => show win3_5.index t (1 : Fin 2) * 128 + 1 * q.val = q.val; omega

/-- One-row window 1's block is the whole one-row array. -/
theorem rd_row1 (c : Dev nD) (t : Fin cfg3.N) (q : Fin 128) :
    iblk3 V c 1 t (ix2 (0 : Fin 1) q) = (V c main_v45 : S1x128.Idx → EReal) (ix2 (0 : Fin 1) q) := by
  obtain ⟨-, -, -, -, e10, e11, e20, e21, e30, e31, e40, e41⟩ := idx_facts t
  have hq := q.isLt
  show (V c main_v45 : S1x128.Idx → EReal) (((cfg3.win 1).blk t).view.emb (ix2 (0 : Fin 1) q)) = _
  refine congrArg (V c main_v45 : S1x128.Idx → EReal) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- One-row window 2's block is the whole one-row array. -/
theorem rd_row2 (c : Dev nD) (t : Fin cfg3.N) (q : Fin 128) :
    iblk3 V c 2 t (ix2 (0 : Fin 1) q) = (V c main_v52 : S1x128.Idx → EReal) (ix2 (0 : Fin 1) q) := by
  obtain ⟨-, -, -, -, e10, e11, e20, e21, e30, e31, e40, e41⟩ := idx_facts t
  have hq := q.isLt
  show (V c main_v52 : S1x128.Idx → EReal) (((cfg3.win 2).blk t).view.emb (ix2 (0 : Fin 1) q)) = _
  refine congrArg (V c main_v52 : S1x128.Idx → EReal) (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

/-- One-row window 3's block is the whole one-row array. -/
theorem rd_row3 (c : Dev nD) (t : Fin cfg3.N) (q : Fin 128) :
    iblk3 V c 3 t (ix2 (0 : Fin 1) q) = (V c main_v53 : S1x128.Idx → EReal) (ix2 (0 : Fin 1) q) := by
  obtain ⟨-, -, -, -, e10, e11, e20, e21, e30, e31, e40, e41⟩ := idx_facts t
  have hq := q.isLt
  show (V c main_v53 : S1x128.Idx → EReal) (((cfg3.win 3).blk t).view.emb (ix2 (0 : Fin 1) q)) = _
  refine congrArg (V c main_v53 : S1x128.Idx → EReal) (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

/-- One-row window 4's block is the whole one-row array. -/
theorem rd_row4 (c : Dev nD) (t : Fin cfg3.N) (q : Fin 128) :
    iblk3 V c 4 t (ix2 (0 : Fin 1) q) = (V c main_v54 : S1x128.Idx → EReal) (ix2 (0 : Fin 1) q) := by
  obtain ⟨-, -, -, -, e10, e11, e20, e21, e30, e31, e40, e41⟩ := idx_facts t
  have hq := q.isLt
  show (V c main_v54 : S1x128.Idx → EReal) (((cfg3.win 4).blk t).view.emb (ix2 (0 : Fin 1) q)) = _
  refine congrArg (V c main_v54 : S1x128.Idx → EReal) (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- What point `t` writes back is block `t` of the whole-array function of the entry arrays. -/
theorem flushed_eq (c : Dev nD) (t : Fin cfg3.N) :
    (dat3 V c).flushed 5 t = ((cfg3.win 5).blk t).view.read (Elt Ideal)
      (normArr (V c main_v41_0) (V c main_v45) (V c main_v52) (V c main_v53) (V c main_v54)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  refine (tile_apply _ _ _ _ _ p q).trans ?_
  rw [rd_in V c t p q, rd_row1 V c t q, rd_row2 V c t q, rd_row3 V c t q, rd_row4 V c t q, rd_out t _ p q]
  rfl

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v55).slice (win3_5.rect t)).set ↔ _
  rw [View.set_slice_whole, Rect.mem_set_unit]
  exact Iff.rfl

/-- THE ARRAY after the region: the whole-array function of the entry arrays (row `n` lies in the block of point `n / 5000`). -/
theorem final (c : Dev nD) : (dat3 V c).arrAt 5 cfg3.N
    = normArr (V c main_v41_0) (V c main_v45) (V c main_v52) (V c main_v53) (V c main_v54) :=
  (dat3 V c).arrAt_eq_of_cover 5 _ (fun t _ => flushed_eq V c t) fun i => by
    have hi0 : (i 0).val < 50000 := (i 0).isLt
    have hi1 : (i 1).val < 128 := (i 1).isLt
    have hN : cfg3.N = 10 := N_3
    obtain ⟨-, -, e50, e51, -⟩ := idx_facts (⟨(i 0).val / 5000, by rw [hN]; omega⟩ : Fin cfg3.N)
    have e50' : win3_5.index (⟨(i 0).val / 5000, by rw [hN]; omega⟩ : Fin cfg3.N) (0 : Fin 2) = (i 0).val / 5000 := e50
    refine ⟨⟨(i 0).val / 5000, by rw [hN]; omega⟩, flush3_5 _, ?_⟩
    rw [mem_blk]
    intro a
    match a with
    | ⟨0, _⟩ => show win3_5.index _ (0 : Fin 2) * 5000 ≤ (i 0).val ∧ (i 0).val < win3_5.index _ (0 : Fin 2) * 5000 + 5000; omega
    | ⟨1, _⟩ => show win3_5.index _ (1 : Fin 2) * 128 ≤ (i 1).val ∧ (i 1).val < win3_5.index _ (1 : Fin 2) * 128 + 128; omega

end Cert.KernelIdeal.KValue.Norm3

end
-- ==== Proof.HostStats.lean ====
/-
  The host operations between the statistics region and the normalisation region, read entry by entry at the
  extended reals.

  The statistics region leaves, for each of the two cores, one row of partial column sums, laid out as [2, 1, 128]
  (core, unit axis, column); likewise for the sums of squares. Between the regions the host

    · adds the two cores' rows up from zero and divides by the number of nodes, 50000: the mean row
          μ (0, j) = (0 + ∑ core, S (core, 0, j)) / 50000 ;
    · does the same for the squares, subtracts μ · μ, adds ε and takes the reciprocal square root:
          r (0, j) = ((0 + ∑ core, S2 (core, 0, j)) / 50000 − μ (0, j) · μ (0, j) + ε)^(−1/2) ;
    · re-lays the scale and shift vectors [128] as rows [1, 128], which keeps the column.

  Every step is an entrywise operation, a constant broadcast to the row, or a sum over the leading axis; so at an
  entry each unfolds to the operation on extended reals, and the only computation is that the zero word denotes 0.
-/
import proofs.«156369_j37709812859563_2_alg».proof.KernelIdeal
import proofs.«156369_j37709812859563_2_alg».proof.Proof.Gen.KernelIdeal
import proofs.«156369_j37709812859563_2_alg».proof.Proof.GinSpec
import proofs.«156369_j37709812859563_2_alg».proof.Proof.LibColumnSums
import Idealize.ShloMosaic.Lib.ValueLayout
import Idealize.ShloMosaic.Lib.Pipeline.Value
noncomputable section
open scoped BigOperators
namespace Cert.KernelIdeal.KValue.HostStats
open Cert.KernelIdeal Cert.KernelIdeal.Gen Idealize.ShloMosaic Idealize.ShloMosaic.ValueIdx Cert.Gin

/-- The mean row: the two cores' partial sums added up from zero, divided by the number of nodes. -/
def meanRow (S : FVec Ideal S2x1x128 .f32) : FVec Ideal S1x128 .f32 :=
  Host.divf (Host.reduceAdd (F := Ideal) S (constant (F := Ideal) S_ .f32 0x00000000#32) reducesTo_S2x1x128_S1x128_d0 h_S_)
    (broadcastInDim S1x128 ![] bcast_S_S1x128 (constant (F := Ideal) S_ .f32 0x47435000#32))

/-- The reciprocal deviation row: mean of squares minus squared mean, plus epsilon, reciprocal square root. -/
def rstdRow (S2 : FVec Ideal S2x1x128 .f32) (μ : FVec Ideal S1x128 .f32) : FVec Ideal S1x128 .f32 :=
  Host.rsqrt (addf (subf (meanRow S2) (mulf μ μ)) (broadcastInDim S1x128 ![] bcast_S_S1x128 (constant (F := Ideal) S_ .f32 0x3727C5AC#32)))

/-- A scalar constant broadcast to a row is, at every entry, the extended real its word denotes: the broadcast reads
    the scalar's one element wherever it is asked. -/
theorem bcastConst_apply (w : BitVec 32) (i : S1x128.Idx) :
    broadcastInDim S1x128 ![] bcast_S_S1x128 (constant (F := Ideal) S_ .f32 w) i = Ideal.ofBits .f32 w := rfl

/-- The two cores' rows added up from the zero constant, at column j: the sum over the leading axis is the initial
    value plus the sum over the cores, and the initial value, the word 0x00000000, denotes 0. -/
theorem sumRow_apply (S : FVec Ideal S2x1x128 .f32) (j : Fin 128) :
    Host.reduceAdd (F := Ideal) S (constant (F := Ideal) S_ .f32 0x00000000#32) reducesTo_S2x1x128_S1x128_d0 h_S_
        (ix2 (0 : Fin 1) j)
      = 0 + ∑ cc : Fin 2, S (ix3 cc (0 : Fin 1) j) := by
  refine (Cert.ColumnSums.hostLeadSum_apply S (constant (F := Ideal) S_ .f32 0x00000000#32)
    reducesTo_S2x1x128_S1x128_d0 (by decide) h_S_ (0 : Fin 1) j).trans ?_
  show Ideal.ofBits .f32 0x00000000#32 + ∑ cc : Fin 2, S (ix3 cc (0 : Fin 1) j) = _
  rw [Ideal.ofBits_zero_f32]

/-- The mean row at column j. The host quotient at an entry is the quotient of the entries; the divisor's entry is
    the broadcast constant 50000. -/
theorem meanRow_apply (S : FVec Ideal S2x1x128 .f32) (j : Fin 128) :
    meanRow S (ix2 (0 : Fin 1) j) = Ideal.div (0 + ∑ cc : Fin 2, S (ix3 cc (0 : Fin 1) j)) cN50000 := by
  show Ideal.div
      (Host.reduceAdd (F := Ideal) S (constant (F := Ideal) S_ .f32 0x00000000#32) reducesTo_S2x1x128_S1x128_d0 h_S_
        (ix2 (0 : Fin 1) j))
      (broadcastInDim S1x128 ![] bcast_S_S1x128 (constant (F := Ideal) S_ .f32 0x47435000#32) (ix2 (0 : Fin 1) j)) = _
  rw [sumRow_apply, bcastConst_apply]

/-- The reciprocal deviation row at column j. Entry by entry: the host reciprocal square root of
    (mean of squares − μ · μ) + ε, the last summand being the broadcast constant ε. -/
theorem rstdRow_apply (S2 : FVec Ideal S2x1x128 .f32) (μ : FVec Ideal S1x128 .f32) (j : Fin 128) :
    rstdRow S2 μ (ix2 (0 : Fin 1) j)
      = Ideal.rsqrt (Ideal.div (0 + ∑ cc : Fin 2, S2 (ix3 cc (0 : Fin 1) j)) cN50000 - μ (ix2 (0 : Fin 1) j) * μ (ix2 (0 : Fin 1) j) + epsBN) := by
  show Ideal.rsqrt (meanRow S2 (ix2 (0 : Fin 1) j) - μ (ix2 (0 : Fin 1) j) * μ (ix2 (0 : Fin 1) j)
      + broadcastInDim S1x128 ![] bcast_S_S1x128 (constant (F := Ideal) S_ .f32 0x3727C5AC#32) (ix2 (0 : Fin 1) j)) = _
  rw [meanRow_apply, bcastConst_apply]

/-- A vector re-laid as a one-row array keeps its entries: row 0, column j is entry j. -/
theorem rowOfVec_apply (v : FVec Ideal S128 .f32) (j : Fin 128) :
    shapeCast S1x128 v shapeCasts_S128_S1x128 (ix2 (0 : Fin 1) j) = v (ix1 j) :=
  shapeCast_a_1a_apply v shapeCasts_S128_S1x128 (0 : Fin 1) j

end Cert.KernelIdeal.KValue.HostStats

end
-- ==== Proof.KernelChain.lean ====
/-
  The kernel program's result as a function of its arguments. The program is a stretch of host operations, then a
  tiled region, four times over; the fold of the launch memory through these eight segments is walked here one segment
  at a time. Stretch 0 gathers the features at the edges' sources and adds them up at the edges' targets (the
  neighbourhood sums) and re-lays the first bias as a row; region 0 forms the first layer's hidden activations and
  their per-core column sums and sums of squares; stretch 1 turns those into the mean row and the reciprocal-deviation
  row and re-lays the first scale and shift; region 1 normalises. Stretches 2, 3 and regions 2, 3 do the same for the
  second layer, fed with the first layer's result. A buffer a segment does not write keeps its contents, which is how
  the arguments and the edge rows reach the later segments. Each layer, assembled, is the one-pass arrangement
  `layerOnePass` of the layer's specification.
-/
import proofs.«156369_j37709812859563_2_alg».proof.Proof.Gen.KernelIdeal.Frame
import proofs.«156369_j37709812859563_2_alg».proof.Proof.StatsRegion0
import proofs.«156369_j37709812859563_2_alg».proof.Proof.StatsRegion2
import proofs.«156369_j37709812859563_2_alg».proof.Proof.NormRegion1
import proofs.«156369_j37709812859563_2_alg».proof.Proof.NormRegion3
import proofs.«156369_j37709812859563_2_alg».proof.Proof.HostStats
import proofs.«156369_j37709812859563_2_alg».proof.Proof.LayerAssemble
import proofs.«156369_j37709812859563_2_alg».proof.Proof.GinSpec
import Idealize.ShloMosaic.Lib.StableHlo.Run

set_option maxRecDepth 16384

noncomputable section

open scoped BigOperators

namespace Cert.KernelIdeal.KValue

open Cert.KernelIdeal Cert.KernelIdeal.Gen Cert.KernelIdeal.KValue.HostStats
open Idealize.ShloMosaic Idealize.ShloMosaic.TcCoe Idealize.ShloMosaic.ValueIdx Idealize.SL.Sem Idealize.ShloMosaic.StableHlo
open Cert.Gin

/-! ## The host operations on the edges -/

/-- The edges' source row and target row, cut out of the `[2, E]` edge array and re-laid flat. -/
def srcRow (ei : IVec S2x800000 32) : IVec S800000 32 :=
  shapeCast S800000 (extractStridedSlice S1x800000 ![0, 0] ei slices_S2x800000_S1x800000_0_0) shapeCasts_S1x800000_S800000
def dstRow (ei : IVec S2x800000 32) : IVec S800000 32 :=
  shapeCast S800000 (extractStridedSlice S1x800000 ![1, 0] ei slices_S2x800000_S1x800000_1_0) shapeCasts_S1x800000_S800000

/-- The neighbourhood sums of a feature array: rows gathered at the sources (a negative index wrapped by the number of
    nodes) and added up, from zero, at the targets. -/
def aggOf (X : FVec Ideal S50000x128 .f32) (s d : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 X
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

variable (m : (ℓ : Loc nD τ sig) → Buf (Elt Ideal) ℓ) (ρ : Dev nD → PrngReg) (c : Dev nD)

/-! ## Buffers a segment leaves alone -/

theorem h0_main_arg0 : W1 m ρ c (Proc.devRef .tc main_arg0) = W0 m ρ c (Proc.devRef .tc main_arg0) := by
  show StableHlo.after hostOps0 (W0 m ρ c) (Proc.devRef .tc main_arg0) = _
  after_results
theorem h0_main_arg2 : W1 m ρ c (Proc.devRef .tc main_arg2) = W0 m ρ c (Proc.devRef .tc main_arg2) := by
  show StableHlo.after hostOps0 (W0 m ρ c) (Proc.devRef .tc main_arg2) = _
  after_results
theorem h0_main_arg4 : W1 m ρ c (Proc.devRef .tc main_arg4) = W0 m ρ c (Proc.devRef .tc main_arg4) := by
  show StableHlo.after hostOps0 (W0 m ρ c) (Proc.devRef .tc main_arg4) = _
  after_results
theorem h0_main_arg5 : W1 m ρ c (Proc.devRef .tc main_arg5) = W0 m ρ c (Proc.devRef .tc main_arg5) := by
  show StableHlo.after hostOps0 (W0 m ρ c) (Proc.devRef .tc main_arg5) = _
  after_results
theorem h0_main_arg6 : W1 m ρ c (Proc.devRef .tc main_arg6) = W0 m ρ c (Proc.devRef .tc main_arg6) := by
  show StableHlo.after hostOps0 (W0 m ρ c) (Proc.devRef .tc main_arg6) = _
  after_results
theorem h0_main_arg7 : W1 m ρ c (Proc.devRef .tc main_arg7) = W0 m ρ c (Proc.devRef .tc main_arg7) := by
  show StableHlo.after hostOps0 (W0 m ρ c) (Proc.devRef .tc main_arg7) = _
  after_results
theorem h0_main_arg8 : W1 m ρ c (Proc.devRef .tc main_arg8) = W0 m ρ c (Proc.devRef .tc main_arg8) := by
  show StableHlo.after hostOps0 (W0 m ρ c) (Proc.devRef .tc main_arg8) = _
  after_results
theorem h0_main_arg9 : W1 m ρ c (Proc.devRef .tc main_arg9) = W0 m ρ c (Proc.devRef .tc main_arg9) := by
  show StableHlo.after hostOps0 (W0 m ρ c) (Proc.devRef .tc main_arg9) = _
  after_results
theorem r0_main_arg4 : W2 m ρ c (Proc.devRef .tc main_arg4) = W1 m ρ c (Proc.devRef .tc main_arg4) := W2_of_ne m ρ c main_arg4 (by decide)
theorem r0_main_arg5 : W2 m ρ c (Proc.devRef .tc main_arg5) = W1 m ρ c (Proc.devRef .tc main_arg5) := W2_of_ne m ρ c main_arg5 (by decide)
theorem r0_main_arg6 : W2 m ρ c (Proc.devRef .tc main_arg6) = W1 m ρ c (Proc.devRef .tc main_arg6) := W2_of_ne m ρ c main_arg6 (by decide)
theorem r0_main_arg7 : W2 m ρ c (Proc.devRef .tc main_arg7) = W1 m ρ c (Proc.devRef .tc main_arg7) := W2_of_ne m ρ c main_arg7 (by decide)
theorem r0_main_arg8 : W2 m ρ c (Proc.devRef .tc main_arg8) = W1 m ρ c (Proc.devRef .tc main_arg8) := W2_of_ne m ρ c main_arg8 (by decide)
theorem r0_main_arg9 : W2 m ρ c (Proc.devRef .tc main_arg9) = W1 m ρ c (Proc.devRef .tc main_arg9) := W2_of_ne m ρ c main_arg9 (by decide)
theorem r0_main_v1 : W2 m ρ c (Proc.devRef .tc main_v1) = W1 m ρ c (Proc.devRef .tc main_v1) := W2_of_ne m ρ c main_v1 (by decide)
theorem r0_main_v3 : W2 m ρ c (Proc.devRef .tc main_v3) = W1 m ρ c (Proc.devRef .tc main_v3) := W2_of_ne m ρ c main_v3 (by decide)
theorem h1_main_arg4 : W3 m ρ c (Proc.devRef .tc main_arg4) = W2 m ρ c (Proc.devRef .tc main_arg4) := by
  show StableHlo.after hostOps1 (W2 m ρ c) (Proc.devRef .tc main_arg4) = _
  after_results
theorem h1_main_arg5 : W3 m ρ c (Proc.devRef .tc main_arg5) = W2 m ρ c (Proc.devRef .tc main_arg5) := by
  show StableHlo.after hostOps1 (W2 m ρ c) (Proc.devRef .tc main_arg5) = _
  after_results
theorem h1_main_arg8 : W3 m ρ c (Proc.devRef .tc main_arg8) = W2 m ρ c (Proc.devRef .tc main_arg8) := by
  show StableHlo.after hostOps1 (W2 m ρ c) (Proc.devRef .tc main_arg8) = _
  after_results
theorem h1_main_arg9 : W3 m ρ c (Proc.devRef .tc main_arg9) = W2 m ρ c (Proc.devRef .tc main_arg9) := by
  show StableHlo.after hostOps1 (W2 m ρ c) (Proc.devRef .tc main_arg9) = _
  after_results
theorem h1_main_v1 : W3 m ρ c (Proc.devRef .tc main_v1) = W2 m ρ c (Proc.devRef .tc main_v1) := by
  show StableHlo.after hostOps1 (W2 m ρ c) (Proc.devRef .tc main_v1) = _
  after_results
theorem h1_main_v3 : W3 m ρ c (Proc.devRef .tc main_v3) = W2 m ρ c (Proc.devRef .tc main_v3) := by
  show StableHlo.after hostOps1 (W2 m ρ c) (Proc.devRef .tc main_v3) = _
  after_results
theorem h1_main_v15_0 : W3 m ρ c (Proc.devRef .tc main_v15_0) = W2 m ρ c (Proc.devRef .tc main_v15_0) := by
  show StableHlo.after hostOps1 (W2 m ρ c) (Proc.devRef .tc main_v15_0) = _
  after_results
theorem r1_main_arg4 : W4 m ρ c (Proc.devRef .tc main_arg4) = W3 m ρ c (Proc.devRef .tc main_arg4) := W4_of_ne m ρ c main_arg4 (by decide)
theorem r1_main_arg5 : W4 m ρ c (Proc.devRef .tc main_arg5) = W3 m ρ c (Proc.devRef .tc main_arg5) := W4_of_ne m ρ c main_arg5 (by decide)
theorem r1_main_arg8 : W4 m ρ c (Proc.devRef .tc main_arg8) = W3 m ρ c (Proc.devRef .tc main_arg8) := W4_of_ne m ρ c main_arg8 (by decide)
theorem r1_main_arg9 : W4 m ρ c (Proc.devRef .tc main_arg9) = W3 m ρ c (Proc.devRef .tc main_arg9) := W4_of_ne m ρ c main_arg9 (by decide)
theorem r1_main_v1 : W4 m ρ c (Proc.devRef .tc main_v1) = W3 m ρ c (Proc.devRef .tc main_v1) := W4_of_ne m ρ c main_v1 (by decide)
theorem r1_main_v3 : W4 m ρ c (Proc.devRef .tc main_v3) = W3 m ρ c (Proc.devRef .tc main_v3) := W4_of_ne m ρ c main_v3 (by decide)
theorem h2_main_arg4 : W5 m ρ c (Proc.devRef .tc main_arg4) = W4 m ρ c (Proc.devRef .tc main_arg4) := by
  show StableHlo.after hostOps2 (W4 m ρ c) (Proc.devRef .tc main_arg4) = _
  after_results
theorem h2_main_arg8 : W5 m ρ c (Proc.devRef .tc main_arg8) = W4 m ρ c (Proc.devRef .tc main_arg8) := by
  show StableHlo.after hostOps2 (W4 m ρ c) (Proc.devRef .tc main_arg8) = _
  after_results
theorem h2_main_arg9 : W5 m ρ c (Proc.devRef .tc main_arg9) = W4 m ρ c (Proc.devRef .tc main_arg9) := by
  show StableHlo.after hostOps2 (W4 m ρ c) (Proc.devRef .tc main_arg9) = _
  after_results
theorem h2_main_v29 : W5 m ρ c (Proc.devRef .tc main_v29) = W4 m ρ c (Proc.devRef .tc main_v29) := by
  show StableHlo.after hostOps2 (W4 m ρ c) (Proc.devRef .tc main_v29) = _
  after_results
theorem r2_main_arg8 : W6 m ρ c (Proc.devRef .tc main_arg8) = W5 m ρ c (Proc.devRef .tc main_arg8) := W6_of_ne m ρ c main_arg8 (by decide)
theorem r2_main_arg9 : W6 m ρ c (Proc.devRef .tc main_arg9) = W5 m ρ c (Proc.devRef .tc main_arg9) := W6_of_ne m ρ c main_arg9 (by decide)
theorem h3_main_v41_0 : W7 m ρ c (Proc.devRef .tc main_v41_0) = W6 m ρ c (Proc.devRef .tc main_v41_0) := by
  show StableHlo.after hostOps3 (W6 m ρ c) (Proc.devRef .tc main_v41_0) = _
  after_results

/-! ## What each stretch of host operations computes -/

theorem v1_eq : W1 m ρ c (Proc.devRef .tc main_v1) = srcRow (m ((c : Thread nD τ).loc main_arg1)) := by
  show StableHlo.after hostOps0 (W0 m ρ c) (Proc.devRef .tc main_v1) = _
  after_results
  rfl
theorem v3_eq : W1 m ρ c (Proc.devRef .tc main_v3) = dstRow (m ((c : Thread nD τ).loc main_arg1)) := by
  show StableHlo.after hostOps0 (W0 m ρ c) (Proc.devRef .tc main_v3) = _
  after_results
  rfl
theorem v13_eq : W1 m ρ c (Proc.devRef .tc main_v13) = aggOf (m ((c : Thread nD τ).loc main_arg0)) (srcRow (m ((c : Thread nD τ).loc main_arg1))) (dstRow (m ((c : Thread nD τ).loc main_arg1))) := by
  show StableHlo.after hostOps0 (W0 m ρ c) (Proc.devRef .tc main_v13) = _
  after_results_simp <;> rfl
theorem v14_eq : W1 m ρ c (Proc.devRef .tc main_v14) = shapeCast S1x128 (m ((c : Thread nD τ).loc main_arg3)) shapeCasts_S128_S1x128 := by
  show StableHlo.after hostOps0 (W0 m ρ c) (Proc.devRef .tc main_v14) = _
  after_results
  rfl
theorem v19_eq : W3 m ρ c (Proc.devRef .tc main_v19) = meanRow (W2 m ρ c (Proc.devRef .tc main_v15_1)) := by
  show StableHlo.after hostOps1 (W2 m ρ c) (Proc.devRef .tc main_v19) = _
  after_results
  rfl
theorem v26_eq : W3 m ρ c (Proc.devRef .tc main_v26) = rstdRow (W2 m ρ c (Proc.devRef .tc main_v15_2)) (meanRow (W2 m ρ c (Proc.devRef .tc main_v15_1))) := by
  show StableHlo.after hostOps1 (W2 m ρ c) (Proc.devRef .tc main_v26) = _
  after_results
  rfl
theorem v27_eq : W3 m ρ c (Proc.devRef .tc main_v27) = shapeCast S1x128 (W2 m ρ c (Proc.devRef .tc main_arg6)) shapeCasts_S128_S1x128 := by
  show StableHlo.after hostOps1 (W2 m ρ c) (Proc.devRef .tc main_v27) = _
  after_results
  rfl
theorem v28_eq : W3 m ρ c (Proc.devRef .tc main_v28) = shapeCast S1x128 (W2 m ρ c (Proc.devRef .tc main_arg7)) shapeCasts_S128_S1x128 := by
  show StableHlo.after hostOps1 (W2 m ρ c) (Proc.devRef .tc main_v28) = _
  after_results
  rfl
theorem v39_eq : W5 m ρ c (Proc.devRef .tc main_v39) = aggOf (W4 m ρ c (Proc.devRef .tc main_v29)) (W4 m ρ c (Proc.devRef .tc main_v1)) (W4 m ρ c (Proc.devRef .tc main_v3)) := by
  show StableHlo.after hostOps2 (W4 m ρ c) (Proc.devRef .tc main_v39) = _
  after_results
  rfl
theorem v40_eq : W5 m ρ c (Proc.devRef .tc main_v40) = shapeCast S1x128 (W4 m ρ c (Proc.devRef .tc main_arg5)) shapeCasts_S128_S1x128 := by
  show StableHlo.after hostOps2 (W4 m ρ c) (Proc.devRef .tc main_v40) = _
  after_results
  rfl
theorem v45_eq : W7 m ρ c (Proc.devRef .tc main_v45) = meanRow (W6 m ρ c (Proc.devRef .tc main_v41_1)) := by
  show StableHlo.after hostOps3 (W6 m ρ c) (Proc.devRef .tc main_v45) = _
  after_results
  rfl
theorem v52_eq : W7 m ρ c (Proc.devRef .tc main_v52) = rstdRow (W6 m ρ c (Proc.devRef .tc main_v41_2)) (meanRow (W6 m ρ c (Proc.devRef .tc main_v41_1))) := by
  show StableHlo.after hostOps3 (W6 m ρ c) (Proc.devRef .tc main_v52) = _
  after_results
  rfl
theorem v53_eq : W7 m ρ c (Proc.devRef .tc main_v53) = shapeCast S1x128 (W6 m ρ c (Proc.devRef .tc main_arg8)) shapeCasts_S128_S1x128 := by
  show StableHlo.after hostOps3 (W6 m ρ c) (Proc.devRef .tc main_v53) = _
  after_results
  rfl
theorem v54_eq : W7 m ρ c (Proc.devRef .tc main_v54) = shapeCast S1x128 (W6 m ρ c (Proc.devRef .tc main_arg9)) shapeCasts_S128_S1x128 := by
  show StableHlo.after hostOps3 (W6 m ρ c) (Proc.devRef .tc main_v54) = _
  after_results
  rfl

/-! ## The two layers -/

/-- The arguments as arrays. -/
abbrev a0 : FVec Ideal S50000x128 .f32 := (m ((c : Thread nD τ).loc main_arg0))
abbrev a1 : IVec S2x800000 32 := (m ((c : Thread nD τ).loc main_arg1))
abbrev a2 : FVec Ideal S128x128 .f32 := (m ((c : Thread nD τ).loc main_arg2))
abbrev a3 : FVec Ideal S128 .f32 := (m ((c : Thread nD τ).loc main_arg3))
abbrev a4 : FVec Ideal S128x128 .f32 := (m ((c : Thread nD τ).loc main_arg4))
abbrev a5 : FVec Ideal S128 .f32 := (m ((c : Thread nD τ).loc main_arg5))
abbrev a6 : FVec Ideal S128 .f32 := (m ((c : Thread nD τ).loc main_arg6))
abbrev a7 : FVec Ideal S128 .f32 := (m ((c : Thread nD τ).loc main_arg7))
abbrev a8 : FVec Ideal S128 .f32 := (m ((c : Thread nD τ).loc main_arg8))
abbrev a9 : FVec Ideal S128 .f32 := (m ((c : Thread nD τ).loc main_arg9))

/-- The first layer's neighbourhood sums and result, the second layer's neighbourhood sums and result. -/
def agg1 : FVec Ideal S50000x128 .f32 := aggOf (a0 m c) (srcRow (a1 m c)) (dstRow (a1 m c))
def out1 : FVec Ideal S50000x128 .f32 :=
  layerOnePass (N := 50000) (K := 128) (J := 128) cN50000 epsBN (a0 m c) (agg1 m c) (a2 m c) (a3 m c) (a6 m c) (a7 m c)
def agg2 : FVec Ideal S50000x128 .f32 := aggOf (out1 m c) (srcRow (a1 m c)) (dstRow (a1 m c))
def out2 : FVec Ideal S50000x128 .f32 :=
  layerOnePass (N := 50000) (K := 128) (J := 128) cN50000 epsBN (out1 m c) (agg2 m c) (a4 m c) (a5 m c) (a8 m c) (a9 m c)

/-- The first layer's hidden activations, from the arguments. -/
theorem hidden1_eq : Stats0.hiddenOf (V1 m ρ) c
    = hidden (rows (a0 m c)) (rows (agg1 m c)) (rows (a2 m c)) (vec (a3 m c)) := by
  have e0 : (V1 m ρ c main_arg0 : S50000x128.Idx → EReal) = a0 m c := h0_main_arg0 m ρ c
  have e13 : (V1 m ρ c main_v13 : S50000x128.Idx → EReal) = agg1 m c := v13_eq m ρ c
  have e2 : (V1 m ρ c main_arg2 : S128x128.Idx → EReal) = a2 m c := h0_main_arg2 m ρ c
  have e14 : (V1 m ρ c main_v14 : S1x128.Idx → EReal) = shapeCast S1x128 (a3 m c) shapeCasts_S128_S1x128 := v14_eq m ρ c
  unfold Stats0.hiddenOf
  rw [e0, e13, e2, e14]
  exact congrArg (hidden (rows (a0 m c)) (rows (agg1 m c)) (rows (a2 m c))) (funext fun j => rowOfVec_apply (a3 m c) j)

/-- THE FIRST LAYER: what region 1 leaves in its result buffer is the layer's one-pass arrangement of the arguments. -/
theorem layer1_eq : W4 m ρ c (Proc.devRef .tc main_v29) = out1 m c := by
  have f0 : (V3 m ρ c main_v15_0 : S50000x128.Idx → EReal) = arrOf (Stats0.hiddenOf (V1 m ρ) c) :=
    (h1_main_v15_0 m ρ c).trans ((W2_arr m ρ c 4).trans (Stats0.final4 (V1 m ρ) c))
  have f1 : (V3 m ρ c main_v19 : S1x128.Idx → EReal) = meanRow (Stats0.sumsArr (V1 m ρ) c) :=
    (v19_eq m ρ c).trans (congrArg meanRow ((W2_arr m ρ c 5).trans (Stats0.final5 (V1 m ρ) c)))
  have f2 : (V3 m ρ c main_v26 : S1x128.Idx → EReal)
      = rstdRow (Stats0.sqsArr (V1 m ρ) c) (meanRow (Stats0.sumsArr (V1 m ρ) c)) :=
    (v26_eq m ρ c).trans (congrArg₂ rstdRow ((W2_arr m ρ c 6).trans (Stats0.final6 (V1 m ρ) c))
      (congrArg meanRow ((W2_arr m ρ c 5).trans (Stats0.final5 (V1 m ρ) c))))
  have f3 : (V3 m ρ c main_v27 : S1x128.Idx → EReal) = shapeCast S1x128 (a6 m c) shapeCasts_S128_S1x128 :=
    (v27_eq m ρ c).trans (congrArg (fun x : FVec Ideal S128 .f32 => shapeCast S1x128 x shapeCasts_S128_S1x128)
      ((r0_main_arg6 m ρ c).trans (h0_main_arg6 m ρ c)))
  have f4 : (V3 m ρ c main_v28 : S1x128.Idx → EReal) = shapeCast S1x128 (a7 m c) shapeCasts_S128_S1x128 :=
    (v28_eq m ρ c).trans (congrArg (fun x : FVec Ideal S128 .f32 => shapeCast S1x128 x shapeCasts_S128_S1x128)
      ((r0_main_arg7 m ρ c).trans (h0_main_arg7 m ρ c)))
  refine (W4_arr m ρ c 5).trans ((Norm1.final (V3 m ρ) c).trans ?_)
  rw [f0, f1, f2, f3, f4]
  refine normArr_eq_layerOnePass cN50000 epsBN (a0 m c) (agg1 m c) (a2 m c) (a3 m c) (a6 m c) (a7 m c)
    (arrOf (Stats0.hiddenOf (V1 m ρ) c)) (Stats0.sumsArr (V1 m ρ) c) (Stats0.sqsArr (V1 m ρ) c) _ _ _ _
    (fun n j => ?_) (fun cc j => Stats0.sumsArr_apply (V1 m ρ) c cc j) (fun cc j => Stats0.sqsArr_apply (V1 m ρ) c cc j)
    (fun j => meanRow_apply _ j) (fun j => rstdRow_apply _ _ j) (fun j => rowOfVec_apply _ j) (fun j => rowOfVec_apply _ j)
  rw [hidden1_eq m ρ c]
  rfl

/-- The second layer's hidden activations, from the first layer's result and the arguments. -/
theorem hidden2_eq : Stats2.hiddenOf (V5 m ρ) c
    = hidden (rows (out1 m c)) (rows (agg2 m c)) (rows (a4 m c)) (vec (a5 m c)) := by
  have e0 : (V5 m ρ c main_v29 : S50000x128.Idx → EReal) = out1 m c := (h2_main_v29 m ρ c).trans (layer1_eq m ρ c)
  have es : W4 m ρ c (Proc.devRef .tc main_v1) = srcRow (a1 m c) :=
    (r1_main_v1 m ρ c).trans ((h1_main_v1 m ρ c).trans ((r0_main_v1 m ρ c).trans (v1_eq m ρ c)))
  have ed : W4 m ρ c (Proc.devRef .tc main_v3) = dstRow (a1 m c) :=
    (r1_main_v3 m ρ c).trans ((h1_main_v3 m ρ c).trans ((r0_main_v3 m ρ c).trans (v3_eq m ρ c)))
  have e39 : (V5 m ρ c main_v39 : S50000x128.Idx → EReal) = agg2 m c := by
    refine (v39_eq m ρ c).trans ?_
    rw [layer1_eq m ρ c, es, ed]
    rfl
  have e4 : (V5 m ρ c main_arg4 : S128x128.Idx → EReal) = a4 m c :=
    (h2_main_arg4 m ρ c).trans ((r1_main_arg4 m ρ c).trans ((h1_main_arg4 m ρ c).trans ((r0_main_arg4 m ρ c).trans (h0_main_arg4 m ρ c))))
  have e5 : W4 m ρ c (Proc.devRef .tc main_arg5) = a5 m c :=
    (r1_main_arg5 m ρ c).trans ((h1_main_arg5 m ρ c).trans ((r0_main_arg5 m ρ c).trans (h0_main_arg5 m ρ c)))
  have e40 : (V5 m ρ c main_v40 : S1x128.Idx → EReal) = shapeCast S1x128 (a5 m c) shapeCasts_S128_S1x128 :=
    (v40_eq m ρ c).trans (congrArg (fun x : FVec Ideal S128 .f32 => shapeCast S1x128 x shapeCasts_S128_S1x128) e5)
  unfold Stats2.hiddenOf
  rw [e0, e39, e4, e40]
  exact congrArg (hidden (rows (out1 m c)) (rows (agg2 m c)) (rows (a4 m c))) (funext fun j => rowOfVec_apply (a5 m c) j)

/-- THE SECOND LAYER, and with it the program's result: what region 3 leaves in the result buffer. -/
theorem layer2_eq : W8 m ρ c (Proc.devRef .tc main_v55) = out2 m c := by
  have e8 : W6 m ρ c (Proc.devRef .tc main_arg8) = a8 m c :=
    (r2_main_arg8 m ρ c).trans ((h2_main_arg8 m ρ c).trans ((r1_main_arg8 m ρ c).trans ((h1_main_arg8 m ρ c).trans
      ((r0_main_arg8 m ρ c).trans (h0_main_arg8 m ρ c)))))
  have e9 : W6 m ρ c (Proc.devRef .tc main_arg9) = a9 m c :=
    (r2_main_arg9 m ρ c).trans ((h2_main_arg9 m ρ c).trans ((r1_main_arg9 m ρ c).trans ((h1_main_arg9 m ρ c).trans
      ((r0_main_arg9 m ρ c).trans (h0_main_arg9 m ρ c)))))
  have f0 : (V7 m ρ c main_v41_0 : S50000x128.Idx → EReal) = arrOf (Stats2.hiddenOf (V5 m ρ) c) :=
    (h3_main_v41_0 m ρ c).trans ((W6_arr m ρ c 4).trans (Stats2.final4 (V5 m ρ) c))
  have f1 : (V7 m ρ c main_v45 : S1x128.Idx → EReal) = meanRow (Stats2.sumsArr (V5 m ρ) c) :=
    (v45_eq m ρ c).trans (congrArg meanRow ((W6_arr m ρ c 5).trans (Stats2.final5 (V5 m ρ) c)))
  have f2 : (V7 m ρ c main_v52 : S1x128.Idx → EReal)
      = rstdRow (Stats2.sqsArr (V5 m ρ) c) (meanRow (Stats2.sumsArr (V5 m ρ) c)) :=
    (v52_eq m ρ c).trans (congrArg₂ rstdRow ((W6_arr m ρ c 6).trans (Stats2.final6 (V5 m ρ) c))
      (congrArg meanRow ((W6_arr m ρ c 5).trans (Stats2.final5 (V5 m ρ) c))))
  have f3 : (V7 m ρ c main_v53 : S1x128.Idx → EReal) = shapeCast S1x128 (a8 m c) shapeCasts_S128_S1x128 :=
    (v53_eq m ρ c).trans (congrArg (fun x : FVec Ideal S128 .f32 => shapeCast S1x128 x shapeCasts_S128_S1x128) e8)
  have f4 : (V7 m ρ c main_v54 : S1x128.Idx → EReal) = shapeCast S1x128 (a9 m c) shapeCasts_S128_S1x128 :=
    (v54_eq m ρ c).trans (congrArg (fun x : FVec Ideal S128 .f32 => shapeCast S1x128 x shapeCasts_S128_S1x128) e9)
  refine (W8_arr m ρ c 5).trans ((Norm3.final (V7 m ρ) c).trans ?_)
  rw [f0, f1, f2, f3, f4]
  refine normArr_eq_layerOnePass cN50000 epsBN (out1 m c) (agg2 m c) (a4 m c) (a5 m c) (a8 m c) (a9 m c)
    (arrOf (Stats2.hiddenOf (V5 m ρ) c)) (Stats2.sumsArr (V5 m ρ) c) (Stats2.sqsArr (V5 m ρ) c) _ _ _ _
    (fun n j => ?_) (fun cc j => Stats2.sumsArr_apply (V5 m ρ) c cc j) (fun cc j => Stats2.sqsArr_apply (V5 m ρ) c cc j)
    (fun j => meanRow_apply _ j) (fun j => rstdRow_apply _ _ j) (fun j => rowOfVec_apply _ j) (fun j => rowOfVec_apply _ j)
  rw [hidden2_eq m ρ c]
  rfl

end Cert.KernelIdeal.KValue

end
-- ==== Proof.RefLayers.lean ====
/-
  The reference program is two batch-normalised graph layers, one after the other.

  The module this one imports reads the reference one operation at a time: a stage function for every operation, and a lemma
  reading each stage at an index from the stages before it. Here those readings are composed, layer by layer, into the
  entry-by-entry formula of the specification:

      hidden activations   h n j = max (∑ k, (x n k + a n k) · W k j + b j) 0          (stages %14 … %19)
      column means         μ j   = (0 + ∑ n, h n j) / N                                 (stages %20 … %22)
      column variances     v j   = (0 + ∑ n, (h n j − μ j) · (h n j − μ j)) / N         (stages %23 … %29)
      the layer's result   (h n j − μ j) · (v j + ε)^(−1/2) · γ j + β j                 (stages %30 … %44)

  where a n k are the neighbourhood sums of the features (a gather of rows at the edges' sources added up at the edges'
  targets, stages %0 … %13), which are carried along as one array function and never opened.

  The second layer (stages %45 … %85) is the text of the first with the first layer's result in the place of the
  features, the second weight matrix, bias, scale and shift in the place of the first, and the same edge list; so its
  stage functions ARE the first layer's stage functions at those arguments, by unfolding definitions, and the reading
  of the first layer serves twice.
-/
import proofs.«156369_j37709812859563_2_alg».proof.Proof.ReferenceRead
import proofs.«156369_j37709812859563_2_alg».proof.Proof.GinSpec

noncomputable section

open scoped BigOperators

namespace Cert.ReferenceIdeal.RefValue

open Cert.ReferenceIdeal Cert.ReferenceIdeal.Read Idealize.ShloMosaic Idealize.ShloMosaic.ValueIdx Cert.Gin

/-- The neighbourhood sums of a feature array: rows gathered at the edges' sources and added up at their targets (the reference's operations %0 … %13 as one array function). -/
abbrev agg (X : (⟨S50000x128, .f32⟩ : BufTy).Contents (Elt Ideal)) (ei : (⟨S2x800000, .i32⟩ : BufTy).Contents (Elt Ideal)) :
    (⟨S50000x128, .f32⟩ : BufTy).Contents (Elt Ideal) := val_main_v13 (F := Ideal) X ei

/-! ## The first layer, stage by stage -/

section Layer

variable (X : (⟨S50000x128, .f32⟩ : BufTy).Contents (Elt Ideal)) (ei : (⟨S2x800000, .i32⟩ : BufTy).Contents (Elt Ideal))
  (W : (⟨S128x128, .f32⟩ : BufTy).Contents (Elt Ideal)) (b γ β : (⟨S128, .f32⟩ : BufTy).Contents (Elt Ideal))

/-- The hidden activations of the layer with features `X`, edge list `ei`, weights `W` and bias `b`, as the specification
    writes them. -/
abbrev hid : Fin 50000 → Fin 128 → EReal :=
  hidden (N := 50000) (K := 128) (J := 128) (rows X) (rows (agg X ei)) (rows W) (vec b)

/-- A vector spread over the rows (made a one-row matrix, then repeated 50000 times) reads, at row `n` and column `j`,
    its entry `j`. The bias, the scale and the shift enter the layer this way, and so do the means and the inverse
    standard deviations: every such pair of stages is this pair at another vector. -/
theorem spread_apply (v : (⟨S128, .f32⟩ : BufTy).Contents (Elt Ideal)) (n : Fin 50000) (j : Fin 128) :
    val_main_v17 (F := Ideal) v (ix2 n j) = v (ix1 j) := by
  rewrite [val_main_v17_apply, val_main_v16_apply]
  exact congrArg v (funext fun a => by match a with | ⟨0, _⟩ => rfl)

/-- The zero the rectifier compares with. -/
theorem relu_zero (i : S50000x128.Idx) : val_main_call0_v0 (F := Ideal) i = (0 : EReal) := by
  rw [val_main_call0_v0_apply, val_main_call0_cst_apply, Ideal.ofBits_def, Ideal.ofBits_zero_f32]

/-- %14, %15: the product of (features + neighbourhood sums) with the weights. The contraction runs over the columns `k`
    of the left operand, read at `(n, k)`, and the rows `k` of the weights, read at `(k, j)`. -/
theorem dot_apply (n : Fin 50000) (j : Fin 128) :
    val_main_v15 (F := Ideal) X ei W (ix2 n j) = ∑ k : Fin 128, (X (ix2 n k) + agg X ei (ix2 n k)) * W (ix2 k j) := by
  rw [val_main_v15_apply]
  refine Finset.sum_congr rfl fun k _ => ?_
  have el : lidx_main_v15 (ix2 n j) k = ix2 n k := funext fun a => by match a with | ⟨0, _⟩ => rfl | ⟨1, _⟩ => rfl
  have er : ridx_main_v15 (ix2 n j) k = ix2 k j := funext fun a => by match a with | ⟨0, _⟩ => rfl | ⟨1, _⟩ => rfl
  rw [el, er, val_main_v14_apply, Ideal.addf_def]

/-- %16 … %19: adding the bias and rectifying gives the hidden activations. -/
theorem hidden_apply (n : Fin 50000) (j : Fin 128) :
    val_main_v19 (F := Ideal) X ei W b (ix2 n j) = hid X ei W b n j := by
  rewrite [val_main_v19_apply, val_main_v18_apply, dot_apply, spread_apply, relu_zero, Ideal.addf_def, Ideal.maximumf_def]
  rfl

/-- %20: the column sums of the hidden activations, started from the zero word. -/
theorem colsum_apply (j : Fin 128) :
    val_main_v20 (F := Ideal) X ei W b (ix1 j) = 0 + ∑ n : Fin 50000, hid X ei W b n j := by
  rw [val_main_v20_apply, val_main_cst_1_apply, Ideal.ofBits_def, Ideal.ofBits_zero_f32]
  refine congrArg ((0 : EReal) + ·) (Finset.sum_congr rfl fun n _ => ?_)
  have e : idx_main_v20 (ix1 j) n = ix2 n j := funext fun a => by match a with | ⟨0, _⟩ => rfl | ⟨1, _⟩ => rfl
  rw [e, hidden_apply]

/-- %21, %22: divided by the word of 50000, the column means. -/
theorem mean_apply (j : Fin 128) :
    val_main_v22 (F := Ideal) X ei W b (ix1 j) = mean cN50000 (hid X ei W b) j := by
  rewrite [val_main_v22_apply, colsum_apply, val_main_v21_apply, val_main_cst_2_apply, Ideal.hostDivf_def, Ideal.ofBits_def]
  rfl

/-- %23 … %25: the deviations from the column means. -/
theorem dev_apply (n : Fin 50000) (j : Fin 128) :
    val_main_v25 (F := Ideal) X ei W b (ix2 n j) = hid X ei W b n j - mean cN50000 (hid X ei W b) j := by
  rewrite [val_main_v25_apply, hidden_apply, Ideal.subf_def]
  exact congrArg (hid X ei W b n j - ·) ((spread_apply (val_main_v22 (F := Ideal) X ei W b) n j).trans (mean_apply X ei W b j))

/-- %30 … %32: the deviations once more, as the program forms them a second time for the result. -/
theorem dev_apply' (n : Fin 50000) (j : Fin 128) :
    val_main_v32 (F := Ideal) X ei W b (ix2 n j) = hid X ei W b n j - mean cN50000 (hid X ei W b) j := by
  rewrite [val_main_v32_apply, hidden_apply, Ideal.subf_def]
  exact congrArg (hid X ei W b n j - ·) ((spread_apply (val_main_v22 (F := Ideal) X ei W b) n j).trans (mean_apply X ei W b j))

/-- %26 … %29: the column sums of the squared deviations, divided by the word of 50000: the two-pass variances. -/
theorem var_apply (j : Fin 128) :
    val_main_v29 (F := Ideal) X ei W b (ix1 j) = varTwoPass cN50000 (hid X ei W b) j := by
  rewrite [val_main_v29_apply, val_main_v27_apply, val_main_cst_3_apply, val_main_v28_apply, val_main_cst_4_apply,
    Ideal.hostDivf_def, Ideal.ofBits_def, Ideal.ofBits_def, Ideal.ofBits_zero_f32]
  unfold varTwoPass
  refine congrArg (fun s => Ideal.div (0 + s) cN50000) (Finset.sum_congr rfl fun n _ => ?_)
  have e : idx_main_v27 (ix1 j) n = ix2 n j := funext fun a => by match a with | ⟨0, _⟩ => rfl | ⟨1, _⟩ => rfl
  rw [e, val_main_v26_apply, dev_apply, Ideal.mulf_def]

/-- %33 … %35: the inverse standard deviations, with the normalisation's epsilon under the root. -/
theorem rstd_apply (j : Fin 128) :
    val_main_v35 (F := Ideal) X ei W b (ix1 j) = Ideal.rsqrt (varTwoPass cN50000 (hid X ei W b) j + epsBN) := by
  rw [val_main_v35_apply, val_main_v34_apply, var_apply, val_main_v33_apply, val_main_cst_5_apply,
    Ideal.hostUnary_rsqrt_def, Ideal.addf_def, Ideal.ofBits_def]

/-- The first layer of the reference is one layer of the specification, with the two-pass variance. -/
theorem layer_eq :
    val_main_v44 (F := Ideal) X ei W b γ β = layerTwoPass (N := 50000) (K := 128) (J := 128) cN50000 epsBN X (agg X ei) W b γ β := by
  funext i
  obtain ⟨n, j, rfl⟩ : ∃ (n : Fin 50000) (j : Fin 128), i = ix2 n j := ⟨i 0, i 1, eq_ix2 i⟩
  show _ = bnTwoPass cN50000 epsBN (hid X ei W b) (vec γ) (vec β) n j
  rewrite [val_main_v44_apply, val_main_v41_apply, val_main_v38_apply, dev_apply',
    show val_main_v37 (F := Ideal) X ei W b (ix2 n j) = val_main_v35 (F := Ideal) X ei W b (ix1 j) from
      spread_apply (val_main_v35 (F := Ideal) X ei W b) n j,
    rstd_apply,
    show val_main_v40 (F := Ideal) γ (ix2 n j) = γ (ix1 j) from spread_apply γ n j,
    show val_main_v43 (F := Ideal) β (ix2 n j) = β (ix1 j) from spread_apply β n j,
    Ideal.addf_def, Ideal.mulf_def, Ideal.mulf_def]
  rfl

end Layer

/-! ## The second layer is the first at other arguments

Each equation below holds by unfolding the stage functions on both sides: the second layer's stages were printed from the
same source lines as the first layer's, so after unfolding the two sides are the same term (the constants and the
spreading stages are separate copies with equal bodies). The last equation is the one used; the ones before it do not
feed it, they show where the two texts line up. -/

section Second

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 x9 : (⟨S128, .f32⟩ : BufTy).Contents (Elt Ideal))

/-- %45 … %54: the second layer's neighbourhood sums are those of the first layer's result, over the same edges. -/
theorem second_agg :
    val_main_v54 (F := Ideal) x0 x1 x2 x3 x6 x7 = agg (val_main_v44 (F := Ideal) x0 x1 x2 x3 x6 x7) x1 := rfl

/-- %55 … %60: its hidden activations are the first layer's, at the first layer's result and the second weights and bias. -/
theorem second_hidden :
    val_main_v60 (F := Ideal) x0 x1 x2 x3 x4 x5 x6 x7
      = val_main_v19 (F := Ideal) (val_main_v44 (F := Ideal) x0 x1 x2 x3 x6 x7) x1 x4 x5 := rfl

/-- %61 … %63: its column means. -/
theorem second_mean :
    val_main_v63 (F := Ideal) x0 x1 x2 x3 x4 x5 x6 x7
      = val_main_v22 (F := Ideal) (val_main_v44 (F := Ideal) x0 x1 x2 x3 x6 x7) x1 x4 x5 := rfl

/-- %64 … %70: its column variances. -/
theorem second_var :
    val_main_v70 (F := Ideal) x0 x1 x2 x3 x4 x5 x6 x7
      = val_main_v29 (F := Ideal) (val_main_v44 (F := Ideal) x0 x1 x2 x3 x6 x7) x1 x4 x5 := rfl

/-- %71 … %79: the centred activations times the inverse standard deviations. -/
theorem second_scaled :
    val_main_v79 (F := Ideal) x0 x1 x2 x3 x4 x5 x6 x7
      = val_main_v38 (F := Ideal) (val_main_v44 (F := Ideal) x0 x1 x2 x3 x6 x7) x1 x4 x5 := rfl

/-- %80 … %85: the whole second layer is the first layer's last stage at the first layer's result. -/
theorem second_layer :
    val_main_v85 (F := Ideal) x0 x1 x2 x3 x4 x5 x6 x7 x8 x9
      = val_main_v44 (F := Ideal) (val_main_v44 (F := Ideal) x0 x1 x2 x3 x6 x7) x1 x4 x5 x8 x9 := rfl

end Second

/-- The reference's result is two layers of the specification, the second fed with the first one's result and with the
    neighbourhood sums of that result. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 x6 x7 x8 x9 : (⟨S128, .f32⟩ : BufTy).Contents (Elt Ideal)) :
    val_main_v85 (F := Ideal) x0 x1 x2 x3 x4 x5 x6 x7 x8 x9
      = layerTwoPass (N := 50000) (K := 128) (J := 128) cN50000 epsBN
          (layerTwoPass (N := 50000) (K := 128) (J := 128) cN50000 epsBN x0 (agg x0 x1) x2 x3 x6 x7)
          (agg (layerTwoPass (N := 50000) (K := 128) (J := 128) cN50000 epsBN x0 (agg x0 x1) x2 x3 x6 x7) x1) x4 x5 x8 x9 := by
  rw [second_layer, layer_eq (val_main_v44 (F := Ideal) x0 x1 x2 x3 x6 x7) x1 x4 x5 x8 x9, layer_eq x0 x1 x2 x3 x6 x7]

end Cert.ReferenceIdeal.RefValue

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.FiniteInputs.lean ====
/-
  From "every float input is finite" to "every entry of every float input is a real number".

  The precondition tests each float input x by "every entry of |x| is strictly below +∞" and joins the nine tests by
  and. Each test is a reduction by and, over all axes, of the one-bit comparison array |x| < c, where c is the f32 word
  0x7F800000 broadcast to the shape of x. At the ideal values a float is an extended real, |x| is max x (-x), and the
  word 0x7F800000 denotes ⊤. Three facts carry the proof:

    · a reduction by and that came out 1 met a 1 at every index, so max (x i) (-(x i)) < ⊤ for every i;
    · an extended real whose absolute value is below ⊤ is neither ⊤ nor ⊥ (since -⊥ = ⊤), hence a real;
    · an and of one-bit words is 1 exactly when both words are, which splits the nine tests apart.

  The middle steps are stated for an arbitrary shape and reduction, so one lemma serves all nine inputs.
-/
import proofs.«156369_j37709812859563_2_alg».proof.Pre_finite_inputs
import proofs.«156369_j37709812859563_2_alg».proof.Proof.LibRealSum
import Idealize.ShloMosaic.Lib.ReduceAll
import Idealize.ShloMosaic.Lib.ValueIdx
noncomputable section
namespace Cert.FiniteInputs
open Idealize.ShloMosaic Cert.Lib.RealSum Cert.Pre_finite_inputs

/-- The scalar shape has exactly one index: an index is a function on its zero axes. -/
instance : Subsingleton S_.Idx := ⟨fun _ _ => funext fun d => d.elim0⟩

/-- A one-bit word made from a Boolean is 1 exactly when the Boolean is true. -/
theorem ofBool_eq_one (b : Bool) : BitVec.ofBool b = 1#1 ↔ b = true := by cases b <;> decide

/-- The f32 word 0x7F800000 (sign clear, exponent all ones, fraction zero) denotes +∞. -/
theorem ofBits_inf : Ideal.ofBits .f32 0x7F800000#32 = (⊤ : EReal) := by simp [Ideal.ofBits, Ideal.ieee]

/-- An extended real whose absolute value max x (-x) lies strictly below ⊤ is a real number: x = ⊤ is excluded
    outright, and x = ⊥ is excluded because -⊥ = ⊤. -/
theorem isReal_of_abs_lt_top (x : EReal) (h : max x (-x) < ⊤) : IsReal x := by
  induction x using EReal.rec with
  | bot => exact absurd h (by simp)
  | coe r => exact IsReal.coe r
  | top => exact absurd h (by simp)

/-- One element of the comparison array |x| < +∞ being 1 says that entry of x is real. Read at the index i, the
    comparison is the one-bit word of the proposition max (x i) (-(x i)) < c, where c is the only element of the
    broadcast constant: the denotation of the word 0x7F800000, which is ⊤. -/
theorem isReal_of_cmp {s : Shape} (x : FVec Ideal s .f32) (hb : S_.BroadcastsInDim s (![] : Fin 0 → Fin s.rank))
    (i : s.Idx)
    (h : cmpf .olt (Host.absf x) (broadcastInDim s ![] hb (constant (F := Ideal) S_ .f32 0x7F800000#32)) i = 1#1) :
    IsReal (x i) := by
  have e : BitVec.ofBool (decide (max (x i) (-(x i)) < Ideal.ofBits .f32 0x7F800000#32)) = 1#1 := h
  rw [ofBits_inf, ofBool_eq_one, decide_eq_true_eq] at e
  exact isReal_of_abs_lt_top _ e

/-- The test "every entry of |x| is below +∞" read back, for any shape and any reduction of it to a scalar: if the
    reduction by and of the comparison array came out 1, then every entry of x is real. A reduction by and that
    is 1 met a 1 at every operand index; the element lemma above turns each such 1 into a real entry. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, IsReal (x i) :=
  fun i => isReal_of_cmp x hb i (Host.reduce_andi_all _ _ hr hu ValueIdx.ix0 h i)

/-- The precondition decoded. At its one index the precondition is the and of nine reductions, nested to the left in
    the order of the float inputs (the integer input a1 is not tested). An and of one-bit words is 1 exactly when
    both are, so the hypothesis splits into nine facts, each of the form the lemma above reads. -/
theorem real_of_finite [Cert.Pre_finite_inputs.Facts]
    (a0 : FVec Ideal S50000x128 .f32) (a1 : IVec S2x800000 32) (a2 : FVec Ideal S128x128 .f32) (a3 : FVec Ideal S128 .f32)
    (a4 : FVec Ideal S128x128 .f32) (a5 a6 a7 a8 a9 : FVec Ideal S128 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  -- the hypothesis at the scalar result's one index, with the definition of the precondition unfolded
  have e := congrFun h ValueIdx.ix0
  dsimp only [Cert.Pre_finite_inputs.fn, Cert.Pre_finite_inputs.fn_part1, Cert.Pre_finite_inputs.fn_part2, andi] at e
  -- ((((((((t0 and t2) and t3) and t4) and t5) and t6) and t7) and t8) and t9) = 1, split into its nine parts
  simp only [IntOp.andi_eq_one] at e
  obtain ⟨⟨⟨⟨⟨⟨⟨⟨h0, h2⟩, h3⟩, h4⟩, h5⟩, h6⟩, h7⟩, h8⟩, h9⟩ := e
  exact ⟨real_of_all a0 _ _ _ h0, real_of_all a2 _ _ _ h2, real_of_all a3 _ _ _ h3, real_of_all a4 _ _ _ h4,
    real_of_all a5 _ _ _ h5, real_of_all a6 _ _ _ h6, real_of_all a7 _ _ _ h7, real_of_all a8 _ _ _ h8,
    real_of_all a9 _ _ _ h9⟩

end Cert.FiniteInputs

end
-- ==== Proof.LibRealNorm.lean ====
/-
  Real entries among the extended reals, continued: what a normalisation layer needs beyond sums and products.

  * closure of "is a real number" under negation, subtraction, the exponential, a quotient by a nonzero real, the
    host's sum along axes, and the logistic gate `y · (1 / (1 + exp (−y)))`;
  * a positive normal binary32 pattern denotes a positive real;
  * THE AFFINE LAW of a normalisation: for real `a μ r γ β`,
        a · (γ · r) + (β − μ · (γ · r))  =  (a − μ) · r · γ + β.
    On the extended reals this is false at infinities (the left side distributes a product over a difference), which
    is why every factor is first shown to be a real number.
-/
import Idealize.ShloMosaic.PureOps.Ideal
import Idealize.ShloMosaic.PureOps.Ideal.Laws
import proofs.«156369_j37709812859563_2_alg».proof.Proof.LibRealSum

noncomputable section

namespace Cert.Lib.RealNorm

open Idealize.ShloMosaic Cert.Lib.RealSum

theorem isReal_one : IsReal (1 : EReal) := ⟨1, EReal.coe_one.symm⟩

theorem isReal_neg {x : EReal} (hx : IsReal x) : IsReal (-x) := by
  obtain ⟨a, rfl⟩ := hx; exact ⟨-a, (EReal.coe_neg a).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_exp {x : EReal} (hx : IsReal x) : IsReal (Ideal.exp x) := by
  obtain ⟨a, rfl⟩ := hx; exact ⟨Real.exp a, rfl⟩

/-- A real divided by a nonzero real is a real: the ideal quotient is the product with the reciprocal. -/
theorem isReal_div {x : EReal} (hx : IsReal x) {r : ℝ} (hr : r ≠ 0) : IsReal (Ideal.div x (r : EReal)) := by
  rw [Ideal.div_coe hr]; exact hx.mul (IsReal.coe _)

/-- The host's sum along axes of a real array, from a real initial value, is real at every index. -/
theorem isReal_hostReduceAdd {s : Shape} {axes : List (Fin s.rank)} {t : Shape} (h : s.ReducesTo axes t)
    (x : s.Idx → EReal) (init : EReal) (hx : ∀ i, IsReal (x i)) (hi : IsReal init) (j : t.Idx) :
    IsReal (Ideal.hostReduceAdd h x init j) := by
  unfold Ideal.hostReduceAdd
  exact hi.add (IsReal.sum _ _ fun i _ => hx i)

/-- The exponential of a real is a positive real, so one plus it is a nonzero real. -/
theorem one_add_exp_neg (a : ℝ) : (1 : EReal) + Ideal.exp (-(a : EReal)) = ((1 + Real.exp (-a) : ℝ) : EReal) := by
  rw [← EReal.coe_neg]; rfl

/-- The logistic gate of a real is a real. -/
theorem isReal_gate {y : EReal} (hy : IsReal y) : IsReal (y * Ideal.div 1 (1 + Ideal.exp (-y))) := by
  obtain ⟨a, rfl⟩ := hy
  rw [one_add_exp_neg, Ideal.div_coe (by positivity)]
  exact (IsReal.coe a).mul (isReal_one.mul (IsReal.coe _))

/-- On a real the logistic function is the quotient `1 / (1 + exp (−y))`: both are the real `(1 + e^{−y})⁻¹`. -/
theorem logistic_coe_eq_div (a : ℝ) :
    Ideal.logistic (a : EReal) = Ideal.div 1 (1 + Ideal.exp (-(a : EReal))) := by
  rw [Ideal.logistic_coe, one_add_exp_neg, Ideal.div_coe (by positivity), one_mul, one_div]

theorem isReal_logistic {y : EReal} (hy : IsReal y) : IsReal (Ideal.logistic y) := by
  obtain ⟨a, rfl⟩ := hy; rw [Ideal.logistic_coe]; exact IsReal.coe _

/-- The affine law on reals. -/
theorem affine_coe (a μ r γ β : ℝ) :
    (a : EReal) * ((γ : EReal) * (r : EReal)) + ((β : EReal) - (μ : EReal) * ((γ : EReal) * (r : EReal)))
      = ((a : EReal) - (μ : EReal)) * (r : EReal) * (γ : EReal) + (β : EReal) := by
  simp only [← EReal.coe_mul, ← EReal.coe_sub, ← EReal.coe_add]
  congr 1; ring

/-- THE AFFINE LAW: scaling by `γ·r` and shifting by `β − μ·(γ·r)` is centring at `μ`, scaling by `r`, then by `γ`, and
    shifting by `β` — for real numbers. -/
theorem affine {a μ r γ β : EReal} (ha : IsReal a) (hμ : IsReal μ) (hr : IsReal r) (hγ : IsReal γ) (hβ : IsReal β) :
    a * (γ * r) + (β - μ * (γ * r)) = (a - μ) * r * γ + β := by
  obtain ⟨a, rfl⟩ := ha; obtain ⟨μ, rfl⟩ := hμ; obtain ⟨r, rfl⟩ := hr; obtain ⟨γ, rfl⟩ := hγ; obtain ⟨β, rfl⟩ := hβ
  exact affine_coe a μ r γ β

/-- A binary32 pattern with sign bit clear and exponent field neither all zeros nor all ones denotes a positive
    real: `(2^23 + fraction) · 2^(exponent − 127 − 23)`. -/
theorem ofBits_pos_of_normal (b : BitVec 32) (hs : (b.extractLsb' 31 1 == 1#1) = false)
    (h1 : (b.extractLsb' 23 8).toNat ≠ 255) (h0 : (b.extractLsb' 23 8).toNat ≠ 0) :
    ∃ r : ℝ, 0 < r ∧ Ideal.ofBits .f32 b = (r : EReal) := by
  refine ⟨(1 : ℝ) * ((2 ^ 23 + (b.extractLsb' 0 23).toNat : ℕ) : ℝ) * (2 : ℝ) ^ (((b.extractLsb' 23 8).toNat : Int) - (2 ^ (8 - 1) - 1) - 23), by positivity, ?_⟩
  show Ideal.ieee 8 23 b = _
  unfold Ideal.ieee
  simp only [hs]
  rw [if_neg (by simpa using h1), if_neg h0]
  simp

end Cert.Lib.RealNorm

end
-- ==== Proof.GinLaws.lean ====
/-
  The laws of a batch-normalised graph layer on REAL entries of the extended reals.

  The layer's values live on the extended reals, where a product does not distribute over a sum (`⊤ + ⊥`), so the
  identity behind the one-pass variance,

      (∑ n, (r n − μ)²) / N  =  (∑ n, r n²) / N − μ²        (μ = (∑ n, r n) / N),

  which over ℝ is an expansion of the square, has no reason to hold there. This module therefore first shows that the
  hidden activations of a layer with real inputs are real (`hidden_real`), then reads the mean and the two variances
  of a real column as coercions of real numbers (`mean_coe`, `varTwoPass_coe`, `varOnePass_coe`), proves the
  identity over ℝ (`real_var_identity`) and transports it (`varOnePass_eq_varTwoPass`). The two normalisations and
  the two whole layers then agree (`bnOnePass_eq_bnTwoPass`, `layerOnePass_eq_layerTwoPass`).

  The two-pass variance of a real column is moreover the coercion of a NONNEGATIVE real (a sum of squares over `N`);
  adding a positive `ε` gives a positive real, whose reciprocal square root is a real: so a normalised layer of real
  inputs is real (`bnTwoPass_real`, `layerTwoPass_real`).

  Last, the two float words the layer spells: `50000.0` and the positive `ε`.
-/
import proofs.«156369_j37709812859563_2_alg».proof.Proof.GinSpec
import proofs.«156369_j37709812859563_2_alg».proof.Proof.LibRealSum
import proofs.«156369_j37709812859563_2_alg».proof.Proof.LibRealNorm

noncomputable section

open scoped BigOperators

namespace Cert.Gin

open Idealize.ShloMosaic Idealize.ShloMosaic.ValueIdx Cert.Lib.RealSum Cert.Lib.RealNorm

variable {N K J : ℕ}

/-! ## The two float words -/

/-- The word `0x47435000`: sign clear, exponent field `142`, fraction `0x435000`, so
    `(2^23 + 4411392) · 2^(142 − 127 − 23) = 12800000 / 256 = 50000`. -/
theorem cN50000_eq : cN50000 = ((50000 : ℝ) : EReal) := by
  simp [Ideal.ofBits, Ideal.ieee, -EReal.coe_mul]; norm_num

/-- The word `0x3727C5AC`: sign clear and exponent field `110`, neither all zeros nor all ones — a positive normal
    number, hence a positive real. -/
theorem epsBN_pos : ∃ e : ℝ, 0 < e ∧ epsBN = (e : EReal) :=
  ofBits_pos_of_normal 0x3727C5AC#32 (by decide) (by decide) (by decide)

/-! ## The hidden activations of real inputs are real -/

/-- Each hidden activation is built from the inputs by sums, products, one finite sum and a maximum with zero, and
    every one of these keeps real numbers real. -/
theorem hidden_real (x a : Fin N → Fin K → EReal) (W : Fin K → Fin J → EReal) (b : Fin J → EReal)
    (hx : ∀ n k, IsReal (x n k)) (ha : ∀ n k, IsReal (a n k)) (hW : ∀ k j, IsReal (W k j)) (hb : ∀ j, IsReal (b j)) :
    ∀ n j, IsReal (hidden x a W b n j) := by
  intro n j
  have hdot : IsReal (∑ k, (x n k + a n k) * W k j) :=
    IsReal.sum _ _ fun k _ => ((hx n k).add (ha n k)).mul (hW k j)
  exact (hdot.add (hb j)).max IsReal.zero

/-! ## The mean and the two variances of a real column, as real numbers -/

/-- A family of reals is the coercion of a real family. -/
theorem exists_real_family (h : Fin N → Fin J → EReal) (hh : ∀ n j, IsReal (h n j)) :
    ∃ r : Fin N → Fin J → ℝ, h = fun n j => (r n j : EReal) := by
  choose r hr using hh
  exact ⟨r, funext fun n => funext fun j => hr n j⟩

/-- The number of nodes, as a real, is not zero. -/
theorem natCast_ne_zero (hN : 0 < N) : (N : ℝ) ≠ 0 := Nat.cast_ne_zero.mpr hN.ne'

/-- The mean of a real column is the real mean: the quotient by the nonzero real `N` is a product with `1 / N`, the
    leading zero drops, and the coercion passes through the sum and the product. -/
theorem mean_coe (hN : 0 < N) (r : Fin N → Fin J → ℝ) (j : Fin J) :
    mean ((N : ℝ) : EReal) (fun n j => (r n j : EReal)) j = (((∑ n, r n j) / N : ℝ) : EReal) := by
  unfold mean
  rw [Ideal.div_coe (natCast_ne_zero hN), zero_add, ← coe_sum, ← EReal.coe_mul, mul_one_div]

/-- The two-pass variance of a real column is the real mean of the squared deviations from the real mean. -/
theorem varTwoPass_coe (hN : 0 < N) (r : Fin N → Fin J → ℝ) (j : Fin J) :
    varTwoPass ((N : ℝ) : EReal) (fun n j => (r n j : EReal)) j
      = (((∑ n, (r n j - (∑ m, r m j) / N) * (r n j - (∑ m, r m j) / N)) / N : ℝ) : EReal) := by
  unfold varTwoPass
  rw [mean_coe hN r j, Ideal.div_coe (natCast_ne_zero hN), zero_add]
  simp only [← EReal.coe_sub, ← EReal.coe_mul, ← coe_sum]
  rw [mul_one_div]

/-- The one-pass variance of a real column is the real mean of the squares minus the square of the real mean. -/
theorem varOnePass_coe (hN : 0 < N) (r : Fin N → Fin J → ℝ) (j : Fin J) :
    varOnePass ((N : ℝ) : EReal) (fun n j => (r n j : EReal)) j
      = (((∑ n, r n j * r n j) / N - (∑ m, r m j) / N * ((∑ m, r m j) / N) : ℝ) : EReal) := by
  unfold varOnePass
  rw [mean_coe hN r j, Ideal.div_coe (natCast_ne_zero hN), zero_add]
  simp only [← EReal.coe_mul, ← coe_sum, ← EReal.coe_sub]
  rw [mul_one_div]

/-! ## The identity over the reals -/

/-- Over ℝ, with `μ` the mean of `c`: the mean of the squared deviations from `μ` is the mean of the squares minus
    `μ²`. Expanding `(c n − μ)² = c n² − 2 μ c n + μ²` and adding up gives `∑ c n² − 2 μ ∑ c n + N μ²`; since
    `∑ c n = N μ` this is `∑ c n² − N μ²`, and dividing by `N` gives the claim. -/
theorem real_var_identity (hN : 0 < N) (c : Fin N → ℝ) :
    (∑ n, (c n - (∑ m, c m) / N) * (c n - (∑ m, c m) / N)) / N
      = (∑ n, c n * c n) / N - (∑ m, c m) / N * ((∑ m, c m) / N) := by
  have hN' : (N : ℝ) ≠ 0 := natCast_ne_zero hN
  set μ : ℝ := (∑ m, c m) / N with hμ
  have hS : ∑ m, c m = N * μ := by rw [hμ, mul_div_cancel₀ _ hN']
  have hexp : ∑ n, (c n - μ) * (c n - μ) = ∑ n, c n * c n - N * (μ * μ) := by
    calc ∑ n, (c n - μ) * (c n - μ)
        = ∑ n, (c n * c n - 2 * μ * c n + μ * μ) := Finset.sum_congr rfl fun n _ => by ring
      _ = ∑ n, c n * c n - 2 * μ * ∑ n, c n + N * (μ * μ) := by
          rw [Finset.sum_add_distrib, Finset.sum_sub_distrib, ← Finset.mul_sum, Finset.sum_const,
            Finset.card_univ, Fintype.card_fin, nsmul_eq_mul]
      _ = ∑ n, c n * c n - N * (μ * μ) := by rw [hS]; ring
  rw [hexp, sub_div, mul_div_cancel_left₀ _ hN']

/-! ## The two variances, the two normalisations and the two layers agree on real entries -/

/-- On a real column the one-pass variance is the two-pass variance. On the extended reals this can fail (an infinite
    entry makes `∑ h² / N − μ²` a difference of infinities), which is why the entries are assumed real: both sides
    are then coercions of reals and the identity is the one over ℝ. -/
theorem varOnePass_eq_varTwoPass (hN : 0 < N) (cN : EReal) (hc : cN = ((N : ℝ) : EReal)) (h : Fin N → Fin J → EReal)
    (hh : ∀ n j, IsReal (h n j)) (j : Fin J) : varOnePass cN h j = varTwoPass cN h j := by
  obtain ⟨r, rfl⟩ := exists_real_family h hh
  subst hc
  rw [varOnePass_coe hN r j, varTwoPass_coe hN r j, real_var_identity hN fun n => r n j]

/-- The two normalisations differ only in the variance under the reciprocal square root, and on real entries the two
    variances are equal column by column. -/
theorem bnOnePass_eq_bnTwoPass (hN : 0 < N) (cN eps : EReal) (hc : cN = ((N : ℝ) : EReal)) (h : Fin N → Fin J → EReal)
    (hh : ∀ n j, IsReal (h n j)) (γ β : Fin J → EReal) : bnOnePass cN eps h γ β = bnTwoPass cN eps h γ β := by
  have hvar : (fun j => Ideal.rsqrt (varOnePass cN h j + eps)) = fun j => Ideal.rsqrt (varTwoPass cN h j + eps) :=
    funext fun j => by rw [varOnePass_eq_varTwoPass hN cN hc h hh j]
  unfold bnOnePass bnTwoPass
  rw [hvar]

/-! ## A normalised real column is real -/

/-- The mean of a real column is real. -/
theorem mean_real (hN : 0 < N) (cN : EReal) (hc : cN = ((N : ℝ) : EReal)) (h : Fin N → Fin J → EReal)
    (hh : ∀ n j, IsReal (h n j)) (j : Fin J) : IsReal (mean cN h j) := by
  obtain ⟨r, rfl⟩ := exists_real_family h hh
  subst hc
  rw [mean_coe hN r j]
  exact IsReal.coe _

/-- The two-pass variance of a real column is a NONNEGATIVE real: a sum of squares divided by the number of nodes. -/
theorem varTwoPass_nonneg (hN : 0 < N) (cN : EReal) (hc : cN = ((N : ℝ) : EReal)) (h : Fin N → Fin J → EReal)
    (hh : ∀ n j, IsReal (h n j)) (j : Fin J) : ∃ v : ℝ, 0 ≤ v ∧ varTwoPass cN h j = (v : EReal) := by
  obtain ⟨r, rfl⟩ := exists_real_family h hh
  subst hc
  exact ⟨_, div_nonneg (Finset.sum_nonneg fun n _ => mul_self_nonneg _) (Nat.cast_nonneg N), varTwoPass_coe hN r j⟩

/-- Batch normalisation keeps real entries real: the variance is a nonnegative real, so the variance plus a positive
    `ε` is a positive real and its reciprocal square root is real; the rest is a difference, two products and a sum of
    reals. -/
theorem bnTwoPass_real (hN : 0 < N) (cN eps : EReal) (hc : cN = ((N : ℝ) : EReal)) (e : ℝ) (he : 0 < e) (heps : eps = (e : EReal))
    (h : Fin N → Fin J → EReal) (hh : ∀ n j, IsReal (h n j)) (γ β : Fin J → EReal) (hγ : ∀ j, IsReal (γ j)) (hβ : ∀ j, IsReal (β j)) :
    ∀ n j, IsReal (bnTwoPass cN eps h γ β n j) := by
  intro n j
  obtain ⟨v, hv, hvar⟩ := varTwoPass_nonneg hN cN hc h hh j
  have hμ : IsReal (mean cN h j) := mean_real hN cN hc h hh j
  have hr : IsReal (Ideal.rsqrt (varTwoPass cN h j + eps)) := by
    rw [hvar, heps, ← EReal.coe_add]
    exact IsReal.rsqrt_of_pos (add_pos_of_nonneg_of_pos hv he)
  show IsReal ((h n j - mean cN h j) * Ideal.rsqrt (varTwoPass cN h j + eps) * γ j + β j)
  exact (((isReal_sub (hh n j) hμ).mul hr).mul (hγ j)).add (hβ j)

/-! ## The whole layer -/

/-- The hidden activations of a layer whose arrays are real are real. -/
theorem hidden_rows_real (X A : (⟨2, ![N, K]⟩ : Shape).Idx → EReal) (W : (⟨2, ![K, J]⟩ : Shape).Idx → EReal)
    (b : (⟨1, ![J]⟩ : Shape).Idx → EReal) (hX : ∀ i, IsReal (X i)) (hA : ∀ i, IsReal (A i)) (hW : ∀ i, IsReal (W i))
    (hb : ∀ i, IsReal (b i)) : ∀ n j, IsReal (hidden (rows X) (rows A) (rows W) (vec b) n j) :=
  hidden_real (rows X) (rows A) (rows W) (vec b) (fun n k => hX (ix2 n k)) (fun n k => hA (ix2 n k))
    (fun k j => hW (ix2 k j)) (fun j => hb (ix1 j))

/-- The two layers are the two normalisations of the same hidden activations, which are real. -/
theorem layerOnePass_eq_layerTwoPass (hN : 0 < N) (cN eps : EReal) (hc : cN = ((N : ℝ) : EReal))
    (X A : (⟨2, ![N, K]⟩ : Shape).Idx → EReal) (W : (⟨2, ![K, J]⟩ : Shape).Idx → EReal) (b γ β : (⟨1, ![J]⟩ : Shape).Idx → EReal)
    (hX : ∀ i, IsReal (X i)) (hA : ∀ i, IsReal (A i)) (hW : ∀ i, IsReal (W i)) (hb : ∀ i, IsReal (b i)) :
    layerOnePass cN eps X A W b γ β = layerTwoPass cN eps X A W b γ β := by
  unfold layerOnePass layerTwoPass
  rw [bnOnePass_eq_bnTwoPass hN cN eps hc _ (hidden_rows_real X A W b hX hA hW hb)]

/-- Every entry of a layer of real arrays is real: an index is a pair of coordinates, and at a pair the layer is the
    normalisation of the real hidden activations. -/
theorem layerTwoPass_real (hN : 0 < N) (cN eps : EReal) (hc : cN = ((N : ℝ) : EReal)) (e : ℝ) (he : 0 < e) (heps : eps = (e : EReal))
    (X A : (⟨2, ![N, K]⟩ : Shape).Idx → EReal) (W : (⟨2, ![K, J]⟩ : Shape).Idx → EReal) (b γ β : (⟨1, ![J]⟩ : Shape).Idx → EReal)
    (hX : ∀ i, IsReal (X i)) (hA : ∀ i, IsReal (A i)) (hW : ∀ i, IsReal (W i)) (hb : ∀ i, IsReal (b i)) (hγ : ∀ i, IsReal (γ i)) (hβ : ∀ i, IsReal (β i)) :
    ∀ i, IsReal (layerTwoPass cN eps X A W b γ β i) := by
  intro i
  obtain ⟨n, j, rfl⟩ : ∃ n j, i = ix2 n j := ⟨i 0, i 1, eq_ix2 i⟩
  unfold layerTwoPass
  rw [arrOf_apply]
  exact bnTwoPass_real hN cN eps hc e he heps _ (hidden_rows_real X A W b hX hA hW hb) (vec γ) (vec β)
    (fun j => hγ (ix1 j)) (fun j => hβ (ix1 j)) n j

end Cert.Gin

end
-- ==== Proof.TwoLayers.lean ====
/-
  Two batch-normalised graph layers in a row: the one-pass and the two-pass arrangement agree on real inputs.

  A layer takes node features together with their neighbourhood sums. Here the neighbourhood sum is ANY operator
  `agg` on arrays that keeps real entries real; nothing else about it is used. The second layer's features are the
  first layer's output, and its neighbourhood sums are `agg` of that output.

  One layer's two arrangements agree as soon as its inputs are real (`layerOnePass_eq_layerTwoPass`: on the extended
  reals the one-pass variance can be a difference of infinities, on reals it is the two-pass variance). For the
  first layer the inputs are real by hypothesis. For the second they are the first layer's output and `agg` of it: the
  two-pass output of a real layer is real (`layerTwoPass_real`, which needs the positive `ε`), hence so is `agg` of it.
-/
import proofs.«156369_j37709812859563_2_alg».proof.Proof.GinSpec
import proofs.«156369_j37709812859563_2_alg».proof.Proof.GinLaws
import proofs.«156369_j37709812859563_2_alg».proof.Proof.LibRealSum

noncomputable section

namespace Cert.Gin

open Idealize.ShloMosaic Idealize.ShloMosaic.ValueIdx Cert.Lib.RealSum

/-- The divisor word is the number of nodes, `50000`, read as a natural number and then as a real. -/
theorem cN50000_cast : cN50000 = (((50000 : ℕ) : ℝ) : EReal) := by
  rw [cN50000_eq, Nat.cast_ofNat]

theorem two_layers_eq (agg : ((⟨2, ![50000, 128]⟩ : Shape).Idx → EReal) → ((⟨2, ![50000, 128]⟩ : Shape).Idx → EReal))
    (hagg : ∀ X : (⟨2, ![50000, 128]⟩ : Shape).Idx → EReal, (∀ i, IsReal (X i)) → ∀ i, IsReal (agg X i))
    (x0 : (⟨2, ![50000, 128]⟩ : Shape).Idx → EReal) (x2 x4 : (⟨2, ![128, 128]⟩ : Shape).Idx → EReal)
    (x3 x5 x6 x7 x8 x9 : (⟨1, ![128]⟩ : Shape).Idx → EReal)
    (h0 : ∀ i, IsReal (x0 i)) (h2 : ∀ i, IsReal (x2 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h9 : ∀ i, IsReal (x9 i)) :
    layerOnePass (N := 50000) (K := 128) (J := 128) cN50000 epsBN
        (layerOnePass (N := 50000) (K := 128) (J := 128) cN50000 epsBN x0 (agg x0) x2 x3 x6 x7)
        (agg (layerOnePass (N := 50000) (K := 128) (J := 128) cN50000 epsBN x0 (agg x0) x2 x3 x6 x7)) x4 x5 x8 x9
      = layerTwoPass (N := 50000) (K := 128) (J := 128) cN50000 epsBN
        (layerTwoPass (N := 50000) (K := 128) (J := 128) cN50000 epsBN x0 (agg x0) x2 x3 x6 x7)
        (agg (layerTwoPass (N := 50000) (K := 128) (J := 128) cN50000 epsBN x0 (agg x0) x2 x3 x6 x7)) x4 x5 x8 x9 := by
  obtain ⟨e, he, heps⟩ := epsBN_pos
  have hN : 0 < 50000 := by norm_num
  -- the first layer: its inputs `x0`, `agg x0`, `x2`, `x3` are real, so its two arrangements agree …
  have hL1 : layerOnePass (N := 50000) (K := 128) (J := 128) cN50000 epsBN x0 (agg x0) x2 x3 x6 x7
      = layerTwoPass (N := 50000) (K := 128) (J := 128) cN50000 epsBN x0 (agg x0) x2 x3 x6 x7 :=
    layerOnePass_eq_layerTwoPass hN cN50000 epsBN cN50000_cast x0 (agg x0) x2 x3 x6 x7 h0 (hagg x0 h0) h2 h3
  -- … and, its scale `x6` and shift `x7` being real too, its output is real
  have hR1 : ∀ i, IsReal (layerTwoPass (N := 50000) (K := 128) (J := 128) cN50000 epsBN x0 (agg x0) x2 x3 x6 x7 i) :=
    layerTwoPass_real hN cN50000 epsBN cN50000_cast e he heps x0 (agg x0) x2 x3 x6 x7 h0 (hagg x0 h0) h2 h3 h6 h7
  -- the second layer reads that real output and `agg` of it, so its two arrangements agree as well
  rw [hL1]
  exact layerOnePass_eq_layerTwoPass hN cN50000 epsBN cN50000_cast _ _ x4 x5 x8 x9 hR1 (hagg _ hR1) h4 h5

end Cert.Gin

end
-- ==== Proof.AggReal.lean ====
/-
  The neighbourhood sums of a real array are real.

  The reference program forms the neighbourhood sums of the node features `X` in three steps: it gathers, for every
  edge, the feature row of the node at one end of the edge; it starts from an array of zeros; and it adds every
  gathered row into the row of the node at the edge's other end (an accumulating scatter). Which rows are read and
  where they are added depends on the edge list's values, and none of that matters here:

  * a gathered entry is SOME entry of `X`, wherever the index points, hence real;
  * the array of zeros is real;
  * every entry of the accumulating scatter is the operand's entry plus a finite sum of update entries, and a finite
    sum of reals is real.

  So neither the gather nor the scatter is opened: only the two closure lemmas for them are used.
-/
import proofs.«156369_j37709812859563_2_alg».proof.Proof.ReferenceRead
import proofs.«156369_j37709812859563_2_alg».proof.Proof.LibRealSum

noncomputable section

namespace Cert.ReferenceIdeal.RefReal

open Cert.ReferenceIdeal Cert.ReferenceIdeal.Read Idealize.ShloMosaic Cert.Lib.RealSum

/-- The array the scatter starts from is the zero word broadcast to every entry, and the zero word is the real `0`. -/
theorem zeros_real (i : S50000x128.Idx) : IsReal (val_main_v11 (F := Ideal) i) := by
  rw [val_main_v11_apply, val_main_cst_apply]
  exact IsReal.ofBits_zero

/-- Every gathered entry is an entry of `X`, whatever the edge list says, so it is real. -/
theorem gathered_real (X : (⟨S50000x128, .f32⟩ : BufTy).Contents (Elt Ideal)) (ei : (⟨S2x800000, .i32⟩ : BufTy).Contents (Elt Ideal))
    (hX : ∀ i, IsReal (X i)) : ∀ j, IsReal (val_main_v10 (F := Ideal) X ei j) := by
  intro j
  unfold val_main_v10
  exact IsReal.host_gather _ X _ hX j

/-- The neighbourhood sums: real zeros plus finite sums of real gathered entries. -/
theorem agg_real (X : (⟨S50000x128, .f32⟩ : BufTy).Contents (Elt Ideal)) (ei : (⟨S2x800000, .i32⟩ : BufTy).Contents (Elt Ideal))
    (hX : ∀ i, IsReal (X i)) : ∀ i, IsReal (val_main_v13 (F := Ideal) X ei i) := by
  intro i
  unfold val_main_v13
  exact IsReal.host_scatterAdd _ _ _ _ zeros_real (gathered_real X ei hX) i

end Cert.ReferenceIdeal.RefReal

end
-- ==== Proof.Bridge.lean ====
/-
  The kernel's two layers are the reference's two layers. Both programs gather the features at the edges' sources and
  add them up at the edges' targets with the same host operations, so the neighbourhood sums are one and the same
  array function of the features and the edge array. The kernel's layers take the variance in one pass (mean of the
  squares minus the squared mean), the reference's in two (mean of the squared deviations); on real entries the two
  agree, and a layer's result on real entries is real again, so the agreement carries through the second layer. The
  entries are real because the certificate's precondition says every float input is finite.
-/
import proofs.«156369_j37709812859563_2_alg».proof.Proof.KernelChain
import proofs.«156369_j37709812859563_2_alg».proof.Proof.RefLayers
import proofs.«156369_j37709812859563_2_alg».proof.Proof.TwoLayers
import proofs.«156369_j37709812859563_2_alg».proof.Proof.AggReal

noncomputable section

namespace Cert.Proof.GinBridge

open Idealize.ShloMosaic Idealize.SL.Sem Cert.Gin Cert.Lib.RealSum
open Cert.KernelIdeal.KValue

/-- The kernel's neighbourhood sums are the reference's: the same slices, wrap of negative indices, gather and
    accumulating scatter, operation for operation. -/
theorem agg_same (X : FVec Ideal Cert.KernelIdeal.S50000x128 .f32) (ei : IVec Cert.KernelIdeal.S2x800000 32) :
    aggOf X (srcRow ei) (dstRow ei) = Cert.ReferenceIdeal.RefValue.agg X ei := rfl

/-- On real arguments the kernel's result (two one-pass layers) is the reference's (two two-pass layers). -/
theorem out2_eq (m : (ℓ : Loc Cert.KernelIdeal.nD Cert.KernelIdeal.τ Cert.KernelIdeal.sig) → Buf (Elt Ideal) ℓ) (c : Dev Cert.KernelIdeal.nD)
    (h0 : ∀ i, IsReal (a0 m c i)) (h2 : ∀ i, IsReal (a2 m c i)) (h3 : ∀ i, IsReal (a3 m c i)) (h4 : ∀ i, IsReal (a4 m c i))
    (h5 : ∀ i, IsReal (a5 m c i)) (h6 : ∀ i, IsReal (a6 m c i)) (h7 : ∀ i, IsReal (a7 m c i)) (h8 : ∀ i, IsReal (a8 m c i))
    (h9 : ∀ i, IsReal (a9 m c i)) :
    out2 m c = layerTwoPass (N := 50000) (K := 128) (J := 128) cN50000 epsBN
        (layerTwoPass (N := 50000) (K := 128) (J := 128) cN50000 epsBN (a0 m c) (Cert.ReferenceIdeal.RefValue.agg (a0 m c) (a1 m c)) (a2 m c) (a3 m c) (a6 m c) (a7 m c))
        (Cert.ReferenceIdeal.RefValue.agg (layerTwoPass (N := 50000) (K := 128) (J := 128) cN50000 epsBN (a0 m c) (Cert.ReferenceIdeal.RefValue.agg (a0 m c) (a1 m c)) (a2 m c) (a3 m c) (a6 m c) (a7 m c)) (a1 m c))
        (a4 m c) (a5 m c) (a8 m c) (a9 m c) := by
  unfold out2 agg2 out1 agg1
  rw [agg_same, agg_same]
  exact two_layers_eq (fun X => Cert.ReferenceIdeal.RefValue.agg X (a1 m c))
    (fun X hX => Cert.ReferenceIdeal.RefReal.agg_real X (a1 m c) hX)
    (a0 m c) (a2 m c) (a4 m c) (a3 m c) (a5 m c) (a6 m c) (a7 m c) (a8 m c) (a9 m c) h0 h2 h3 h4 h5 h6 h7 h8 h9

end Cert.Proof.GinBridge

end
-- ==== Proof.lean ====
/-
  The certificate of a two-layer graph-isomorphism network with batch normalisation: the tiled kernel program, its
  idealization, and the plain reference, at 50000 nodes, 800000 edges and 128 features.

  Each layer adds to every node's features the sum of its in-neighbours' features, multiplies by a weight matrix, adds
  a bias, rectifies, and then normalises every feature column by its mean and variance over the nodes. The kernel
  program does the gather-and-add on the host, the product, bias, rectifier and the column sums of the activations and
  of their squares in a tiled region split over two cores, the mean and the reciprocal deviation on the host again
  (variance as mean of squares minus squared mean), and the normalisation in a second tiled region; the reference does
  everything on the host with the variance as the mean of the squared deviations.

  * The three frame claims: the kernel program's and its idealization's frames are the generated frame certificates;
    the reference's is its run with the result dropped.
  * `preserves`: the idealization rewrote nothing, so there is nothing to state.
  * `algebraic`: the kernel's run leaves in its result buffer the fold of the launch memory through its eight
    segments (`run_main`), which is two one-pass layers of the arguments (`layer2_eq`); the reference's run leaves two
    two-pass layers (`result_eq`); on finite inputs every entry is real, the two variances agree, and so do the results
    (`out2_eq`).
-/
import proofs.«156369_j37709812859563_2_alg».proof.Defs
import proofs.«156369_j37709812859563_2_alg».proof.Proof.Gen.Kernel
import proofs.«156369_j37709812859563_2_alg».proof.Proof.Gen.Kernel.Skeleton
import proofs.«156369_j37709812859563_2_alg».proof.Proof.Gen.Kernel.Launch
import proofs.«156369_j37709812859563_2_alg».proof.Proof.Gen.Kernel.Points
import proofs.«156369_j37709812859563_2_alg».proof.Proof.Gen.Kernel.Frame
import proofs.«156369_j37709812859563_2_alg».proof.Proof.Gen.KernelIdeal
import proofs.«156369_j37709812859563_2_alg».proof.Proof.Gen.KernelIdeal.Skeleton
import proofs.«156369_j37709812859563_2_alg».proof.Proof.Gen.KernelIdeal.Launch
import proofs.«156369_j37709812859563_2_alg».proof.Proof.Gen.KernelIdeal.Points
import proofs.«156369_j37709812859563_2_alg».proof.Proof.Gen.KernelIdeal.Frame
import proofs.«156369_j37709812859563_2_alg».proof.Proof.Gen.ReferenceIdeal
import proofs.«156369_j37709812859563_2_alg».proof.Proof.Gen.Pre_finite_inputs
import proofs.«156369_j37709812859563_2_alg».proof.Proof.ReferenceRun
import proofs.«156369_j37709812859563_2_alg».proof.Proof.ReferenceRead
import proofs.«156369_j37709812859563_2_alg».proof.Proof.RunMain
import proofs.«156369_j37709812859563_2_alg».proof.Proof.KernelChain
import proofs.«156369_j37709812859563_2_alg».proof.Proof.RefLayers
import proofs.«156369_j37709812859563_2_alg».proof.Proof.FiniteInputs
import proofs.«156369_j37709812859563_2_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the extended reals, from memories agreeing on the arguments, both programs end with the same result: the
    kernel's two one-pass layers and the reference's two two-pass layers of finite, hence real, inputs. -/
theorem algebraic : Cert.algebraic_KernelIdeal_ReferenceIdeal := by
  intro m ρ m' ρ' hpre hagree
  refine ⟨fun c => Cert.KernelIdeal.KValue.out2 m c, ?_, ?_⟩
  · exact (θ_run Cert.KernelIdeal.defs _ _).mono
      (fun r h c => ⟨(h c).1.trans (Cert.KernelIdeal.KValue.layer2_eq m ρ c), (h c).2⟩)
      (Cert.KernelIdeal.KValue.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    obtain ⟨r0, r2, r3, r4, r5, r6, r7, r8, r9⟩ := Cert.FiniteInputs.real_of_finite _ _ _ _ _ _ _ _ _ _ (hpre c)
    rw [Cert.ReferenceIdeal.Read.val_main_v85_eq, Cert.ReferenceIdeal.RefValue.result_eq, e0, e1, e2, e3, e4, e5, e6, e7, e8, e9]
    exact (Cert.Proof.GinBridge.out2_eq m c r0 r2 r3 r4 r5 r6 r7 r8 r9).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
